-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S8x16x4096 : Shape := ⟨3, ![8, 16, 4096]⟩
abbrev S1x8x4096x16 : Shape := ⟨4, ![1, 8, 4096, 16]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S8x16x4096 : S_.BroadcastsInDim S8x16x4096 (![] : Fin 0 → Fin S8x16x4096.rank)
  reducesTo_S8x16x4096_S_d0_1_2 : S8x16x4096.ReducesTo [0, 1, 2] S_
  bcast_S_S1x8x4096x16 : S_.BroadcastsInDim S1x8x4096x16 (![] : Fin 0 → Fin S1x8x4096x16.rank)
  reducesTo_S1x8x4096x16_S_d0_1_2_3 : S1x8x4096x16.ReducesTo [0, 1, 2, 3] S_

variable [Facts]

def fn_part1 {F : FTy → Type} [FloatOps F] (main_arg4 : FVec F S1x8x4096x16 .f32) (main_v13 : IVec S_ 1) (main_v16 : IVec S8x16x4096 1) : IVec S_ 1 :=
  let main_c_5 : IVec S_ 1 := constantI S_ 1 1#1
  let main_v17 : IVec S_ 1 := (fun x v => Host.reduce IntOp.andi x v reducesTo_S8x16x4096_S_d0_1_2 h_S_) main_v16 main_c_5
  let main_v18 : IVec S_ 1 := andi main_v13 main_v17
  let main_v19 : FVec F S1x8x4096x16 .f32 := Host.absf main_arg4
  let main_cst_6 : FVec F S_ .f32 := constant S_ .f32 0x7F800000#32
  let main_v20 : FVec F S1x8x4096x16 .f32 := broadcastInDim S1x8x4096x16 ![] bcast_S_S1x8x4096x16 main_cst_6
  let main_v21 : IVec S1x8x4096x16 1 := cmpf .olt main_v19 main_v20
  let main_c_7 : IVec S_ 1 := constantI S_ 1 1#1
  let main_v22 : IVec S_ 1 := (fun x v => Host.reduce IntOp.andi x v reducesTo_S1x8x4096x16_S_d0_1_2_3 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S8x16x4096 .f32) (main_arg4 : FVec F S1x8x4096x16 .f32) (main_arg5 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x16x4096 .f32 := Host.absf main_arg3
  let main_cst_4 : FVec F S_ .f32 := constant S_ .f32 0x7F800000#32
  let main_v15 : FVec F S8x16x4096 .f32 := broadcastInDim S8x16x4096 ![] bcast_S_S8x16x4096 main_cst_4
  let main_v16 : IVec S8x16x4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S8x16x4096 : Shape := ⟨3, ![8, 16, 4096]⟩
abbrev S1x8x4096x16 : Shape := ⟨4, ![1, 8, 4096, 16]⟩
abbrev S8192 : Shape := ⟨1, ![8192]⟩
abbrev S128x4096 : Shape := ⟨2, ![128, 4096]⟩
abbrev S8x4096x16 : Shape := ⟨3, ![8, 4096, 16]⟩
abbrev S1x4096 : Shape := ⟨2, ![1, 4096]⟩
abbrev S8192x1 : Shape := ⟨2, ![8192, 1]⟩
abbrev S1x8 : Shape := ⟨2, ![1, 8]⟩
abbrev S8192x8 : Shape := ⟨2, ![8192, 8]⟩
abbrev S8192x8x16 : Shape := ⟨3, ![8192, 8, 16]⟩
abbrev S8192x128 : Shape := ⟨2, ![8192, 128]⟩
abbrev S2048x512 : Shape := ⟨2, ![2048, 512]⟩
abbrev S1024x512 : Shape := ⟨2, ![1024, 512]⟩
abbrev S128x512 : Shape := ⟨2, ![128, 512]⟩
abbrev S128x1024 : Shape := ⟨2, ![128, 1024]⟩
abbrev S2048x128 : Shape := ⟨2, ![2048, 128]⟩
abbrev S1x1024 : Shape := ⟨2, ![1, 1024]⟩
abbrev S2048x1024 : Shape := ⟨2, ![2048, 1024]⟩

abbrev nBuf : Space → Nat
  | .hbm => 24
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8x16x4096, .f32⟩
  | .hbm, ⟨4, _⟩ => ⟨S1x8x4096x16, .f32⟩
  | .hbm, ⟨5, _⟩ => ⟨S8192, .i32⟩
  | .hbm, ⟨6, _⟩ => ⟨S128x4096, .f32⟩
  | .hbm, ⟨7, _⟩ => ⟨S8x4096x16, .f32⟩
  | .hbm, ⟨8, _⟩ => ⟨S8x16x4096, .f32⟩
  | .hbm, ⟨9, _⟩ => ⟨S128x4096, .f32⟩
  | .hbm, ⟨10, _⟩ => ⟨S1x4096, .f32⟩
  | .hbm, ⟨11, _⟩ => ⟨S8192x1, .i32⟩
  | .hbm, ⟨12, _⟩ => ⟨S1x8, .i32⟩
  | .hbm, ⟨13, _⟩ => ⟨S8192x8, .i32⟩
  | .hbm, ⟨14, _⟩ => ⟨S8192x8, .i32⟩
  | .hbm, ⟨15, _⟩ => ⟨S8192x8, .i1⟩
  | .hbm, ⟨16, _⟩ => ⟨S8192x8, .bf16⟩
  | .hbm, ⟨17, _⟩ => ⟨S8192x8x16, .bf16⟩
  | .hbm, ⟨18, _⟩ => ⟨S8192x128, .bf16⟩
  | .hbm, ⟨19, _⟩ => ⟨S8192x4096, .bf16⟩
  | .hbm, ⟨20, _⟩ => ⟨S4096x4096, .bf16⟩
  | .hbm, ⟨21, _⟩ => ⟨S128x4096, .bf16⟩
  | .hbm, ⟨22, _⟩ => ⟨S128x4096, .bf16⟩
  | .hbm, ⟨23, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S128x512, .bf16⟩
  | .local _ .vmem, ⟨5, _⟩ => ⟨S128x512, .bf16⟩
  | .local _ .vmem, ⟨6, _⟩ => ⟨S128x1024, .bf16⟩
  | .local _ .vmem, ⟨7, _⟩ => ⟨S128x1024, .bf16⟩
  | .local _ .vmem, ⟨8, _⟩ => ⟨S2048x128, .bf16⟩
  | .local _ .vmem, ⟨9, _⟩ => ⟨S2048x128, .bf16⟩
  | .local _ .vmem, ⟨10, _⟩ => ⟨S1x1024, .f32⟩
  | .local _ .vmem, ⟨11, _⟩ => ⟨S1x1024, .f32⟩
  | .local _ .vmem, ⟨12, _⟩ => ⟨S2048x1024, .f32⟩
  | .local _ .vmem, ⟨13, _⟩ => ⟨S2048x1024, .f32⟩
  | .local _ .vmem, ⟨14, _⟩ => ⟨S2048x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨3, ![4, 4, 8], ![false, false, false]⟩

def k0_cond4 (i : grid0.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, false]

class Facts₀ : Prop where
  shapeCasts_S8x16x4096_S128x4096 : S8x16x4096.ShapeCasts S128x4096
  shapeCasts_S1x8x4096x16_S8x4096x16 : S1x8x4096x16.ShapeCasts S8x4096x16
  transposes_S8x4096x16_S8x16x4096_0_2_1 : S8x4096x16.Transposes [0, 2, 1] S8x16x4096
  shapeCasts_S4096_S1x4096 : S4096.ShapeCasts S1x4096
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  bcast_S1x8_S8192x8_0_1 : S1x8.BroadcastsInDim S8192x8 (![0, 1] : Fin 2 → Fin S8192x8.rank)
  bcast_S8192x8_S8192x8x16_0_1 : S8192x8.BroadcastsInDim S8192x8x16 (![0, 1] : Fin 2 → Fin S8192x8x16.rank)
  shapeCasts_S8192x8x16_S8192x128 : S8192x8x16.ShapeCasts S8192x128
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S1024x512_S2048x1024_1_1_0_0_n_n_wf : DotDims.WF S2048x512 S1024x512 S2048x1024 [1] [1] [0] [0] [] []
  dot_S2048x512_S128x512_S2048x128_1_1_0_0_n_n_wf : DotDims.WF S2048x512 S128x512 S2048x128 [1] [1] [0] [0] [] []
  dot_S2048x128_S128x1024_S2048x1024_1_0_0_1_n_n_wf : DotDims.WF S2048x128 S128x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x4096.size a
  hwx0_2 : ∀ i : grid0.Coords, EltTy.bits .bf16 = 32 ∨ (Rect.block (s := S128x4096) S128x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x4096.size a
  hwx0_3 : ∀ i : grid0.Coords, EltTy.bits .bf16 = 32 ∨ (Rect.block (s := S128x4096) S128x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S8192x128.size a
  hwx0_4 : ∀ i : grid0.Coords, EltTy.bits .bf16 = 32 ∨ (Rect.block (s := S8192x128) S2048x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x1024.size a ≤ S8192x4096.size a
  hwx0_6 : ∀ i : grid0.Coords, EltTy.bits .f32 = 32 ∨ (Rect.block (s := S8192x4096) S2048x1024.size (cc0_transform_6 i) (hinb0_6 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf
def dot_S2048x512_S128x512_S2048x128_1_1_0_0_n_n : DotDims S2048x512 S128x512 S2048x128 where
  lhsContracting := [1]
  rhsContracting := [1]
  lhsNonContracting := [0]
  rhsNonContracting := [0]
  lhsBatch := []
  rhsBatch := []
  wf := dot_S2048x512_S128x512_S2048x128_1_1_0_0_n_n_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf

abbrev win0_0 : Pipeline.Window sig grid0 :=
  Pipeline.Window.ofSpec (Memref.whole main_v8) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S2048x1024.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond4 i == 1#1) | ⟨_ + 7, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S8x16x4096 : Shape := ⟨3, ![8, 16, 4096]⟩
abbrev S1x8x4096x16 : Shape := ⟨4, ![1, 8, 4096, 16]⟩
abbrev S8192 : Shape := ⟨1, ![8192]⟩
abbrev S1x4096 : Shape := ⟨2, ![1, 4096]⟩
abbrev S8x4096x16 : Shape := ⟨3, ![8, 4096, 16]⟩
abbrev S_ : Shape := ⟨0, ![]⟩
abbrev S8192x1 : Shape := ⟨2, ![8192, 1]⟩
abbrev S1x16x4096 : Shape := ⟨3, ![1, 16, 4096]⟩
abbrev S16x4096 : Shape := ⟨2, ![16, 4096]⟩
abbrev S4096x16 : Shape := ⟨2, ![4096, 16]⟩
abbrev S8192x16 : Shape := ⟨2, ![8192, 16]⟩
abbrev S1x4096x16 : Shape := ⟨3, ![1, 4096, 16]⟩

abbrev nBuf : Space → Nat
  | .hbm => 146
  | .vmem => 0
  | .smem => 0
  | _ => 0

abbrev hbmTy0_0 (i : Nat) : BufTy := match i % 128 with
  | 0 => ⟨S8192x4096, .f32⟩
  | 1 => ⟨S4096x4096, .f32⟩
  | 2 => ⟨S4096, .f32⟩
  | 3 => ⟨S8x16x4096, .f32⟩
  | 4 => ⟨S1x8x4096x16, .f32⟩
  | 5 => ⟨S8192, .i32⟩
  | 6 => ⟨S4096x4096, .f32⟩
  | 7 => ⟨S8192x4096, .f32⟩
  | 8 => ⟨S1x4096, .f32⟩
  | 9 => ⟨S8192x4096, .f32⟩
  | 10 => ⟨S8192x4096, .f32⟩
  | 11 => ⟨S8x4096x16, .f32⟩
  | 12 => ⟨S_, .f32⟩
  | 13 => ⟨S8192x4096, .f32⟩
  | 14 => ⟨S_, .i32⟩
  | 15 => ⟨S8192, .i32⟩
  | 16 => ⟨S8192, .i1⟩
  | 17 => ⟨S8192, .f32⟩
  | 18 => ⟨S8192x1, .f32⟩
  | 19 => ⟨S8192x4096, .f32⟩
  | 20 => ⟨S8192x4096, .f32⟩
  | 21 => ⟨S1x16x4096, .f32⟩
  | 22 => ⟨S16x4096, .f32⟩
  | 23 => ⟨S4096x16, .f32⟩
  | 24 => ⟨S8192x16, .f32⟩
  | 25 => ⟨S1x4096x16, .f32⟩
  | 26 => ⟨S4096x16, .f32⟩
  | 27 => ⟨S16x4096, .f32⟩
  | 28 => ⟨S8192x4096, .f32⟩
  | 29 => ⟨S8192x4096, .f32⟩
  | 30 => ⟨S_, .i32⟩
  | 31 => ⟨S8192, .i32⟩
  | 32 => ⟨S8192, .i1⟩
  | 33 => ⟨S8192, .f32⟩
  | 34 => ⟨S8192x1, .f32⟩
  | 35 => ⟨S8192x4096, .f32⟩
  | 36 => ⟨S8192x4096, .f32⟩
  | 37 => ⟨S1x16x4096, .f32⟩
  | 38 => ⟨S16x4096, .f32⟩
  | 39 => ⟨S4096x16, .f32⟩
  | 40 => ⟨S8192x16, .f32⟩
  | 41 => ⟨S1x4096x16, .f32⟩
  | 42 => ⟨S4096x16, .f32⟩
  | 43 => ⟨S16x4096, .f32⟩
  | 44 => ⟨S8192x4096, .f32⟩
  | 45 => ⟨S8192x4096, .f32⟩
  | 46 => ⟨S_, .i32⟩
  | 47 => ⟨S8192, .i32⟩
  | 48 => ⟨S8192, .i1⟩
  | 49 => ⟨S8192, .f32⟩
  | 50 => ⟨S8192x1, .f32⟩
  | 51 => ⟨S8192x4096, .f32⟩
  | 52 => ⟨S8192x4096, .f32⟩
  | 53 => ⟨S1x16x4096, .f32⟩
  | 54 => ⟨S16x4096, .f32⟩
  | 55 => ⟨S4096x16, .f32⟩
  | 56 => ⟨S8192x16, .f32⟩
  | 57 => ⟨S1x4096x16, .f32⟩
  | 58 => ⟨S4096x16, .f32⟩
  | 59 => ⟨S16x4096, .f32⟩
  | 60 => ⟨S8192x4096, .f32⟩
  | 61 => ⟨S8192x4096, .f32⟩
  | 62 => ⟨S_, .i32⟩
  | 63 => ⟨S8192, .i32⟩
  | 64 => ⟨S8192, .i1⟩
  | 65 => ⟨S8192, .f32⟩
  | 66 => ⟨S8192x1, .f32⟩
  | 67 => ⟨S8192x4096, .f32⟩
  | 68 => ⟨S8192x4096, .f32⟩
  | 69 => ⟨S1x16x4096, .f32⟩
  | 70 => ⟨S16x4096, .f32⟩
  | 71 => ⟨S4096x16, .f32⟩
  | 72 => ⟨S8192x16, .f32⟩
  | 73 => ⟨S1x4096x16, .f32⟩
  | 74 => ⟨S4096x16, .f32⟩
  | 75 => ⟨S16x4096, .f32⟩
  | 76 => ⟨S8192x4096, .f32⟩
  | 77 => ⟨S8192x4096, .f32⟩
  | 78 => ⟨S_, .i32⟩
  | 79 => ⟨S8192, .i32⟩
  | 80 => ⟨S8192, .i1⟩
  | 81 => ⟨S8192, .f32⟩
  | 82 => ⟨S8192x1, .f32⟩
  | 83 => ⟨S8192x4096, .f32⟩
  | 84 => ⟨S8192x4096, .f32⟩
  | 85 => ⟨S1x16x4096, .f32⟩
  | 86 => ⟨S16x4096, .f32⟩
  | 87 => ⟨S4096x16, .f32⟩
  | 88 => ⟨S8192x16, .f32⟩
  | 89 => ⟨S1x4096x16, .f32⟩
  | 90 => ⟨S4096x16, .f32⟩
  | 91 => ⟨S16x4096, .f32⟩
  | 92 => ⟨S8192x4096, .f32⟩
  | 93 => ⟨S8192x4096, .f32⟩
  | 94 => ⟨S_, .i32⟩
  | 95 => ⟨S8192, .i32⟩
  | 96 => ⟨S8192, .i1⟩
  | 97 => ⟨S8192, .f32⟩
  | 98 => ⟨S8192x1, .f32⟩
  | 99 => ⟨S8192x4096, .f32⟩
  | 100 => ⟨S8192x4096, .f32⟩
  | 101 => ⟨S1x16x4096, .f32⟩
  | 102 => ⟨S16x4096, .f32⟩
  | 103 => ⟨S4096x16, .f32⟩
  | 104 => ⟨S8192x16, .f32⟩
  | 105 => ⟨S1x4096x16, .f32⟩
  | 106 => ⟨S4096x16, .f32⟩
  | 107 => ⟨S16x4096, .f32⟩
  | 108 => ⟨S8192x4096, .f32⟩
  | 109 => ⟨S8192x4096, .f32⟩
  | 110 => ⟨S_, .i32⟩
  | 111 => ⟨S8192, .i32⟩
  | 112 => ⟨S8192, .i1⟩
  | 113 => ⟨S8192, .f32⟩
  | 114 => ⟨S8192x1, .f32⟩
  | 115 => ⟨S8192x4096, .f32⟩
  | 116 => ⟨S8192x4096, .f32⟩
  | 117 => ⟨S1x16x4096, .f32⟩
  | 118 => ⟨S16x4096, .f32⟩
  | 119 => ⟨S4096x16, .f32⟩
  | 120 => ⟨S8192x16, .f32⟩
  | 121 => ⟨S1x4096x16, .f32⟩
  | 122 => ⟨S4096x16, .f32⟩
  | 123 => ⟨S16x4096, .f32⟩
  | 124 => ⟨S8192x4096, .f32⟩
  | 125 => ⟨S8192x4096, .f32⟩
  | 126 => ⟨S_, .i32⟩
  | 127 => ⟨S8192, .i32⟩
  | _ => ⟨S8192x4096, .f32⟩

abbrev hbmTy0_1 (i : Nat) : BufTy := match i % 128 with
  | 0 => ⟨S8192, .i1⟩
  | 1 => ⟨S8192, .f32⟩
  | 2 => ⟨S8192x1, .f32⟩
  | 3 => ⟨S8192x4096, .f32⟩
  | 4 => ⟨S8192x4096, .f32⟩
  | 5 => ⟨S1x16x4096, .f32⟩
  | 6 => ⟨S16x4096, .f32⟩
  | 7 => ⟨S4096x16, .f32⟩
  | 8 => ⟨S8192x16, .f32⟩
  | 9 => ⟨S1x4096x16, .f32⟩
  | 10 => ⟨S4096x16, .f32⟩
  | 11 => ⟨S16x4096, .f32⟩
  | 12 => ⟨S8192x4096, .f32⟩
  | 13 => ⟨S8192x4096, .f32⟩
  | 14 => ⟨S_, .f32⟩
  | 15 => ⟨S8192x4096, .f32⟩
  | 16 => ⟨S8192x4096, .f32⟩
  | 17 => ⟨S8192x4096, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_1 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_c_2 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_c_3 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_c_4 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_c_5 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_c_6 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_cst_7 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S1x8x4096x16_S8x4096x16 : S1x8x4096x16.ShapeCasts S8x4096x16
  bcast_S_S8192x4096 : S_.BroadcastsInDim S8192x4096 (![] : Fin 0 → Fin S8192x4096.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  slices_S8x16x4096_S1x16x4096_0_0_0 : S8x16x4096.Slices ![0, 0, 0] S1x16x4096
  shapeCasts_S1x16x4096_S16x4096 : S1x16x4096.ShapeCasts S16x4096
  transposes_S16x4096_S4096x16_1_0 : S16x4096.Transposes [1, 0] S4096x16
  slices_S8x4096x16_S1x4096x16_0_0_0 : S8x4096x16.Slices ![0, 0, 0] S1x4096x16
  shapeCasts_S1x4096x16_S4096x16 : S1x4096x16.ShapeCasts S4096x16
  transposes_S4096x16_S16x4096_1_0 : S4096x16.Transposes [1, 0] S16x4096
  slices_S8x16x4096_S1x16x4096_1_0_0 : S8x16x4096.Slices ![1, 0, 0] S1x16x4096
  slices_S8x4096x16_S1x4096x16_1_0_0 : S8x4096x16.Slices ![1, 0, 0] S1x4096x16
  slices_S8x16x4096_S1x16x4096_2_0_0 : S8x16x4096.Slices ![2, 0, 0] S1x16x4096
  slices_S8x4096x16_S1x4096x16_2_0_0 : S8x4096x16.Slices ![2, 0, 0] S1x4096x16
  slices_S8x16x4096_S1x16x4096_3_0_0 : S8x16x4096.Slices ![3, 0, 0] S1x16x4096
  slices_S8x4096x16_S1x4096x16_3_0_0 : S8x4096x16.Slices ![3, 0, 0] S1x4096x16
  slices_S8x16x4096_S1x16x4096_4_0_0 : S8x16x4096.Slices ![4, 0, 0] S1x16x4096
  slices_S8x4096x16_S1x4096x16_4_0_0 : S8x4096x16.Slices ![4, 0, 0] S1x4096x16
  slices_S8x16x4096_S1x16x4096_5_0_0 : S8x16x4096.Slices ![5, 0, 0] S1x16x4096
  slices_S8x4096x16_S1x4096x16_5_0_0 : S8x4096x16.Slices ![5, 0, 0] S1x4096x16
  slices_S8x16x4096_S1x16x4096_6_0_0 : S8x16x4096.Slices ![6, 0, 0] S1x16x4096
  slices_S8x4096x16_S1x4096x16_6_0_0 : S8x4096x16.Slices ![6, 0, 0] S1x4096x16
  slices_S8x16x4096_S1x16x4096_7_0_0 : S8x16x4096.Slices ![7, 0, 0] S1x16x4096
  slices_S8x4096x16_S1x4096x16_7_0_0 : S8x4096x16.Slices ![7, 0, 0] S1x4096x16
  dot_S8192x4096_S4096x4096_S8192x4096_1_0_0_1_n_n_wf : DotDims.WF S8192x4096 S4096x4096 S8192x4096 [1] [0] [0] [1] [] []
  dot_S8192x4096_S4096x16_S8192x16_1_0_0_1_n_n_wf : DotDims.WF S8192x4096 S4096x16 S8192x16 [1] [0] [0] [1] [] []
  dot_S8192x16_S16x4096_S8192x4096_1_0_0_1_n_n_wf : DotDims.WF S8192x16 S16x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf

class Facts : Prop extends Facts₀ where

variable [Facts]
-- ==== Proof.BitsBodyDefs.lean ====
/-
  What the runs of the fused kernel's body share. The grid is 4 x 4 x 8 (row block i, column block j, block k of the
  contracted axis), walked with k innermost, so point number t is 32 i + 8 j + k. The body branches four times on the
  coordinates; here each condition is put in closed form over t, the points where the output window is idle are
  listed, and the memrefs the pipeline passes the body at a point are named.
-/
import proofs.«128954_j15144054685780_2_alg».proof.Proof.Gen.Kernel.Frame
import proofs.«128954_j15144054685780_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four branch conditions, from the grid coordinates (i, j, k) -/

/-- k = 0: the first block of the contracted axis (the dense accumulator is reset). -/
abbrev cond0_0 (i : grid0.Coords) : Prop := (Scalar.cmpi .ne (Scalar.extui (Scalar.cmpi .eq (BitVec.ofNat 32 (i 2).val) 0#32)) 0#32) = 1#1
/-- j = 0 and k = 0: the first point of a row block's sweep (the projection accumulator is reset). -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- j = 0: the first column block (the projection is accumulated only there). -/
abbrev cond0_2 (i : grid0.Coords) : Prop := (Scalar.cmpi .ne (Scalar.extui (Scalar.cmpi .eq (BitVec.ofNat 32 (i 1).val) 0#32)) 0#32) = 1#1
/-- k = 7: the last block of the contracted axis (the output block is stored). -/
abbrev cond0_3 (i : grid0.Coords) : Prop := k0_cond4 i = 1#1

/-- The point number is 32 i + 8 j + k; each condition in closed form over it, decided over the 128 points. -/
theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 32 = 0 :=
  (by decide +kernel : ∀ t : Fin grid0.N, cond0_1 (grid0.coords t) ↔ t.val % 32 = 0)
theorem hcond0_2 : ∀ t : Fin cfg0.N, cond0_2 (grid0.coords t) ↔ t.val % 32 < 8 :=
  (by decide +kernel : ∀ t : Fin grid0.N, cond0_2 (grid0.coords t) ↔ t.val % 32 < 8)
theorem hcond0_3 : ∀ t : Fin cfg0.N, cond0_3 (grid0.coords t) ↔ t.val % 8 = 7 :=
  (by decide +kernel : ∀ t : Fin grid0.N, cond0_3 (grid0.coords t) ↔ t.val % 8 = 7)

/-! ## Where the windows are idle -/

/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Input window 4 is never idle. -/
theorem liveAt0_4 : ∀ t : Fin cfg0.N, cfg0.idle 4 (grid0.coords t) = false := by decide +kernel
/-- Input window 5 is never idle. -/
theorem liveAt0_5 : ∀ t : Fin cfg0.N, cfg0.idle 5 (grid0.coords t) = false := by decide +kernel
/-- Away from k = 7 the output window is idle: the body stores nothing into it, -/
theorem idleAt0_6 : ∀ t : Fin cfg0.N, ¬cond0_3 (grid0.coords t) → cfg0.idle 6 (grid0.coords t) = true := by decide +kernel
/-- and the pipeline does not write its block back. -/
theorem noFlush0_6 : ∀ t : Fin cfg0.N, ¬cond0_3 (grid0.coords t) → (cfg0.win 6).flush t = false := by decide +kernel
/-- At k = 7 it is live. -/
theorem liveAt0_6 : ∀ t : Fin cfg0.N, cond0_3 (grid0.coords t) → cfg0.idle 6 (grid0.coords t) = false := by decide +kernel

/-! ## The memrefs the body is called with -/

abbrev ms0_0 (t : Fin cfg0.N) : Memref sig .tc .vmem S2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x1024 .f32 := win0_6.stage (cfg0.slots t 6)
abbrev hs0_6 (t : Fin cfg0.N) : (ms0_6 t).IsWhole := hstage0_6 ((cfg0.slots t 6).cast nbuf0_6)
/-- The dense accumulator and the projection accumulator: whole scoped buffers of the kernel's own. -/
abbrev scM0_0 : Memref sig .tc .vmem S2048x1024 .f32 := Memref.whole cc0_scratch0
abbrev scM0_1 : Memref sig .tc .vmem S2048x128 .f32 := Memref.whole cc0_scratch1

/-- The region's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Body

end
-- ==== Proof.BitsRunA.lean ====
/-
  The fused kernel's body run symbolically at the points of one assignment of its four branch conditions: on whole
  staging memrefs at given contents it runs to the end without a fault, leaves every buffer it only loads as it was,
  and leaves each buffer it stores into with that store's pieces written.
-/
import proofs.«128954_j15144054685780_2_alg».proof.Proof.BitsBodyDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point of a row block's sweep (j = 0, k = 0): both accumulators are reset, then the dense product and the projection of the first blocks are added; nothing is stored into the output block. -/
noncomputable def kernelRun0_A (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : cond0_0 i) (hc1 : cond0_1 i) (hc2 : cond0_2 i) (hc3 : ¬cond0_3 i)
    (x3 : Vec F S2048x512 .bf16) (x4 : Vec F S1024x512 .bf16) (x5 : Vec F S128x512 .bf16) :
    Σ' (L10 : List (View.Piece (Elt F) S2048x1024 .f32)), { L11 : List (View.Piece (Elt F) S2048x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ (∃ d, owns (c : Thread nD τ) arg10 fullShare d) ∗ (∃ d, owns (c : Thread nD τ) arg11 fullShare d)
            ∗ (iprop(owns (c : Thread nD τ) arg3 fullShare x3 ∗ owns (c : Thread nD τ) arg4 fullShare x4 ∗ owns (c : Thread nD τ) arg5 fullShare x5 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11) K } := by
  refine ⟨?_, ?_, fun E K => ?run⟩
  case run =>
    simp only [cc0__fused_kernel_eq_skeleton]; unfold cc0__fused_kernel_skel
    unfold owns
    iintro ⟨⟨%f3, %hf3, H3⟩, ⟨%f4, %hf4, H4⟩, ⟨%f5, %hf5, H5⟩, ⟨%d10, %f10, -, H10⟩, ⟨%d11, %f11, -, H11⟩, Hk⟩
    obtain rfl := harg3.eq_unread hf3; obtain rfl := harg4.eq_unread hf4; obtain rfl := harg5.eq_unread hf5
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H10]; · iexists _; iexact H10
    iexists _; iexact H11

end Cert.Kernel.Body

end
-- ==== Proof.BitsRunB.lean ====
/-
  The fused kernel's body run symbolically at the points of one assignment of its four branch conditions: on whole
  staging memrefs at given contents it runs to the end without a fault, leaves every buffer it only loads as it was,
  and leaves each buffer it stores into with that store's pieces written.
-/
import proofs.«128954_j15144054685780_2_alg».proof.Proof.BitsBodyDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at j = 0, 0 < k < 7: both accumulators take the products of this point's blocks on top of what the point before left. -/
noncomputable def kernelRun0_B (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : ¬cond0_3 i)
    (x3 : Vec F S2048x512 .bf16) (x4 : Vec F S1024x512 .bf16) (x5 : Vec F S128x512 .bf16) (x10 : Vec F S2048x1024 .f32) (x11 : Vec F S2048x128 .f32) :
    Σ' (L10 : List (View.Piece (Elt F) S2048x1024 .f32)), { L11 : List (View.Piece (Elt F) S2048x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg10 fullShare x10 ∗ owns (c : Thread nD τ) arg11 fullShare x11
            ∗ (iprop(owns (c : Thread nD τ) arg3 fullShare x3 ∗ owns (c : Thread nD τ) arg4 fullShare x4 ∗ owns (c : Thread nD τ) arg5 fullShare x5 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11) K } := by
  refine ⟨?_, ?_, fun E K => ?run⟩
  case run =>
    simp only [cc0__fused_kernel_eq_skeleton]; unfold cc0__fused_kernel_skel
    unfold owns
    iintro ⟨⟨%f3, %hf3, H3⟩, ⟨%f4, %hf4, H4⟩, ⟨%f5, %hf5, H5⟩, ⟨%f10, %hf10, H10⟩, ⟨%f11, %hf11, H11⟩, Hk⟩
    obtain rfl := harg3.eq_unread hf3; obtain rfl := harg4.eq_unread hf4; obtain rfl := harg5.eq_unread hf5; obtain rfl := harg10.eq_unread hf10; obtain rfl := harg11.eq_unread hf11
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H10]; · iexists _; iexact H10
    iexists _; iexact H11

end Cert.Kernel.Body

end
-- ==== Proof.BitsRunC.lean ====
/-
  The fused kernel's body run symbolically at the points of one assignment of its four branch conditions: on whole
  staging memrefs at given contents it runs to the end without a fault, leaves every buffer it only loads as it was,
  and leaves each buffer it stores into with that store's pieces written.
-/
import proofs.«128954_j15144054685780_2_alg».proof.Proof.BitsBodyDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at j = 0, k = 7: both accumulators take their last products and the output block is stored from them. -/
noncomputable def kernelRun0_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : cond0_3 i)
    (x3 : Vec F S2048x512 .bf16) (x4 : Vec F S1024x512 .bf16) (x5 : Vec F S128x512 .bf16) (x6 : Vec F S128x1024 .bf16) (x7 : Vec F S2048x128 .bf16) (x8 : Vec F S1x1024 .f32) (x10 : Vec F S2048x1024 .f32) (x11 : Vec F S2048x128 .f32) :
    Σ' (L9 : List (View.Piece (Elt F) S2048x1024 .f32)), Σ' (L10 : List (View.Piece (Elt F) S2048x1024 .f32)), { L11 : List (View.Piece (Elt F) S2048x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare x10 ∗ owns (c : Thread nD τ) arg11 fullShare x11
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11) K } := by
  refine ⟨?_, ?_, ?_, fun E K => ?run⟩
  case run =>
    simp only [cc0__fused_kernel_eq_skeleton]; unfold cc0__fused_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    iexists _; iexact H11

end Cert.Kernel.Body

end
-- ==== Proof.BitsRunD.lean ====
/-
  The fused kernel's body run symbolically at the points of one assignment of its four branch conditions: on whole
  staging memrefs at given contents it runs to the end without a fault, leaves every buffer it only loads as it was,
  and leaves each buffer it stores into with that store's pieces written.
-/
import proofs.«128954_j15144054685780_2_alg».proof.Proof.BitsBodyDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at j > 0, k = 0: the dense accumulator is reset and takes the first product; the projection accumulator is not touched. -/
noncomputable def kernelRun0_D (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : cond0_0 i) (hc1 : ¬cond0_1 i) (hc2 : ¬cond0_2 i) (hc3 : ¬cond0_3 i)
    (x3 : Vec F S2048x512 .bf16) (x4 : Vec F S1024x512 .bf16) :
    { L10 : List (View.Piece (Elt F) S2048x1024 .f32) //
      ∀ (E : Set ℕ) (K : PUnit → sProp 𝕄),
        iprop(owns (c : Thread nD τ) arg3 fullShare x3 ∗ owns (c : Thread nD τ) arg4 fullShare x4 ∗ (∃ d, owns (c : Thread nD τ) arg10 fullShare d)
            ∗ (iprop(owns (c : Thread nD τ) arg3 fullShare x3 ∗ owns (c : Thread nD τ) arg4 fullShare x4 ∗ (∃ f, arg10.view.loc (c : Thread nD τ) ↦[arg10.view.set]{fullShare} arg10.view.writes (Elt F) f L10)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    unfold owns
    iintro ⟨⟨%f3, %hf3, H3⟩, ⟨%f4, %hf4, H4⟩, ⟨%d10, %f10, -, H10⟩, Hk⟩
    obtain rfl := harg3.eq_unread hf3; obtain rfl := harg4.eq_unread hf4
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    iexists _; iexact H10

end Cert.Kernel.Body

end
-- ==== Proof.BitsRunE.lean ====
/-
  The fused kernel's body run symbolically at the points of one assignment of its four branch conditions: on whole
  staging memrefs at given contents it runs to the end without a fault, leaves every buffer it only loads as it was,
  and leaves each buffer it stores into with that store's pieces written.
-/
import proofs.«128954_j15144054685780_2_alg».proof.Proof.BitsBodyDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at j > 0, 0 < k < 7: the dense accumulator takes this point's product; the projection accumulator is not touched. -/
noncomputable def kernelRun0_E (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : ¬cond0_2 i) (hc3 : ¬cond0_3 i)
    (x3 : Vec F S2048x512 .bf16) (x4 : Vec F S1024x512 .bf16) (x10 : Vec F S2048x1024 .f32) :
    { L10 : List (View.Piece (Elt F) S2048x1024 .f32) //
      ∀ (E : Set ℕ) (K : PUnit → sProp 𝕄),
        iprop(owns (c : Thread nD τ) arg3 fullShare x3 ∗ owns (c : Thread nD τ) arg4 fullShare x4 ∗ owns (c : Thread nD τ) arg10 fullShare x10
            ∗ (iprop(owns (c : Thread nD τ) arg3 fullShare x3 ∗ owns (c : Thread nD τ) arg4 fullShare x4 ∗ (∃ f, arg10.view.loc (c : Thread nD τ) ↦[arg10.view.set]{fullShare} arg10.view.writes (Elt F) f L10)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    unfold owns
    iintro ⟨⟨%f3, %hf3, H3⟩, ⟨%f4, %hf4, H4⟩, ⟨%f10, %hf10, H10⟩, Hk⟩
    obtain rfl := harg3.eq_unread hf3; obtain rfl := harg4.eq_unread hf4; obtain rfl := harg10.eq_unread hf10
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    iexists _; iexact H10

end Cert.Kernel.Body

end
-- ==== Proof.BitsRunG.lean ====
/-
  The fused kernel's body run symbolically at the points of one assignment of its four branch conditions: on whole
  staging memrefs at given contents it runs to the end without a fault, leaves every buffer it only loads as it was,
  and leaves each buffer it stores into with that store's pieces written.
-/
import proofs.«128954_j15144054685780_2_alg».proof.Proof.BitsBodyDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at j > 0, k = 7: the dense accumulator takes its last product and the output block is stored from it and from the projection accumulator the j = 0 sweep left. -/
noncomputable def kernelRun0_G (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : ¬cond0_2 i) (hc3 : cond0_3 i)
    (x3 : Vec F S2048x512 .bf16) (x4 : Vec F S1024x512 .bf16) (x6 : Vec F S128x1024 .bf16) (x7 : Vec F S2048x128 .bf16) (x8 : Vec F S1x1024 .f32) (x10 : Vec F S2048x1024 .f32) (x11 : Vec F S2048x128 .f32) :
    Σ' (L9 : List (View.Piece (Elt F) S2048x1024 .f32)), { L10 : List (View.Piece (Elt F) S2048x1024 .f32) //
      ∀ (E : Set ℕ) (K : PUnit → sProp 𝕄),
        iprop(owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare x10 ∗ owns (c : Thread nD τ) arg11 fullShare x11
            ∗ (iprop(owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ owns (c : Thread nD τ) arg11 fullShare x11) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11) K } := by
  refine ⟨?_, ?_, fun E K => ?run⟩
  case run =>
    simp only [cc0__fused_kernel_eq_skeleton]; unfold cc0__fused_kernel_skel
    unfold owns
    iintro ⟨⟨%f3, %hf3, H3⟩, ⟨%f4, %hf4, H4⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
    obtain rfl := harg3.eq_unread hf3; obtain rfl := harg4.eq_unread hf4; obtain rfl := harg6.eq_unread hf6; obtain rfl := harg7.eq_unread hf7; obtain rfl := harg8.eq_unread hf8; obtain rfl := harg10.eq_unread hf10; obtain rfl := harg11.eq_unread hf11
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    iexists _; isplitr; · ipureintro; exact harg11.read_unread _
    iexact H11

end Cert.Kernel.Body

end
-- ==== Proof.BitsBodyPieces.lean ====
/-
  What each run's stores leave, as values. Every store of the body writes a whole buffer, so the pieces a run found
  for a buffer cover it, and what they leave is the last store's payload: the dense accumulator plus this point's
  product, the projection accumulator plus this point's projection, the output block from both.
-/
import proofs.«128954_j15144054685780_2_alg».proof.Proof.BitsRunA
import proofs.«128954_j15144054685780_2_alg».proof.Proof.BitsRunB
import proofs.«128954_j15144054685780_2_alg».proof.Proof.BitsRunC
import proofs.«128954_j15144054685780_2_alg».proof.Proof.BitsRunD
import proofs.«128954_j15144054685780_2_alg».proof.Proof.BitsRunE
import proofs.«128954_j15144054685780_2_alg».proof.Proof.BitsRunG
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- Case A: the pieces found for operand 10 cover it. -/
theorem cover10_A (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : cond0_0 i) (hc1 : cond0_1 i) (hc2 : cond0_2 i) (hc3 : ¬cond0_3 i)
    (x3 : Vec F S2048x512 .bf16) (x4 : Vec F S1024x512 .bf16) (x5 : Vec F S128x512 .bf16) (y : S2048x1024.Idx) :
    ∃ pc ∈ (kernelRun0_A c i arg3 harg3 arg4 harg4 arg5 harg5 arg6 harg6 arg7 harg7 arg8 harg8 arg9 harg9 arg10 harg10 arg11 harg11 hc0 hc1 hc2 hc3 x3 x4 x5).1, y ∈ pc.1.set :=
  View.cover_of_tiledL _ S2048x1024.size (by sl_kernel_rfl) y

/-- Case A: what they leave there. -/
theorem canon10_A (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : cond0_0 i) (hc1 : cond0_1 i) (hc2 : cond0_2 i) (hc3 : ¬cond0_3 i)
    (x3 : Vec F S2048x512 .bf16) (x4 : Vec F S1024x512 .bf16) (x5 : Vec F S128x512 .bf16) :
    View.canon (kernelRun0_A c i arg3 harg3 arg4 harg4 arg5 harg5 arg6 harg6 arg7 harg7 arg8 harg8 arg9 harg9 arg10 harg10 arg11 harg11 hc0 hc1 hc2 hc3 x3 x4 x5).1 = k0_pay4 x3 x4 (k0_pay1 (F := F)) := by
  unfold kernelRun0_A
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

/-- Case A: the pieces found for operand 11 cover it. -/
theorem cover11_A (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : cond0_0 i) (hc1 : cond0_1 i) (hc2 : cond0_2 i) (hc3 : ¬cond0_3 i)
    (x3 : Vec F S2048x512 .bf16) (x4 : Vec F S1024x512 .bf16) (x5 : Vec F S128x512 .bf16) (y : S2048x128.Idx) :
    ∃ pc ∈ (kernelRun0_A c i arg3 harg3 arg4 harg4 arg5 harg5 arg6 harg6 arg7 harg7 arg8 harg8 arg9 harg9 arg10 harg10 arg11 harg11 hc0 hc1 hc2 hc3 x3 x4 x5).2.1, y ∈ pc.1.set :=
  View.cover_of_tiledL _ S2048x128.size (by sl_kernel_rfl) y

/-- Case A: what they leave there. -/
theorem canon11_A (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : cond0_0 i) (hc1 : cond0_1 i) (hc2 : cond0_2 i) (hc3 : ¬cond0_3 i)
    (x3 : Vec F S2048x512 .bf16) (x4 : Vec F S1024x512 .bf16) (x5 : Vec F S128x512 .bf16) :
    View.canon (kernelRun0_A c i arg3 harg3 arg4 harg4 arg5 harg5 arg6 harg6 arg7 harg7 arg8 harg8 arg9 harg9 arg10 harg10 arg11 harg11 hc0 hc1 hc2 hc3 x3 x4 x5).2.1 = k0_pay5 x3 x5 (k0_pay2 (F := F)) := by
  unfold kernelRun0_A
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

/-- Case B: the pieces found for operand 10 cover it. -/
theorem cover10_B (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : ¬cond0_3 i)
    (x3 : Vec F S2048x512 .bf16) (x4 : Vec F S1024x512 .bf16) (x5 : Vec F S128x512 .bf16) (x10 : Vec F S2048x1024 .f32) (x11 : Vec F S2048x128 .f32) (y : S2048x1024.Idx) :
    ∃ pc ∈ (kernelRun0_B c i arg3 harg3 arg4 harg4 arg5 harg5 arg6 harg6 arg7 harg7 arg8 harg8 arg9 harg9 arg10 harg10 arg11 harg11 hc0 hc1 hc2 hc3 x3 x4 x5 x10 x11).1, y ∈ pc.1.set :=
  View.cover_of_tiledL _ S2048x1024.size (by sl_kernel_rfl) y

/-- Case B: what they leave there. -/
theorem canon10_B (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : ¬cond0_3 i)
    (x3 : Vec F S2048x512 .bf16) (x4 : Vec F S1024x512 .bf16) (x5 : Vec F S128x512 .bf16) (x10 : Vec F S2048x1024 .f32) (x11 : Vec F S2048x128 .f32) :
    View.canon (kernelRun0_B c i arg3 harg3 arg4 harg4 arg5 harg5 arg6 harg6 arg7 harg7 arg8 harg8 arg9 harg9 arg10 harg10 arg11 harg11 hc0 hc1 hc2 hc3 x3 x4 x5 x10 x11).1 = k0_pay4 x3 x4 x10 := by
  unfold kernelRun0_B
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

/-- Case B: the pieces found for operand 11 cover it. -/
theorem cover11_B (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : ¬cond0_3 i)
    (x3 : Vec F S2048x512 .bf16) (x4 : Vec F S1024x512 .bf16) (x5 : Vec F S128x512 .bf16) (x10 : Vec F S2048x1024 .f32) (x11 : Vec F S2048x128 .f32) (y : S2048x128.Idx) :
    ∃ pc ∈ (kernelRun0_B c i arg3 harg3 arg4 harg4 arg5 harg5 arg6 harg6 arg7 harg7 arg8 harg8 arg9 harg9 arg10 harg10 arg11 harg11 hc0 hc1 hc2 hc3 x3 x4 x5 x10 x11).2.1, y ∈ pc.1.set :=
  View.cover_of_tiledL _ S2048x128.size (by sl_kernel_rfl) y

/-- Case B: what they leave there. -/
theorem canon11_B (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : ¬cond0_3 i)
    (x3 : Vec F S2048x512 .bf16) (x4 : Vec F S1024x512 .bf16) (x5 : Vec F S128x512 .bf16) (x10 : Vec F S2048x1024 .f32) (x11 : Vec F S2048x128 .f32) :
    View.canon (kernelRun0_B c i arg3 harg3 arg4 harg4 arg5 harg5 arg6 harg6 arg7 harg7 arg8 harg8 arg9 harg9 arg10 harg10 arg11 harg11 hc0 hc1 hc2 hc3 x3 x4 x5 x10 x11).2.1 = k0_pay5 x3 x5 x11 := by
  unfold kernelRun0_B
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

/-- Case C: the pieces found for operand 9 cover it. -/
theorem cover9_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : cond0_3 i)
    (x3 : Vec F S2048x512 .bf16) (x4 : Vec F S1024x512 .bf16) (x5 : Vec F S128x512 .bf16) (x6 : Vec F S128x1024 .bf16) (x7 : Vec F S2048x128 .bf16) (x8 : Vec F S1x1024 .f32) (x10 : Vec F S2048x1024 .f32) (x11 : Vec F S2048x128 .f32) (y : S2048x1024.Idx) :
    ∃ pc ∈ (kernelRun0_C c i arg3 harg3 arg4 harg4 arg5 harg5 arg6 harg6 arg7 harg7 arg8 harg8 arg9 harg9 arg10 harg10 arg11 harg11 hc0 hc1 hc2 hc3 x3 x4 x5 x6 x7 x8 x10 x11).1, y ∈ pc.1.set :=
  View.cover_of_tiledL _ S2048x1024.size (by sl_kernel_rfl) y

/-- Case C: what they leave there. -/
theorem canon9_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : cond0_3 i)
    (x3 : Vec F S2048x512 .bf16) (x4 : Vec F S1024x512 .bf16) (x5 : Vec F S128x512 .bf16) (x6 : Vec F S128x1024 .bf16) (x7 : Vec F S2048x128 .bf16) (x8 : Vec F S1x1024 .f32) (x10 : Vec F S2048x1024 .f32) (x11 : Vec F S2048x128 .f32) :
    View.canon (kernelRun0_C c i arg3 harg3 arg4 harg4 arg5 harg5 arg6 harg6 arg7 harg7 arg8 harg8 arg9 harg9 arg10 harg10 arg11 harg11 hc0 hc1 hc2 hc3 x3 x4 x5 x6 x7 x8 x10 x11).1 = k0_pay6 (k0_pay5 x3 x5 x11) x7 x6 (k0_pay4 x3 x4 x10) x8 := by
  unfold kernelRun0_C
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

/-- Case C: the pieces found for operand 10 cover it. -/
theorem cover10_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : cond0_3 i)
    (x3 : Vec F S2048x512 .bf16) (x4 : Vec F S1024x512 .bf16) (x5 : Vec F S128x512 .bf16) (x6 : Vec F S128x1024 .bf16) (x7 : Vec F S2048x128 .bf16) (x8 : Vec F S1x1024 .f32) (x10 : Vec F S2048x1024 .f32) (x11 : Vec F S2048x128 .f32) (y : S2048x1024.Idx) :
    ∃ pc ∈ (kernelRun0_C c i arg3 harg3 arg4 harg4 arg5 harg5 arg6 harg6 arg7 harg7 arg8 harg8 arg9 harg9 arg10 harg10 arg11 harg11 hc0 hc1 hc2 hc3 x3 x4 x5 x6 x7 x8 x10 x11).2.1, y ∈ pc.1.set :=
  View.cover_of_tiledL _ S2048x1024.size (by sl_kernel_rfl) y

/-- Case C: what they leave there. -/
theorem canon10_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : cond0_3 i)
    (x3 : Vec F S2048x512 .bf16) (x4 : Vec F S1024x512 .bf16) (x5 : Vec F S128x512 .bf16) (x6 : Vec F S128x1024 .bf16) (x7 : Vec F S2048x128 .bf16) (x8 : Vec F S1x1024 .f32) (x10 : Vec F S2048x1024 .f32) (x11 : Vec F S2048x128 .f32) :
    View.canon (kernelRun0_C c i arg3 harg3 arg4 harg4 arg5 harg5 arg6 harg6 arg7 harg7 arg8 harg8 arg9 harg9 arg10 harg10 arg11 harg11 hc0 hc1 hc2 hc3 x3 x4 x5 x6 x7 x8 x10 x11).2.1 = k0_pay4 x3 x4 x10 := by
  unfold kernelRun0_C
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

/-- Case C: the pieces found for operand 11 cover it. -/
theorem cover11_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : cond0_3 i)
    (x3 : Vec F S2048x512 .bf16) (x4 : Vec F S1024x512 .bf16) (x5 : Vec F S128x512 .bf16) (x6 : Vec F S128x1024 .bf16) (x7 : Vec F S2048x128 .bf16) (x8 : Vec F S1x1024 .f32) (x10 : Vec F S2048x1024 .f32) (x11 : Vec F S2048x128 .f32) (y : S2048x128.Idx) :
    ∃ pc ∈ (kernelRun0_C c i arg3 harg3 arg4 harg4 arg5 harg5 arg6 harg6 arg7 harg7 arg8 harg8 arg9 harg9 arg10 harg10 arg11 harg11 hc0 hc1 hc2 hc3 x3 x4 x5 x6 x7 x8 x10 x11).2.2.1, y ∈ pc.1.set :=
  View.cover_of_tiledL _ S2048x128.size (by sl_kernel_rfl) y

/-- Case C: what they leave there. -/
theorem canon11_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : cond0_3 i)
    (x3 : Vec F S2048x512 .bf16) (x4 : Vec F S1024x512 .bf16) (x5 : Vec F S128x512 .bf16) (x6 : Vec F S128x1024 .bf16) (x7 : Vec F S2048x128 .bf16) (x8 : Vec F S1x1024 .f32) (x10 : Vec F S2048x1024 .f32) (x11 : Vec F S2048x128 .f32) :
    View.canon (kernelRun0_C c i arg3 harg3 arg4 harg4 arg5 harg5 arg6 harg6 arg7 harg7 arg8 harg8 arg9 harg9 arg10 harg10 arg11 harg11 hc0 hc1 hc2 hc3 x3 x4 x5 x6 x7 x8 x10 x11).2.2.1 = k0_pay5 x3 x5 x11 := by
  unfold kernelRun0_C
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

/-- Case D: the pieces found for operand 10 cover it. -/
theorem cover10_D (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : cond0_0 i) (hc1 : ¬cond0_1 i) (hc2 : ¬cond0_2 i) (hc3 : ¬cond0_3 i)
    (x3 : Vec F S2048x512 .bf16) (x4 : Vec F S1024x512 .bf16) (y : S2048x1024.Idx) :
    ∃ pc ∈ (kernelRun0_D c i arg3 harg3 arg4 harg4 arg5 harg5 arg6 harg6 arg7 harg7 arg8 harg8 arg9 harg9 arg10 harg10 arg11 harg11 hc0 hc1 hc2 hc3 x3 x4).1, y ∈ pc.1.set :=
  View.cover_of_tiledL _ S2048x1024.size (by sl_kernel_rfl) y

/-- Case D: what they leave there. -/
theorem canon10_D (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : cond0_0 i) (hc1 : ¬cond0_1 i) (hc2 : ¬cond0_2 i) (hc3 : ¬cond0_3 i)
    (x3 : Vec F S2048x512 .bf16) (x4 : Vec F S1024x512 .bf16) :
    View.canon (kernelRun0_D c i arg3 harg3 arg4 harg4 arg5 harg5 arg6 harg6 arg7 harg7 arg8 harg8 arg9 harg9 arg10 harg10 arg11 harg11 hc0 hc1 hc2 hc3 x3 x4).1 = k0_pay4 x3 x4 (k0_pay1 (F := F)) := by
  unfold kernelRun0_D
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

/-- Case E: the pieces found for operand 10 cover it. -/
theorem cover10_E (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : ¬cond0_2 i) (hc3 : ¬cond0_3 i)
    (x3 : Vec F S2048x512 .bf16) (x4 : Vec F S1024x512 .bf16) (x10 : Vec F S2048x1024 .f32) (y : S2048x1024.Idx) :
    ∃ pc ∈ (kernelRun0_E c i arg3 harg3 arg4 harg4 arg5 harg5 arg6 harg6 arg7 harg7 arg8 harg8 arg9 harg9 arg10 harg10 arg11 harg11 hc0 hc1 hc2 hc3 x3 x4 x10).1, y ∈ pc.1.set :=
  View.cover_of_tiledL _ S2048x1024.size (by sl_kernel_rfl) y

/-- Case E: what they leave there. -/
theorem canon10_E (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : ¬cond0_2 i) (hc3 : ¬cond0_3 i)
    (x3 : Vec F S2048x512 .bf16) (x4 : Vec F S1024x512 .bf16) (x10 : Vec F S2048x1024 .f32) :
    View.canon (kernelRun0_E c i arg3 harg3 arg4 harg4 arg5 harg5 arg6 harg6 arg7 harg7 arg8 harg8 arg9 harg9 arg10 harg10 arg11 harg11 hc0 hc1 hc2 hc3 x3 x4 x10).1 = k0_pay4 x3 x4 x10 := by
  unfold kernelRun0_E
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

/-- Case G: the pieces found for operand 9 cover it. -/
theorem cover9_G (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : ¬cond0_2 i) (hc3 : cond0_3 i)
    (x3 : Vec F S2048x512 .bf16) (x4 : Vec F S1024x512 .bf16) (x6 : Vec F S128x1024 .bf16) (x7 : Vec F S2048x128 .bf16) (x8 : Vec F S1x1024 .f32) (x10 : Vec F S2048x1024 .f32) (x11 : Vec F S2048x128 .f32) (y : S2048x1024.Idx) :
    ∃ pc ∈ (kernelRun0_G c i arg3 harg3 arg4 harg4 arg5 harg5 arg6 harg6 arg7 harg7 arg8 harg8 arg9 harg9 arg10 harg10 arg11 harg11 hc0 hc1 hc2 hc3 x3 x4 x6 x7 x8 x10 x11).1, y ∈ pc.1.set :=
  View.cover_of_tiledL _ S2048x1024.size (by sl_kernel_rfl) y

/-- Case G: what they leave there. -/
theorem canon9_G (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : ¬cond0_2 i) (hc3 : cond0_3 i)
    (x3 : Vec F S2048x512 .bf16) (x4 : Vec F S1024x512 .bf16) (x6 : Vec F S128x1024 .bf16) (x7 : Vec F S2048x128 .bf16) (x8 : Vec F S1x1024 .f32) (x10 : Vec F S2048x1024 .f32) (x11 : Vec F S2048x128 .f32) :
    View.canon (kernelRun0_G c i arg3 harg3 arg4 harg4 arg5 harg5 arg6 harg6 arg7 harg7 arg8 harg8 arg9 harg9 arg10 harg10 arg11 harg11 hc0 hc1 hc2 hc3 x3 x4 x6 x7 x8 x10 x11).1 = k0_pay6 x11 x7 x6 (k0_pay4 x3 x4 x10) x8 := by
  unfold kernelRun0_G
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

/-- Case G: the pieces found for operand 10 cover it. -/
theorem cover10_G (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : ¬cond0_2 i) (hc3 : cond0_3 i)
    (x3 : Vec F S2048x512 .bf16) (x4 : Vec F S1024x512 .bf16) (x6 : Vec F S128x1024 .bf16) (x7 : Vec F S2048x128 .bf16) (x8 : Vec F S1x1024 .f32) (x10 : Vec F S2048x1024 .f32) (x11 : Vec F S2048x128 .f32) (y : S2048x1024.Idx) :
    ∃ pc ∈ (kernelRun0_G c i arg3 harg3 arg4 harg4 arg5 harg5 arg6 harg6 arg7 harg7 arg8 harg8 arg9 harg9 arg10 harg10 arg11 harg11 hc0 hc1 hc2 hc3 x3 x4 x6 x7 x8 x10 x11).2.1, y ∈ pc.1.set :=
  View.cover_of_tiledL _ S2048x1024.size (by sl_kernel_rfl) y

/-- Case G: what they leave there. -/
theorem canon10_G (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : ¬cond0_2 i) (hc3 : cond0_3 i)
    (x3 : Vec F S2048x512 .bf16) (x4 : Vec F S1024x512 .bf16) (x6 : Vec F S128x1024 .bf16) (x7 : Vec F S2048x128 .bf16) (x8 : Vec F S1x1024 .f32) (x10 : Vec F S2048x1024 .f32) (x11 : Vec F S2048x128 .f32) :
    View.canon (kernelRun0_G c i arg3 harg3 arg4 harg4 arg5 harg5 arg6 harg6 arg7 harg7 arg8 harg8 arg9 harg9 arg10 harg10 arg11 harg11 hc0 hc1 hc2 hc3 x3 x4 x6 x7 x8 x10 x11).2.1 = k0_pay4 x3 x4 x10 := by
  unfold kernelRun0_G
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

end Cert.Kernel.Body

end
-- ==== Proof.BitsBodyData.lean ====
/-
  The proof data of the fused kernel's region and its body obligation.

  Two accumulators live in the kernel's own scratch and are carried from point to point. After the body at point
  t = 32 i + 8 j + k the dense accumulator holds the products of the blocks k' = 0 … k of row block i and column block j
  (it is reset at k = 0); the projection accumulator is filled during the sweep j = 0 (reset at its first point) and
  then kept, so that from the end of that sweep on it holds row block i projected on all 128 adapter rows. At k = 7 the
  output block is stored from both. The invariant before a point says exactly that of the two scratch buffers.
-/
import proofs.«128954_j15144054685780_2_alg».proof.Proof.BitsBodyPieces

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulators hold after each point -/

/-- The dense accumulator and the projection accumulator after the body at position n. -/
def accAt (c : Dev nD) : (n : ℕ) → n < cfg0.N → Vec F S2048x1024 .f32 × Vec F S2048x128 .f32
  | 0, hn => (k0_pay4 (iblk m c 0 ⟨0, hn⟩) (iblk m c 1 ⟨0, hn⟩) (k0_pay1 (F := F)),
      k0_pay5 (iblk m c 0 ⟨0, hn⟩) (iblk m c 2 ⟨0, hn⟩) (k0_pay2 (F := F)))
  | n + 1, hn =>
    (k0_pay4 (iblk m c 0 ⟨n + 1, hn⟩) (iblk m c 1 ⟨n + 1, hn⟩)
        (if (n + 1) % 8 = 0 then k0_pay1 (F := F) else (accAt c n (Nat.lt_of_succ_lt hn)).1),
      if (n + 1) % 32 < 8 then
        k0_pay5 (iblk m c 0 ⟨n + 1, hn⟩) (iblk m c 2 ⟨n + 1, hn⟩)
          (if (n + 1) % 32 = 0 then k0_pay2 (F := F) else (accAt c n (Nat.lt_of_succ_lt hn)).2)
      else (accAt c n (Nat.lt_of_succ_lt hn)).2)

/-- At k = 0 the dense accumulator restarts from zero. -/
theorem accB_reset (c : Dev nD) (t : Fin cfg0.N) (h : t.val % 8 = 0) :
    (accAt m c t.val t.isLt).1 = k0_pay4 (iblk m c 0 t) (iblk m c 1 t) (k0_pay1 (F := F)) := by
  obtain ⟨n, hn⟩ := t
  cases n with
  | zero => rfl
  | succ n => dsimp only at h; rw [accAt]; dsimp only; rw [if_pos h]

/-- Elsewhere it takes this point's product on top of what the point before left. -/
theorem accB_step (c : Dev nD) (t : Fin cfg0.N) (h : ¬t.val % 8 = 0) :
    (accAt m c t.val t.isLt).1 = k0_pay4 (iblk m c 0 t) (iblk m c 1 t) (accAt m c (t.val - 1) (Nat.lt_of_le_of_lt (Nat.sub_le _ _) t.isLt)).1 := by
  obtain ⟨n, hn⟩ := t
  cases n with
  | zero => exact absurd (Nat.zero_mod _) h
  | succ n => dsimp only at h; rw [accAt]; dsimp only; rw [if_neg h]; rfl

/-- At the first point of a row block's sweep the projection accumulator restarts from zero. -/
theorem accA_reset (c : Dev nD) (t : Fin cfg0.N) (h : t.val % 32 = 0) :
    (accAt m c t.val t.isLt).2 = k0_pay5 (iblk m c 0 t) (iblk m c 2 t) (k0_pay2 (F := F)) := by
  obtain ⟨n, hn⟩ := t
  cases n with
  | zero => rfl
  | succ n => dsimp only at h; rw [accAt]; dsimp only; rw [if_pos (show (n + 1) % 32 < 8 by omega), if_pos h]

/-- During the rest of the sweep j = 0 it takes this point's projection on top of what the point before left. -/
theorem accA_step (c : Dev nD) (t : Fin cfg0.N) (h1 : t.val % 32 < 8) (h2 : ¬t.val % 32 = 0) :
    (accAt m c t.val t.isLt).2 = k0_pay5 (iblk m c 0 t) (iblk m c 2 t) (accAt m c (t.val - 1) (Nat.lt_of_le_of_lt (Nat.sub_le _ _) t.isLt)).2 := by
  obtain ⟨n, hn⟩ := t
  cases n with
  | zero => exact absurd (Nat.zero_mod _) h2
  | succ n => dsimp only at h1 h2; rw [accAt]; dsimp only; rw [if_pos h1, if_neg h2]; rfl

/-- At j > 0 it is kept. -/
theorem accA_keep (c : Dev nD) (t : Fin cfg0.N) (h : ¬t.val % 32 < 8) :
    (accAt m c t.val t.isLt).2 = (accAt m c (t.val - 1) (Nat.lt_of_le_of_lt (Nat.sub_le _ _) t.isLt)).2 := by
  obtain ⟨n, hn⟩ := t
  cases n with
  | zero => exact absurd (show (0 : ℕ) % 32 < 8 by decide) h
  | succ n => dsimp only at h; rw [accAt]; dsimp only; rw [if_neg h]; rfl

/-- What the body stores into the output block at a point with k = 7: from the two accumulators as they are after
    this point's products, the routing mask block, the block of the second adapter matrix and the bias block. -/
def outAt (c : Dev nD) (t : Fin cfg0.N) : Vec F S2048x1024 .f32 :=
  k0_pay6 (accAt m c t.val t.isLt).2 (iblk m c 4 t) (iblk m c 3 t) (accAt m c t.val t.isLt).1 (iblk m c 5 t)

/-! ## The invariant -/

/-- Before position n: at the first point the scratch buffers hold anything; afterwards the two accumulators hold
    what the point before left; the generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((accAt m c n hn).1) ∗ owns (c : Thread nD τ) scM0_1 fullShare ((accAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((accAt m c n hn).1) ∗ owns (c : Thread nD τ) scM0_1 fullShare ((accAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((accAt m c (n - 1) (by omega)).1) ∗ owns (c : Thread nD τ) scM0_1 fullShare ((accAt m c (n - 1) (by omega)).2)) ∗ (∃ r, prngReg c r)) := by
  cases n with
  | zero => exact absurd rfl hz
  | succ n => rfl

/-! ## The proof data -/

/-- The arrays as the region finds them; after the body each input's buffer at its block and the output's at the
    stored block; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the point number says which of the six assignments of the branch conditions holds; in
    each the run applies, the invariant hands it the accumulators at what the point before left (anything at the
    very first point) and takes them back at this point's contents, and the output block is the stored one at
    k = 7 and untouched elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN : t.val < 128 := lt_of_lt_of_eq t.isLt (show cfg0.N = 128 from N_0)
  by_cases h0 : t.val % 8 = 0
  · have h3 : ¬t.val % 8 = 7 := by omega
    by_cases h2 : t.val % 32 < 8
    · have h1 : t.val % 32 = 0 := by omega
      have hc0 : cond0_0 (grid0.coords t) := (hcond0_0 t).mpr h0
      have hc1 : cond0_1 (grid0.coords t) := (hcond0_1 t).mpr h1
      have hc2 : cond0_2 (grid0.coords t) := (hcond0_2 t).mpr h2
      have hc3 : ¬cond0_3 (grid0.coords t) := fun h => h3 ((hcond0_3 t).mp h)
      by_cases hz : t.val = 0
      · rw [Dat.leavesExact_idle (dats m 0 c) 6 t (idleAt0_6 t hc3) (noFlush0_6 t hc3)]
        rw [accB_reset m c t h0, accA_reset m c t h1]
        rw [PhiS_castSucc m c t, PhiS_zero m c _ _ hz, PhiA0_eq]
        iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ hc0 hc1 hc2 hc3 (iblk m c 0 t) (iblk m c 1 t) (iblk m c 2 t)).2.2 Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%w10, HS0⟩, ⟨%w11, HS1⟩⟩
        isplitl [HS0 HS1 Hg]
        · isplitl [HS0 HS1]
          · isplitl [HS0]
            · unfold owns; iexists _; isplitr
              swap; · iexact HS0
              ipureintro; exact (View.read_writes_eq_canon _ _ _ (cover10_A c _ _ _ _ _ _ _ _ _ _ _ _ _ _ _ _ _ _ _ hc0 hc1 hc2 hc3 _ _ _)).trans (canon10_A c _ _ _ _ _ _ _ _ _ _ _ _ _ _ _ _ _ _ _ hc0 hc1 hc2 hc3 _ _ _)
            unfold owns; iexists _; isplitr
            swap; · iexact HS1
            ipureintro; exact (View.read_writes_eq_canon _ _ _ (cover11_A c _ _ _ _ _ _ _ _ _ _ _ _ _ _ _ _ _ _ _ hc0 hc1 hc2 hc3 _ _ _)).trans (canon11_A c _ _ _ _ _ _ _ _ _ _ _ _ _ _ _ _ _ _ _ hc0 hc1 hc2 hc3 _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [Dat.leavesExact_idle (dats m 0 c) 6 t (idleAt0_6 t hc3) (noFlush0_6 t hc3)]
        rw [accB_reset m c t h0, accA_reset m c t h1]
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ hc0 hc1 hc2 hc3 (iblk m c 0 t) (iblk m c 1 t) (iblk m c 2 t)).2.2 Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%w10, HS0⟩, ⟨%w11, HS1⟩⟩
        isplitl [HS0 HS1 Hg]
        · isplitl [HS0 HS1]
          · isplitl [HS0]
            · unfold owns; iexists _; isplitr
              swap; · iexact HS0
              ipureintro; exact (View.read_writes_eq_canon _ _ _ (cover10_A c _ _ _ _ _ _ _ _ _ _ _ _ _ _ _ _ _ _ _ hc0 hc1 hc2 hc3 _ _ _)).trans (canon10_A c _ _ _ _ _ _ _ _ _ _ _ _ _ _ _ _ _ _ _ hc0 hc1 hc2 hc3 _ _ _)
            unfold owns; iexists _; isplitr
            swap; · iexact HS1
            ipureintro; exact (View.read_writes_eq_canon _ _ _ (cover11_A c _ _ _ _ _ _ _ _ _ _ _ _ _ _ _ _ _ _ _ hc0 hc1 hc2 hc3 _ _ _)).trans (canon11_A c _ _ _ _ _ _ _ _ _ _ _ _ _ _ _ _ _ _ _ hc0 hc1 hc2 hc3 _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · have h1 : ¬t.val % 32 = 0 := by omega
      have hz : t.val ≠ 0 := by omega
      have hc0 : cond0_0 (grid0.coords t) := (hcond0_0 t).mpr h0
      have hc1 : ¬cond0_1 (grid0.coords t) := fun h => h1 ((hcond0_1 t).mp h)
      have hc2 : ¬cond0_2 (grid0.coords t) := fun h => h2 ((hcond0_2 t).mp h)
      have hc3 : ¬cond0_3 (grid0.coords t) := fun h => h3 ((hcond0_3 t).mp h)
      rw [Dat.leavesExact_idle (dats m 0 c) 6 t (idleAt0_6 t hc3) (noFlush0_6 t hc3)]
      rw [accB_reset m c t h0, accA_keep m c t h2]
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_D c (grid0.coords t) _ _ _ _ _ _ _ _ _ _ _ _ _ _ _ _ _ _ hc0 hc1 hc2 hc3 (iblk m c 0 t) (iblk m c 1 t)).2 Set.univ _)
      isplitl [H0]; · iexact H0
      isplitl [H1]; · iexact H1
      isplitl [HS0]; · iexists _; iexact HS0
      iintro ⟨H0, H1, ⟨%w10, HS0⟩⟩
      isplitl [HS0 HS1 Hg]
      · isplitl [HS0 HS1]
        · isplitl [HS0]
          · unfold owns; iexists _; isplitr
            swap; · iexact HS0
            ipureintro; exact (View.read_writes_eq_canon _ _ _ (cover10_D c _ _ _ _ _ _ _ _ _ _ _ _ _ _ _ _ _ _ _ hc0 hc1 hc2 hc3 _ _)).trans (canon10_D c _ _ _ _ _ _ _ _ _ _ _ _ _ _ _ _ _ _ _ hc0 hc1 hc2 hc3 _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    have h1 : ¬t.val % 32 = 0 := by omega
    by_cases h3 : t.val % 8 = 7
    · by_cases h2 : t.val % 32 < 8
      · have hc0 : ¬cond0_0 (grid0.coords t) := fun h => h0 ((hcond0_0 t).mp h)
        have hc1 : ¬cond0_1 (grid0.coords t) := fun h => h1 ((hcond0_1 t).mp h)
        have hc2 : cond0_2 (grid0.coords t) := (hcond0_2 t).mpr h2
        have hc3 : cond0_3 (grid0.coords t) := (hcond0_3 t).mpr h3
        rw [show (dats m 0 c).leavesExact 6 t = owns (c : Thread nD τ) (ms0_6 t) fullShare ((dats m 0 c).after 6 t) from by
          unfold Dat.leavesExact; rw [liveAt0_6 t hc3], after0_6]
        unfold outAt
        rw [accB_step m c t h0, accA_step m c t h2 h1]
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ hc0 hc1 hc2 hc3 (iblk m c 0 t) (iblk m c 1 t) (iblk m c 2 t) (iblk m c 3 t) (iblk m c 4 t) (iblk m c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, ⟨%w9, H6⟩, ⟨%w10, HS0⟩, ⟨%w11, HS1⟩⟩
        isplitl [HS0 HS1 Hg]
        · isplitl [HS0 HS1]
          · isplitl [HS0]
            · unfold owns; iexists _; isplitr
              swap; · iexact HS0
              ipureintro; exact (View.read_writes_eq_canon _ _ _ (cover10_C c _ _ _ _ _ _ _ _ _ _ _ _ _ _ _ _ _ _ _ hc0 hc1 hc2 hc3 _ _ _ _ _ _ _ _)).trans (canon10_C c _ _ _ _ _ _ _ _ _ _ _ _ _ _ _ _ _ _ _ hc0 hc1 hc2 hc3 _ _ _ _ _ _ _ _)
            unfold owns; iexists _; isplitr
            swap; · iexact HS1
            ipureintro; exact (View.read_writes_eq_canon _ _ _ (cover11_C c _ _ _ _ _ _ _ _ _ _ _ _ _ _ _ _ _ _ _ hc0 hc1 hc2 hc3 _ _ _ _ _ _ _ _)).trans (canon11_C c _ _ _ _ _ _ _ _ _ _ _ _ _ _ _ _ _ _ _ hc0 hc1 hc2 hc3 _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact (View.read_writes_eq_canon _ _ _ (cover9_C c _ _ _ _ _ _ _ _ _ _ _ _ _ _ _ _ _ _ _ hc0 hc1 hc2 hc3 _ _ _ _ _ _ _ _)).trans (canon9_C c _ _ _ _ _ _ _ _ _ _ _ _ _ _ _ _ _ _ _ hc0 hc1 hc2 hc3 _ _ _ _ _ _ _ _)
      · have hc0 : ¬cond0_0 (grid0.coords t) := fun h => h0 ((hcond0_0 t).mp h)
        have hc1 : ¬cond0_1 (grid0.coords t) := fun h => h1 ((hcond0_1 t).mp h)
        have hc2 : ¬cond0_2 (grid0.coords t) := fun h => h2 ((hcond0_2 t).mp h)
        have hc3 : cond0_3 (grid0.coords t) := (hcond0_3 t).mpr h3
        rw [show (dats m 0 c).leavesExact 6 t = owns (c : Thread nD τ) (ms0_6 t) fullShare ((dats m 0 c).after 6 t) from by
          unfold Dat.leavesExact; rw [liveAt0_6 t hc3], after0_6]
        unfold outAt
        rw [accB_step m c t h0, accA_keep m c t h2]
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_G c (grid0.coords t) _ _ _ _ _ _ _ _ _ _ _ _ _ _ _ _ _ _ hc0 hc1 hc2 hc3 (iblk m c 0 t) (iblk m c 1 t) (iblk m c 3 t) (iblk m c 4 t) (iblk m c 5 t) _ _).2.2 Set.univ _)
        isplitl [H0]; · iexact H0
        isplitl [H1]; · iexact H1
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H3, H4, H5, ⟨%w9, H6⟩, ⟨%w10, HS0⟩, HS1⟩
        isplitl [HS0 HS1 Hg]
        · isplitl [HS0 HS1]
          · isplitl [HS0]
            · unfold owns; iexists _; isplitr
              swap; · iexact HS0
              ipureintro; exact (View.read_writes_eq_canon _ _ _ (cover10_G c _ _ _ _ _ _ _ _ _ _ _ _ _ _ _ _ _ _ _ hc0 hc1 hc2 hc3 _ _ _ _ _ _ _)).trans (canon10_G c _ _ _ _ _ _ _ _ _ _ _ _ _ _ _ _ _ _ _ hc0 hc1 hc2 hc3 _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact (View.read_writes_eq_canon _ _ _ (cover9_G c _ _ _ _ _ _ _ _ _ _ _ _ _ _ _ _ _ _ _ hc0 hc1 hc2 hc3 _ _ _ _ _ _ _)).trans (canon9_G c _ _ _ _ _ _ _ _ _ _ _ _ _ _ _ _ _ _ _ hc0 hc1 hc2 hc3 _ _ _ _ _ _ _)
    · by_cases h2 : t.val % 32 < 8
      · have hc0 : ¬cond0_0 (grid0.coords t) := fun h => h0 ((hcond0_0 t).mp h)
        have hc1 : ¬cond0_1 (grid0.coords t) := fun h => h1 ((hcond0_1 t).mp h)
        have hc2 : cond0_2 (grid0.coords t) := (hcond0_2 t).mpr h2
        have hc3 : ¬cond0_3 (grid0.coords t) := fun h => h3 ((hcond0_3 t).mp h)
        rw [Dat.leavesExact_idle (dats m 0 c) 6 t (idleAt0_6 t hc3) (noFlush0_6 t hc3)]
        rw [accB_step m c t h0, accA_step m c t h2 h1]
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ hc0 hc1 hc2 hc3 (iblk m c 0 t) (iblk m c 1 t) (iblk m c 2 t) _ _).2.2 Set.univ _)
        isplitl [H0]; · iexact H0
        isplitl [H1]; · iexact H1
        isplitl [H2]; · iexact H2
        isplitl [HS0]; · iexact HS0
        isplitl [HS1]; · iexact HS1
        iintro ⟨H0, H1, H2, ⟨%w10, HS0⟩, ⟨%w11, HS1⟩⟩
        isplitl [HS0 HS1 Hg]
        · isplitl [HS0 HS1]
          · isplitl [HS0]
            · unfold owns; iexists _; isplitr
              swap; · iexact HS0
              ipureintro; exact (View.read_writes_eq_canon _ _ _ (cover10_B c _ _ _ _ _ _ _ _ _ _ _ _ _ _ _ _ _ _ _ hc0 hc1 hc2 hc3 _ _ _ _ _)).trans (canon10_B c _ _ _ _ _ _ _ _ _ _ _ _ _ _ _ _ _ _ _ hc0 hc1 hc2 hc3 _ _ _ _ _)
            unfold owns; iexists _; isplitr
            swap; · iexact HS1
            ipureintro; exact (View.read_writes_eq_canon _ _ _ (cover11_B c _ _ _ _ _ _ _ _ _ _ _ _ _ _ _ _ _ _ _ hc0 hc1 hc2 hc3 _ _ _ _ _)).trans (canon11_B c _ _ _ _ _ _ _ _ _ _ _ _ _ _ _ _ _ _ _ hc0 hc1 hc2 hc3 _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · have hc0 : ¬cond0_0 (grid0.coords t) := fun h => h0 ((hcond0_0 t).mp h)
        have hc1 : ¬cond0_1 (grid0.coords t) := fun h => h1 ((hcond0_1 t).mp h)
        have hc2 : ¬cond0_2 (grid0.coords t) := fun h => h2 ((hcond0_2 t).mp h)
        have hc3 : ¬cond0_3 (grid0.coords t) := fun h => h3 ((hcond0_3 t).mp h)
        rw [Dat.leavesExact_idle (dats m 0 c) 6 t (idleAt0_6 t hc3) (noFlush0_6 t hc3)]
        rw [accB_step m c t h0, accA_keep m c t h2]
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_E c (grid0.coords t) _ _ _ _ _ _ _ _ _ _ _ _ _ _ _ _ _ _ hc0 hc1 hc2 hc3 (iblk m c 0 t) (iblk m c 1 t) _).2 Set.univ _)
        isplitl [H0]; · iexact H0
        isplitl [H1]; · iexact H1
        isplitl [HS0]; · iexact HS0
        iintro ⟨H0, H1, ⟨%w10, HS0⟩⟩
        isplitl [HS0 HS1 Hg]
        · isplitl [HS0 HS1]
          · isplitl [HS0]
            · unfold owns; iexists _; isplitr
              swap; · iexact HS0
              ipureintro; exact (View.read_writes_eq_canon _ _ _ (cover10_E c _ _ _ _ _ _ _ _ _ _ _ _ _ _ _ _ _ _ _ hc0 hc1 hc2 hc3 _ _ _)).trans (canon10_E c _ _ _ _ _ _ _ _ _ _ _ _ _ _ _ _ _ _ _ hc0 hc1 hc2 hc3 _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end without a fault and leaves its six argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.IdealBodyDefs.lean ====
/-
  What the runs of the fused kernel's body share. The grid is 4 x 4 x 8 (row block i, column block j, block k of the
  contracted axis), walked with k innermost, so point number t is 32 i + 8 j + k. The body branches four times on the
  coordinates; here each condition is put in closed form over t, the points where the output window is idle are
  listed, and the memrefs the pipeline passes the body at a point are named.
-/
import proofs.«128954_j15144054685780_2_alg».proof.Proof.Gen.KernelIdeal.Frame
import proofs.«128954_j15144054685780_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four branch conditions, from the grid coordinates (i, j, k) -/

/-- k = 0: the first block of the contracted axis (the dense accumulator is reset). -/
abbrev cond0_0 (i : grid0.Coords) : Prop := (Scalar.cmpi .ne (Scalar.extui (Scalar.cmpi .eq (BitVec.ofNat 32 (i 2).val) 0#32)) 0#32) = 1#1
/-- j = 0 and k = 0: the first point of a row block's sweep (the projection accumulator is reset). -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- j = 0: the first column block (the projection is accumulated only there). -/
abbrev cond0_2 (i : grid0.Coords) : Prop := (Scalar.cmpi .ne (Scalar.extui (Scalar.cmpi .eq (BitVec.ofNat 32 (i 1).val) 0#32)) 0#32) = 1#1
/-- k = 7: the last block of the contracted axis (the output block is stored). -/
abbrev cond0_3 (i : grid0.Coords) : Prop := k0_cond4 i = 1#1

/-- The point number is 32 i + 8 j + k; each condition in closed form over it, decided over the 128 points. -/
theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 32 = 0 :=
  (by decide +kernel : ∀ t : Fin grid0.N, cond0_1 (grid0.coords t) ↔ t.val % 32 = 0)
theorem hcond0_2 : ∀ t : Fin cfg0.N, cond0_2 (grid0.coords t) ↔ t.val % 32 < 8 :=
  (by decide +kernel : ∀ t : Fin grid0.N, cond0_2 (grid0.coords t) ↔ t.val % 32 < 8)
theorem hcond0_3 : ∀ t : Fin cfg0.N, cond0_3 (grid0.coords t) ↔ t.val % 8 = 7 :=
  (by decide +kernel : ∀ t : Fin grid0.N, cond0_3 (grid0.coords t) ↔ t.val % 8 = 7)

/-! ## Where the windows are idle -/

/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Input window 4 is never idle. -/
theorem liveAt0_4 : ∀ t : Fin cfg0.N, cfg0.idle 4 (grid0.coords t) = false := by decide +kernel
/-- Input window 5 is never idle. -/
theorem liveAt0_5 : ∀ t : Fin cfg0.N, cfg0.idle 5 (grid0.coords t) = false := by decide +kernel
/-- Away from k = 7 the output window is idle: the body stores nothing into it, -/
theorem idleAt0_6 : ∀ t : Fin cfg0.N, ¬cond0_3 (grid0.coords t) → cfg0.idle 6 (grid0.coords t) = true := by decide +kernel
/-- and the pipeline does not write its block back. -/
theorem noFlush0_6 : ∀ t : Fin cfg0.N, ¬cond0_3 (grid0.coords t) → (cfg0.win 6).flush t = false := by decide +kernel
/-- At k = 7 it is live. -/
theorem liveAt0_6 : ∀ t : Fin cfg0.N, cond0_3 (grid0.coords t) → cfg0.idle 6 (grid0.coords t) = false := by decide +kernel

/-! ## The memrefs the body is called with -/

abbrev ms0_0 (t : Fin cfg0.N) : Memref sig .tc .vmem S2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x1024 .f32 := win0_6.stage (cfg0.slots t 6)
abbrev hs0_6 (t : Fin cfg0.N) : (ms0_6 t).IsWhole := hstage0_6 ((cfg0.slots t 6).cast nbuf0_6)
/-- The dense accumulator and the projection accumulator: whole scoped buffers of the kernel's own. -/
abbrev scM0_0 : Memref sig .tc .vmem S2048x1024 .f32 := Memref.whole cc0_scratch0
abbrev scM0_1 : Memref sig .tc .vmem S2048x128 .f32 := Memref.whole cc0_scratch1

/-- The region's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.IdealRunA.lean ====
/-
  The fused kernel's body run symbolically at the points of one assignment of its four branch conditions: on whole
  staging memrefs at given contents it runs to the end without a fault, leaves every buffer it only loads as it was,
  and leaves each buffer it stores into with that store's pieces written.
-/
import proofs.«128954_j15144054685780_2_alg».proof.Proof.IdealBodyDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point of a row block's sweep (j = 0, k = 0): both accumulators are reset, then the dense product and the projection of the first blocks are added; nothing is stored into the output block. -/
noncomputable def kernelRun0_A (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : cond0_0 i) (hc1 : cond0_1 i) (hc2 : cond0_2 i) (hc3 : ¬cond0_3 i)
    (x3 : Vec F S2048x512 .bf16) (x4 : Vec F S1024x512 .bf16) (x5 : Vec F S128x512 .bf16) :
    Σ' (L10 : List (View.Piece (Elt F) S2048x1024 .f32)), { L11 : List (View.Piece (Elt F) S2048x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ (∃ d, owns (c : Thread nD τ) arg10 fullShare d) ∗ (∃ d, owns (c : Thread nD τ) arg11 fullShare d)
            ∗ (iprop(owns (c : Thread nD τ) arg3 fullShare x3 ∗ owns (c : Thread nD τ) arg4 fullShare x4 ∗ owns (c : Thread nD τ) arg5 fullShare x5 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11) K } := by
  refine ⟨?_, ?_, fun E K => ?run⟩
  case run =>
    simp only [cc0__fused_kernel_eq_skeleton]; unfold cc0__fused_kernel_skel
    unfold owns
    iintro ⟨⟨%f3, %hf3, H3⟩, ⟨%f4, %hf4, H4⟩, ⟨%f5, %hf5, H5⟩, ⟨%d10, %f10, -, H10⟩, ⟨%d11, %f11, -, H11⟩, Hk⟩
    obtain rfl := harg3.eq_unread hf3; obtain rfl := harg4.eq_unread hf4; obtain rfl := harg5.eq_unread hf5
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H10]; · iexists _; iexact H10
    iexists _; iexact H11

end Cert.KernelIdeal.Body

end
-- ==== Proof.IdealRunB.lean ====
/-
  The fused kernel's body run symbolically at the points of one assignment of its four branch conditions: on whole
  staging memrefs at given contents it runs to the end without a fault, leaves every buffer it only loads as it was,
  and leaves each buffer it stores into with that store's pieces written.
-/
import proofs.«128954_j15144054685780_2_alg».proof.Proof.IdealBodyDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at j = 0, 0 < k < 7: both accumulators take the products of this point's blocks on top of what the point before left. -/
noncomputable def kernelRun0_B (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : ¬cond0_3 i)
    (x3 : Vec F S2048x512 .bf16) (x4 : Vec F S1024x512 .bf16) (x5 : Vec F S128x512 .bf16) (x10 : Vec F S2048x1024 .f32) (x11 : Vec F S2048x128 .f32) :
    Σ' (L10 : List (View.Piece (Elt F) S2048x1024 .f32)), { L11 : List (View.Piece (Elt F) S2048x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg10 fullShare x10 ∗ owns (c : Thread nD τ) arg11 fullShare x11
            ∗ (iprop(owns (c : Thread nD τ) arg3 fullShare x3 ∗ owns (c : Thread nD τ) arg4 fullShare x4 ∗ owns (c : Thread nD τ) arg5 fullShare x5 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11) K } := by
  refine ⟨?_, ?_, fun E K => ?run⟩
  case run =>
    simp only [cc0__fused_kernel_eq_skeleton]; unfold cc0__fused_kernel_skel
    unfold owns
    iintro ⟨⟨%f3, %hf3, H3⟩, ⟨%f4, %hf4, H4⟩, ⟨%f5, %hf5, H5⟩, ⟨%f10, %hf10, H10⟩, ⟨%f11, %hf11, H11⟩, Hk⟩
    obtain rfl := harg3.eq_unread hf3; obtain rfl := harg4.eq_unread hf4; obtain rfl := harg5.eq_unread hf5; obtain rfl := harg10.eq_unread hf10; obtain rfl := harg11.eq_unread hf11
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H10]; · iexists _; iexact H10
    iexists _; iexact H11

end Cert.KernelIdeal.Body

end
-- ==== Proof.IdealRunC.lean ====
/-
  The fused kernel's body run symbolically at the points of one assignment of its four branch conditions: on whole
  staging memrefs at given contents it runs to the end without a fault, leaves every buffer it only loads as it was,
  and leaves each buffer it stores into with that store's pieces written.
-/
import proofs.«128954_j15144054685780_2_alg».proof.Proof.IdealBodyDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at j = 0, k = 7: both accumulators take their last products and the output block is stored from them. -/
noncomputable def kernelRun0_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : cond0_3 i)
    (x3 : Vec F S2048x512 .bf16) (x4 : Vec F S1024x512 .bf16) (x5 : Vec F S128x512 .bf16) (x6 : Vec F S128x1024 .bf16) (x7 : Vec F S2048x128 .bf16) (x8 : Vec F S1x1024 .f32) (x10 : Vec F S2048x1024 .f32) (x11 : Vec F S2048x128 .f32) :
    Σ' (L9 : List (View.Piece (Elt F) S2048x1024 .f32)), Σ' (L10 : List (View.Piece (Elt F) S2048x1024 .f32)), { L11 : List (View.Piece (Elt F) S2048x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare x10 ∗ owns (c : Thread nD τ) arg11 fullShare x11
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11) K } := by
  refine ⟨?_, ?_, ?_, fun E K => ?run⟩
  case run =>
    simp only [cc0__fused_kernel_eq_skeleton]; unfold cc0__fused_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    iexists _; iexact H11

end Cert.KernelIdeal.Body

end
-- ==== Proof.IdealRunD.lean ====
/-
  The fused kernel's body run symbolically at the points of one assignment of its four branch conditions: on whole
  staging memrefs at given contents it runs to the end without a fault, leaves every buffer it only loads as it was,
  and leaves each buffer it stores into with that store's pieces written.
-/
import proofs.«128954_j15144054685780_2_alg».proof.Proof.IdealBodyDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at j > 0, k = 0: the dense accumulator is reset and takes the first product; the projection accumulator is not touched. -/
noncomputable def kernelRun0_D (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : cond0_0 i) (hc1 : ¬cond0_1 i) (hc2 : ¬cond0_2 i) (hc3 : ¬cond0_3 i)
    (x3 : Vec F S2048x512 .bf16) (x4 : Vec F S1024x512 .bf16) :
    { L10 : List (View.Piece (Elt F) S2048x1024 .f32) //
      ∀ (E : Set ℕ) (K : PUnit → sProp 𝕄),
        iprop(owns (c : Thread nD τ) arg3 fullShare x3 ∗ owns (c : Thread nD τ) arg4 fullShare x4 ∗ (∃ d, owns (c : Thread nD τ) arg10 fullShare d)
            ∗ (iprop(owns (c : Thread nD τ) arg3 fullShare x3 ∗ owns (c : Thread nD τ) arg4 fullShare x4 ∗ (∃ f, arg10.view.loc (c : Thread nD τ) ↦[arg10.view.set]{fullShare} arg10.view.writes (Elt F) f L10)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    unfold owns
    iintro ⟨⟨%f3, %hf3, H3⟩, ⟨%f4, %hf4, H4⟩, ⟨%d10, %f10, -, H10⟩, Hk⟩
    obtain rfl := harg3.eq_unread hf3; obtain rfl := harg4.eq_unread hf4
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    iexists _; iexact H10

end Cert.KernelIdeal.Body

end
-- ==== Proof.IdealRunE.lean ====
/-
  The fused kernel's body run symbolically at the points of one assignment of its four branch conditions: on whole
  staging memrefs at given contents it runs to the end without a fault, leaves every buffer it only loads as it was,
  and leaves each buffer it stores into with that store's pieces written.
-/
import proofs.«128954_j15144054685780_2_alg».proof.Proof.IdealBodyDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at j > 0, 0 < k < 7: the dense accumulator takes this point's product; the projection accumulator is not touched. -/
noncomputable def kernelRun0_E (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : ¬cond0_2 i) (hc3 : ¬cond0_3 i)
    (x3 : Vec F S2048x512 .bf16) (x4 : Vec F S1024x512 .bf16) (x10 : Vec F S2048x1024 .f32) :
    { L10 : List (View.Piece (Elt F) S2048x1024 .f32) //
      ∀ (E : Set ℕ) (K : PUnit → sProp 𝕄),
        iprop(owns (c : Thread nD τ) arg3 fullShare x3 ∗ owns (c : Thread nD τ) arg4 fullShare x4 ∗ owns (c : Thread nD τ) arg10 fullShare x10
            ∗ (iprop(owns (c : Thread nD τ) arg3 fullShare x3 ∗ owns (c : Thread nD τ) arg4 fullShare x4 ∗ (∃ f, arg10.view.loc (c : Thread nD τ) ↦[arg10.view.set]{fullShare} arg10.view.writes (Elt F) f L10)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    unfold owns
    iintro ⟨⟨%f3, %hf3, H3⟩, ⟨%f4, %hf4, H4⟩, ⟨%f10, %hf10, H10⟩, Hk⟩
    obtain rfl := harg3.eq_unread hf3; obtain rfl := harg4.eq_unread hf4; obtain rfl := harg10.eq_unread hf10
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    iexists _; iexact H10

end Cert.KernelIdeal.Body

end
-- ==== Proof.IdealRunG.lean ====
/-
  The fused kernel's body run symbolically at the points of one assignment of its four branch conditions: on whole
  staging memrefs at given contents it runs to the end without a fault, leaves every buffer it only loads as it was,
  and leaves each buffer it stores into with that store's pieces written.
-/
import proofs.«128954_j15144054685780_2_alg».proof.Proof.IdealBodyDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at j > 0, k = 7: the dense accumulator takes its last product and the output block is stored from it and from the projection accumulator the j = 0 sweep left. -/
noncomputable def kernelRun0_G (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : ¬cond0_2 i) (hc3 : cond0_3 i)
    (x3 : Vec F S2048x512 .bf16) (x4 : Vec F S1024x512 .bf16) (x6 : Vec F S128x1024 .bf16) (x7 : Vec F S2048x128 .bf16) (x8 : Vec F S1x1024 .f32) (x10 : Vec F S2048x1024 .f32) (x11 : Vec F S2048x128 .f32) :
    Σ' (L9 : List (View.Piece (Elt F) S2048x1024 .f32)), { L10 : List (View.Piece (Elt F) S2048x1024 .f32) //
      ∀ (E : Set ℕ) (K : PUnit → sProp 𝕄),
        iprop(owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare x10 ∗ owns (c : Thread nD τ) arg11 fullShare x11
            ∗ (iprop(owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ owns (c : Thread nD τ) arg11 fullShare x11) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11) K } := by
  refine ⟨?_, ?_, fun E K => ?run⟩
  case run =>
    simp only [cc0__fused_kernel_eq_skeleton]; unfold cc0__fused_kernel_skel
    unfold owns
    iintro ⟨⟨%f3, %hf3, H3⟩, ⟨%f4, %hf4, H4⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
    obtain rfl := harg3.eq_unread hf3; obtain rfl := harg4.eq_unread hf4; obtain rfl := harg6.eq_unread hf6; obtain rfl := harg7.eq_unread hf7; obtain rfl := harg8.eq_unread hf8; obtain rfl := harg10.eq_unread hf10; obtain rfl := harg11.eq_unread hf11
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    iexists _; isplitr; · ipureintro; exact harg11.read_unread _
    iexact H11

end Cert.KernelIdeal.Body

end
-- ==== Proof.IdealBodyPieces.lean ====
/-
  What each run's stores leave, as values. Every store of the body writes a whole buffer, so the pieces a run found
  for a buffer cover it, and what they leave is the last store's payload: the dense accumulator plus this point's
  product, the projection accumulator plus this point's projection, the output block from both.
-/
import proofs.«128954_j15144054685780_2_alg».proof.Proof.IdealRunA
import proofs.«128954_j15144054685780_2_alg».proof.Proof.IdealRunB
import proofs.«128954_j15144054685780_2_alg».proof.Proof.IdealRunC
import proofs.«128954_j15144054685780_2_alg».proof.Proof.IdealRunD
import proofs.«128954_j15144054685780_2_alg».proof.Proof.IdealRunE
import proofs.«128954_j15144054685780_2_alg».proof.Proof.IdealRunG
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- Case A: the pieces found for operand 10 cover it. -/
theorem cover10_A (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : cond0_0 i) (hc1 : cond0_1 i) (hc2 : cond0_2 i) (hc3 : ¬cond0_3 i)
    (x3 : Vec F S2048x512 .bf16) (x4 : Vec F S1024x512 .bf16) (x5 : Vec F S128x512 .bf16) (y : S2048x1024.Idx) :
    ∃ pc ∈ (kernelRun0_A c i arg3 harg3 arg4 harg4 arg5 harg5 arg6 harg6 arg7 harg7 arg8 harg8 arg9 harg9 arg10 harg10 arg11 harg11 hc0 hc1 hc2 hc3 x3 x4 x5).1, y ∈ pc.1.set :=
  View.cover_of_tiledL _ S2048x1024.size (by sl_kernel_rfl) y

/-- Case A: what they leave there. -/
theorem canon10_A (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : cond0_0 i) (hc1 : cond0_1 i) (hc2 : cond0_2 i) (hc3 : ¬cond0_3 i)
    (x3 : Vec F S2048x512 .bf16) (x4 : Vec F S1024x512 .bf16) (x5 : Vec F S128x512 .bf16) :
    View.canon (kernelRun0_A c i arg3 harg3 arg4 harg4 arg5 harg5 arg6 harg6 arg7 harg7 arg8 harg8 arg9 harg9 arg10 harg10 arg11 harg11 hc0 hc1 hc2 hc3 x3 x4 x5).1 = k0_pay4 x3 x4 (k0_pay1 (F := F)) := by
  unfold kernelRun0_A
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

/-- Case A: the pieces found for operand 11 cover it. -/
theorem cover11_A (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : cond0_0 i) (hc1 : cond0_1 i) (hc2 : cond0_2 i) (hc3 : ¬cond0_3 i)
    (x3 : Vec F S2048x512 .bf16) (x4 : Vec F S1024x512 .bf16) (x5 : Vec F S128x512 .bf16) (y : S2048x128.Idx) :
    ∃ pc ∈ (kernelRun0_A c i arg3 harg3 arg4 harg4 arg5 harg5 arg6 harg6 arg7 harg7 arg8 harg8 arg9 harg9 arg10 harg10 arg11 harg11 hc0 hc1 hc2 hc3 x3 x4 x5).2.1, y ∈ pc.1.set :=
  View.cover_of_tiledL _ S2048x128.size (by sl_kernel_rfl) y

/-- Case A: what they leave there. -/
theorem canon11_A (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : cond0_0 i) (hc1 : cond0_1 i) (hc2 : cond0_2 i) (hc3 : ¬cond0_3 i)
    (x3 : Vec F S2048x512 .bf16) (x4 : Vec F S1024x512 .bf16) (x5 : Vec F S128x512 .bf16) :
    View.canon (kernelRun0_A c i arg3 harg3 arg4 harg4 arg5 harg5 arg6 harg6 arg7 harg7 arg8 harg8 arg9 harg9 arg10 harg10 arg11 harg11 hc0 hc1 hc2 hc3 x3 x4 x5).2.1 = k0_pay5 x3 x5 (k0_pay2 (F := F)) := by
  unfold kernelRun0_A
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

/-- Case B: the pieces found for operand 10 cover it. -/
theorem cover10_B (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : ¬cond0_3 i)
    (x3 : Vec F S2048x512 .bf16) (x4 : Vec F S1024x512 .bf16) (x5 : Vec F S128x512 .bf16) (x10 : Vec F S2048x1024 .f32) (x11 : Vec F S2048x128 .f32) (y : S2048x1024.Idx) :
    ∃ pc ∈ (kernelRun0_B c i arg3 harg3 arg4 harg4 arg5 harg5 arg6 harg6 arg7 harg7 arg8 harg8 arg9 harg9 arg10 harg10 arg11 harg11 hc0 hc1 hc2 hc3 x3 x4 x5 x10 x11).1, y ∈ pc.1.set :=
  View.cover_of_tiledL _ S2048x1024.size (by sl_kernel_rfl) y

/-- Case B: what they leave there. -/
theorem canon10_B (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : ¬cond0_3 i)
    (x3 : Vec F S2048x512 .bf16) (x4 : Vec F S1024x512 .bf16) (x5 : Vec F S128x512 .bf16) (x10 : Vec F S2048x1024 .f32) (x11 : Vec F S2048x128 .f32) :
    View.canon (kernelRun0_B c i arg3 harg3 arg4 harg4 arg5 harg5 arg6 harg6 arg7 harg7 arg8 harg8 arg9 harg9 arg10 harg10 arg11 harg11 hc0 hc1 hc2 hc3 x3 x4 x5 x10 x11).1 = k0_pay4 x3 x4 x10 := by
  unfold kernelRun0_B
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

/-- Case B: the pieces found for operand 11 cover it. -/
theorem cover11_B (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : ¬cond0_3 i)
    (x3 : Vec F S2048x512 .bf16) (x4 : Vec F S1024x512 .bf16) (x5 : Vec F S128x512 .bf16) (x10 : Vec F S2048x1024 .f32) (x11 : Vec F S2048x128 .f32) (y : S2048x128.Idx) :
    ∃ pc ∈ (kernelRun0_B c i arg3 harg3 arg4 harg4 arg5 harg5 arg6 harg6 arg7 harg7 arg8 harg8 arg9 harg9 arg10 harg10 arg11 harg11 hc0 hc1 hc2 hc3 x3 x4 x5 x10 x11).2.1, y ∈ pc.1.set :=
  View.cover_of_tiledL _ S2048x128.size (by sl_kernel_rfl) y

/-- Case B: what they leave there. -/
theorem canon11_B (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : ¬cond0_3 i)
    (x3 : Vec F S2048x512 .bf16) (x4 : Vec F S1024x512 .bf16) (x5 : Vec F S128x512 .bf16) (x10 : Vec F S2048x1024 .f32) (x11 : Vec F S2048x128 .f32) :
    View.canon (kernelRun0_B c i arg3 harg3 arg4 harg4 arg5 harg5 arg6 harg6 arg7 harg7 arg8 harg8 arg9 harg9 arg10 harg10 arg11 harg11 hc0 hc1 hc2 hc3 x3 x4 x5 x10 x11).2.1 = k0_pay5 x3 x5 x11 := by
  unfold kernelRun0_B
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

/-- Case C: the pieces found for operand 9 cover it. -/
theorem cover9_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : cond0_3 i)
    (x3 : Vec F S2048x512 .bf16) (x4 : Vec F S1024x512 .bf16) (x5 : Vec F S128x512 .bf16) (x6 : Vec F S128x1024 .bf16) (x7 : Vec F S2048x128 .bf16) (x8 : Vec F S1x1024 .f32) (x10 : Vec F S2048x1024 .f32) (x11 : Vec F S2048x128 .f32) (y : S2048x1024.Idx) :
    ∃ pc ∈ (kernelRun0_C c i arg3 harg3 arg4 harg4 arg5 harg5 arg6 harg6 arg7 harg7 arg8 harg8 arg9 harg9 arg10 harg10 arg11 harg11 hc0 hc1 hc2 hc3 x3 x4 x5 x6 x7 x8 x10 x11).1, y ∈ pc.1.set :=
  View.cover_of_tiledL _ S2048x1024.size (by sl_kernel_rfl) y

/-- Case C: what they leave there. -/
theorem canon9_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : cond0_3 i)
    (x3 : Vec F S2048x512 .bf16) (x4 : Vec F S1024x512 .bf16) (x5 : Vec F S128x512 .bf16) (x6 : Vec F S128x1024 .bf16) (x7 : Vec F S2048x128 .bf16) (x8 : Vec F S1x1024 .f32) (x10 : Vec F S2048x1024 .f32) (x11 : Vec F S2048x128 .f32) :
    View.canon (kernelRun0_C c i arg3 harg3 arg4 harg4 arg5 harg5 arg6 harg6 arg7 harg7 arg8 harg8 arg9 harg9 arg10 harg10 arg11 harg11 hc0 hc1 hc2 hc3 x3 x4 x5 x6 x7 x8 x10 x11).1 = k0_pay6 (k0_pay5 x3 x5 x11) x7 x6 (k0_pay4 x3 x4 x10) x8 := by
  unfold kernelRun0_C
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

/-- Case C: the pieces found for operand 10 cover it. -/
theorem cover10_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : cond0_3 i)
    (x3 : Vec F S2048x512 .bf16) (x4 : Vec F S1024x512 .bf16) (x5 : Vec F S128x512 .bf16) (x6 : Vec F S128x1024 .bf16) (x7 : Vec F S2048x128 .bf16) (x8 : Vec F S1x1024 .f32) (x10 : Vec F S2048x1024 .f32) (x11 : Vec F S2048x128 .f32) (y : S2048x1024.Idx) :
    ∃ pc ∈ (kernelRun0_C c i arg3 harg3 arg4 harg4 arg5 harg5 arg6 harg6 arg7 harg7 arg8 harg8 arg9 harg9 arg10 harg10 arg11 harg11 hc0 hc1 hc2 hc3 x3 x4 x5 x6 x7 x8 x10 x11).2.1, y ∈ pc.1.set :=
  View.cover_of_tiledL _ S2048x1024.size (by sl_kernel_rfl) y

/-- Case C: what they leave there. -/
theorem canon10_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : cond0_3 i)
    (x3 : Vec F S2048x512 .bf16) (x4 : Vec F S1024x512 .bf16) (x5 : Vec F S128x512 .bf16) (x6 : Vec F S128x1024 .bf16) (x7 : Vec F S2048x128 .bf16) (x8 : Vec F S1x1024 .f32) (x10 : Vec F S2048x1024 .f32) (x11 : Vec F S2048x128 .f32) :
    View.canon (kernelRun0_C c i arg3 harg3 arg4 harg4 arg5 harg5 arg6 harg6 arg7 harg7 arg8 harg8 arg9 harg9 arg10 harg10 arg11 harg11 hc0 hc1 hc2 hc3 x3 x4 x5 x6 x7 x8 x10 x11).2.1 = k0_pay4 x3 x4 x10 := by
  unfold kernelRun0_C
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

/-- Case C: the pieces found for operand 11 cover it. -/
theorem cover11_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : cond0_3 i)
    (x3 : Vec F S2048x512 .bf16) (x4 : Vec F S1024x512 .bf16) (x5 : Vec F S128x512 .bf16) (x6 : Vec F S128x1024 .bf16) (x7 : Vec F S2048x128 .bf16) (x8 : Vec F S1x1024 .f32) (x10 : Vec F S2048x1024 .f32) (x11 : Vec F S2048x128 .f32) (y : S2048x128.Idx) :
    ∃ pc ∈ (kernelRun0_C c i arg3 harg3 arg4 harg4 arg5 harg5 arg6 harg6 arg7 harg7 arg8 harg8 arg9 harg9 arg10 harg10 arg11 harg11 hc0 hc1 hc2 hc3 x3 x4 x5 x6 x7 x8 x10 x11).2.2.1, y ∈ pc.1.set :=
  View.cover_of_tiledL _ S2048x128.size (by sl_kernel_rfl) y

/-- Case C: what they leave there. -/
theorem canon11_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : cond0_2 i) (hc3 : cond0_3 i)
    (x3 : Vec F S2048x512 .bf16) (x4 : Vec F S1024x512 .bf16) (x5 : Vec F S128x512 .bf16) (x6 : Vec F S128x1024 .bf16) (x7 : Vec F S2048x128 .bf16) (x8 : Vec F S1x1024 .f32) (x10 : Vec F S2048x1024 .f32) (x11 : Vec F S2048x128 .f32) :
    View.canon (kernelRun0_C c i arg3 harg3 arg4 harg4 arg5 harg5 arg6 harg6 arg7 harg7 arg8 harg8 arg9 harg9 arg10 harg10 arg11 harg11 hc0 hc1 hc2 hc3 x3 x4 x5 x6 x7 x8 x10 x11).2.2.1 = k0_pay5 x3 x5 x11 := by
  unfold kernelRun0_C
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

/-- Case D: the pieces found for operand 10 cover it. -/
theorem cover10_D (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : cond0_0 i) (hc1 : ¬cond0_1 i) (hc2 : ¬cond0_2 i) (hc3 : ¬cond0_3 i)
    (x3 : Vec F S2048x512 .bf16) (x4 : Vec F S1024x512 .bf16) (y : S2048x1024.Idx) :
    ∃ pc ∈ (kernelRun0_D c i arg3 harg3 arg4 harg4 arg5 harg5 arg6 harg6 arg7 harg7 arg8 harg8 arg9 harg9 arg10 harg10 arg11 harg11 hc0 hc1 hc2 hc3 x3 x4).1, y ∈ pc.1.set :=
  View.cover_of_tiledL _ S2048x1024.size (by sl_kernel_rfl) y

/-- Case D: what they leave there. -/
theorem canon10_D (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : cond0_0 i) (hc1 : ¬cond0_1 i) (hc2 : ¬cond0_2 i) (hc3 : ¬cond0_3 i)
    (x3 : Vec F S2048x512 .bf16) (x4 : Vec F S1024x512 .bf16) :
    View.canon (kernelRun0_D c i arg3 harg3 arg4 harg4 arg5 harg5 arg6 harg6 arg7 harg7 arg8 harg8 arg9 harg9 arg10 harg10 arg11 harg11 hc0 hc1 hc2 hc3 x3 x4).1 = k0_pay4 x3 x4 (k0_pay1 (F := F)) := by
  unfold kernelRun0_D
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

/-- Case E: the pieces found for operand 10 cover it. -/
theorem cover10_E (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : ¬cond0_2 i) (hc3 : ¬cond0_3 i)
    (x3 : Vec F S2048x512 .bf16) (x4 : Vec F S1024x512 .bf16) (x10 : Vec F S2048x1024 .f32) (y : S2048x1024.Idx) :
    ∃ pc ∈ (kernelRun0_E c i arg3 harg3 arg4 harg4 arg5 harg5 arg6 harg6 arg7 harg7 arg8 harg8 arg9 harg9 arg10 harg10 arg11 harg11 hc0 hc1 hc2 hc3 x3 x4 x10).1, y ∈ pc.1.set :=
  View.cover_of_tiledL _ S2048x1024.size (by sl_kernel_rfl) y

/-- Case E: what they leave there. -/
theorem canon10_E (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : ¬cond0_2 i) (hc3 : ¬cond0_3 i)
    (x3 : Vec F S2048x512 .bf16) (x4 : Vec F S1024x512 .bf16) (x10 : Vec F S2048x1024 .f32) :
    View.canon (kernelRun0_E c i arg3 harg3 arg4 harg4 arg5 harg5 arg6 harg6 arg7 harg7 arg8 harg8 arg9 harg9 arg10 harg10 arg11 harg11 hc0 hc1 hc2 hc3 x3 x4 x10).1 = k0_pay4 x3 x4 x10 := by
  unfold kernelRun0_E
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

/-- Case G: the pieces found for operand 9 cover it. -/
theorem cover9_G (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : ¬cond0_2 i) (hc3 : cond0_3 i)
    (x3 : Vec F S2048x512 .bf16) (x4 : Vec F S1024x512 .bf16) (x6 : Vec F S128x1024 .bf16) (x7 : Vec F S2048x128 .bf16) (x8 : Vec F S1x1024 .f32) (x10 : Vec F S2048x1024 .f32) (x11 : Vec F S2048x128 .f32) (y : S2048x1024.Idx) :
    ∃ pc ∈ (kernelRun0_G c i arg3 harg3 arg4 harg4 arg5 harg5 arg6 harg6 arg7 harg7 arg8 harg8 arg9 harg9 arg10 harg10 arg11 harg11 hc0 hc1 hc2 hc3 x3 x4 x6 x7 x8 x10 x11).1, y ∈ pc.1.set :=
  View.cover_of_tiledL _ S2048x1024.size (by sl_kernel_rfl) y

/-- Case G: what they leave there. -/
theorem canon9_G (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : ¬cond0_2 i) (hc3 : cond0_3 i)
    (x3 : Vec F S2048x512 .bf16) (x4 : Vec F S1024x512 .bf16) (x6 : Vec F S128x1024 .bf16) (x7 : Vec F S2048x128 .bf16) (x8 : Vec F S1x1024 .f32) (x10 : Vec F S2048x1024 .f32) (x11 : Vec F S2048x128 .f32) :
    View.canon (kernelRun0_G c i arg3 harg3 arg4 harg4 arg5 harg5 arg6 harg6 arg7 harg7 arg8 harg8 arg9 harg9 arg10 harg10 arg11 harg11 hc0 hc1 hc2 hc3 x3 x4 x6 x7 x8 x10 x11).1 = k0_pay6 x11 x7 x6 (k0_pay4 x3 x4 x10) x8 := by
  unfold kernelRun0_G
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

/-- Case G: the pieces found for operand 10 cover it. -/
theorem cover10_G (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : ¬cond0_2 i) (hc3 : cond0_3 i)
    (x3 : Vec F S2048x512 .bf16) (x4 : Vec F S1024x512 .bf16) (x6 : Vec F S128x1024 .bf16) (x7 : Vec F S2048x128 .bf16) (x8 : Vec F S1x1024 .f32) (x10 : Vec F S2048x1024 .f32) (x11 : Vec F S2048x128 .f32) (y : S2048x1024.Idx) :
    ∃ pc ∈ (kernelRun0_G c i arg3 harg3 arg4 harg4 arg5 harg5 arg6 harg6 arg7 harg7 arg8 harg8 arg9 harg9 arg10 harg10 arg11 harg11 hc0 hc1 hc2 hc3 x3 x4 x6 x7 x8 x10 x11).2.1, y ∈ pc.1.set :=
  View.cover_of_tiledL _ S2048x1024.size (by sl_kernel_rfl) y

/-- Case G: what they leave there. -/
theorem canon10_G (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S128x1024 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x128 .f32) (harg11 : arg11.IsWhole) (hc0 : ¬cond0_0 i) (hc1 : ¬cond0_1 i) (hc2 : ¬cond0_2 i) (hc3 : cond0_3 i)
    (x3 : Vec F S2048x512 .bf16) (x4 : Vec F S1024x512 .bf16) (x6 : Vec F S128x1024 .bf16) (x7 : Vec F S2048x128 .bf16) (x8 : Vec F S1x1024 .f32) (x10 : Vec F S2048x1024 .f32) (x11 : Vec F S2048x128 .f32) :
    View.canon (kernelRun0_G c i arg3 harg3 arg4 harg4 arg5 harg5 arg6 harg6 arg7 harg7 arg8 harg8 arg9 harg9 arg10 harg10 arg11 harg11 hc0 hc1 hc2 hc3 x3 x4 x6 x7 x8 x10 x11).2.1 = k0_pay4 x3 x4 x10 := by
  unfold kernelRun0_G
  dsimp only
  sl_unfold_words
  rw [View.canon_cons_unit_zero hz]
  simp only [View.readAt_eq_ld, harg3.read_unread, harg4.read_unread, harg5.read_unread, harg6.read_unread, harg7.read_unread, harg8.read_unread, harg9.read_unread, harg10.read_unread, harg11.read_unread, View.ld_unit_zero (S := S2048x512) hz, View.ld_unit_zero (S := S1024x512) hz, View.ld_unit_zero (S := S128x512) hz, View.ld_unit_zero (S := S128x1024) hz, View.ld_unit_zero (S := S2048x128) hz, View.ld_unit_zero (S := S1x1024) hz, View.ld_unit_zero (S := S2048x1024) hz, View.readCov_unit_zero (S := S2048x1024) _ hz, View.readCov_unit_zero (S := S2048x128) _ hz]
  try rfl

end Cert.KernelIdeal.Body

end
-- ==== Proof.IdealBodyData.lean ====
/-
  The proof data of the fused kernel's region and its body obligation.

  Two accumulators live in the kernel's own scratch and are carried from point to point. After the body at point
  t = 32 i + 8 j + k the dense accumulator holds the products of the blocks k' = 0 … k of row block i and column block j
  (it is reset at k = 0); the projection accumulator is filled during the sweep j = 0 (reset at its first point) and
  then kept, so that from the end of that sweep on it holds row block i projected on all 128 adapter rows. At k = 7 the
  output block is stored from both. The invariant before a point says exactly that of the two scratch buffers.
-/
import proofs.«128954_j15144054685780_2_alg».proof.Proof.IdealBodyPieces

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulators hold after each point -/

/-- The dense accumulator and the projection accumulator after the body at position n. -/
def accAt (c : Dev nD) : (n : ℕ) → n < cfg0.N → Vec F S2048x1024 .f32 × Vec F S2048x128 .f32
  | 0, hn => (k0_pay4 (iblk m c 0 ⟨0, hn⟩) (iblk m c 1 ⟨0, hn⟩) (k0_pay1 (F := F)),
      k0_pay5 (iblk m c 0 ⟨0, hn⟩) (iblk m c 2 ⟨0, hn⟩) (k0_pay2 (F := F)))
  | n + 1, hn =>
    (k0_pay4 (iblk m c 0 ⟨n + 1, hn⟩) (iblk m c 1 ⟨n + 1, hn⟩)
        (if (n + 1) % 8 = 0 then k0_pay1 (F := F) else (accAt c n (Nat.lt_of_succ_lt hn)).1),
      if (n + 1) % 32 < 8 then
        k0_pay5 (iblk m c 0 ⟨n + 1, hn⟩) (iblk m c 2 ⟨n + 1, hn⟩)
          (if (n + 1) % 32 = 0 then k0_pay2 (F := F) else (accAt c n (Nat.lt_of_succ_lt hn)).2)
      else (accAt c n (Nat.lt_of_succ_lt hn)).2)

/-- At k = 0 the dense accumulator restarts from zero. -/
theorem accB_reset (c : Dev nD) (t : Fin cfg0.N) (h : t.val % 8 = 0) :
    (accAt m c t.val t.isLt).1 = k0_pay4 (iblk m c 0 t) (iblk m c 1 t) (k0_pay1 (F := F)) := by
  obtain ⟨n, hn⟩ := t
  cases n with
  | zero => rfl
  | succ n => dsimp only at h; rw [accAt]; dsimp only; rw [if_pos h]

/-- Elsewhere it takes this point's product on top of what the point before left. -/
theorem accB_step (c : Dev nD) (t : Fin cfg0.N) (h : ¬t.val % 8 = 0) :
    (accAt m c t.val t.isLt).1 = k0_pay4 (iblk m c 0 t) (iblk m c 1 t) (accAt m c (t.val - 1) (Nat.lt_of_le_of_lt (Nat.sub_le _ _) t.isLt)).1 := by
  obtain ⟨n, hn⟩ := t
  cases n with
  | zero => exact absurd (Nat.zero_mod _) h
  | succ n => dsimp only at h; rw [accAt]; dsimp only; rw [if_neg h]; rfl

/-- At the first point of a row block's sweep the projection accumulator restarts from zero. -/
theorem accA_reset (c : Dev nD) (t : Fin cfg0.N) (h : t.val % 32 = 0) :
    (accAt m c t.val t.isLt).2 = k0_pay5 (iblk m c 0 t) (iblk m c 2 t) (k0_pay2 (F := F)) := by
  obtain ⟨n, hn⟩ := t
  cases n with
  | zero => rfl
  | succ n => dsimp only at h; rw [accAt]; dsimp only; rw [if_pos (show (n + 1) % 32 < 8 by omega), if_pos h]

/-- During the rest of the sweep j = 0 it takes this point's projection on top of what the point before left. -/
theorem accA_step (c : Dev nD) (t : Fin cfg0.N) (h1 : t.val % 32 < 8) (h2 : ¬t.val % 32 = 0) :
    (accAt m c t.val t.isLt).2 = k0_pay5 (iblk m c 0 t) (iblk m c 2 t) (accAt m c (t.val - 1) (Nat.lt_of_le_of_lt (Nat.sub_le _ _) t.isLt)).2 := by
  obtain ⟨n, hn⟩ := t
  cases n with
  | zero => exact absurd (Nat.zero_mod _) h2
  | succ n => dsimp only at h1 h2; rw [accAt]; dsimp only; rw [if_pos h1, if_neg h2]; rfl

/-- At j > 0 it is kept. -/
theorem accA_keep (c : Dev nD) (t : Fin cfg0.N) (h : ¬t.val % 32 < 8) :
    (accAt m c t.val t.isLt).2 = (accAt m c (t.val - 1) (Nat.lt_of_le_of_lt (Nat.sub_le _ _) t.isLt)).2 := by
  obtain ⟨n, hn⟩ := t
  cases n with
  | zero => exact absurd (show (0 : ℕ) % 32 < 8 by decide) h
  | succ n => dsimp only at h; rw [accAt]; dsimp only; rw [if_neg h]; rfl

/-- What the body stores into the output block at a point with k = 7: from the two accumulators as they are after
    this point's products, the routing mask block, the block of the second adapter matrix and the bias block. -/
def outAt (c : Dev nD) (t : Fin cfg0.N) : Vec F S2048x1024 .f32 :=
  k0_pay6 (accAt m c t.val t.isLt).2 (iblk m c 4 t) (iblk m c 3 t) (accAt m c t.val t.isLt).1 (iblk m c 5 t)

/-! ## The invariant -/

/-- Before position n: at the first point the scratch buffers hold anything; afterwards the two accumulators hold
    what the point before left; the generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((accAt m c n hn).1) ∗ owns (c : Thread nD τ) scM0_1 fullShare ((accAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((accAt m c n hn).1) ∗ owns (c : Thread nD τ) scM0_1 fullShare ((accAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((accAt m c (n - 1) (by omega)).1) ∗ owns (c : Thread nD τ) scM0_1 fullShare ((accAt m c (n - 1) (by omega)).2)) ∗ (∃ r, prngReg c r)) := by
  cases n with
  | zero => exact absurd rfl hz
  | succ n => rfl

/-! ## The proof data -/

/-- The arrays as the region finds them; after the body each input's buffer at its block and the output's at the
    stored block; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the point number says which of the six assignments of the branch conditions holds; in
    each the run applies, the invariant hands it the accumulators at what the point before left (anything at the
    very first point) and takes them back at this point's contents, and the output block is the stored one at
    k = 7 and untouched elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN : t.val < 128 := lt_of_lt_of_eq t.isLt (show cfg0.N = 128 from N_0)
  by_cases h0 : t.val % 8 = 0
  · have h3 : ¬t.val % 8 = 7 := by omega
    by_cases h2 : t.val % 32 < 8
    · have h1 : t.val % 32 = 0 := by omega
      have hc0 : cond0_0 (grid0.coords t) := (hcond0_0 t).mpr h0
      have hc1 : cond0_1 (grid0.coords t) := (hcond0_1 t).mpr h1
      have hc2 : cond0_2 (grid0.coords t) := (hcond0_2 t).mpr h2
      have hc3 : ¬cond0_3 (grid0.coords t) := fun h => h3 ((hcond0_3 t).mp h)
      by_cases hz : t.val = 0
      · rw [Dat.leavesExact_idle (dats m 0 c) 6 t (idleAt0_6 t hc3) (noFlush0_6 t hc3)]
        rw [accB_reset m c t h0, accA_reset m c t h1]
        rw [PhiS_castSucc m c t, PhiS_zero m c _ _ hz, PhiA0_eq]
        iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ hc0 hc1 hc2 hc3 (iblk m c 0 t) (iblk m c 1 t) (iblk m c 2 t)).2.2 Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%w10, HS0⟩, ⟨%w11, HS1⟩⟩
        isplitl [HS0 HS1 Hg]
        · isplitl [HS0 HS1]
          · isplitl [HS0]
            · unfold owns; iexists _; isplitr
              swap; · iexact HS0
              ipureintro; exact (View.read_writes_eq_canon _ _ _ (cover10_A c _ _ _ _ _ _ _ _ _ _ _ _ _ _ _ _ _ _ _ hc0 hc1 hc2 hc3 _ _ _)).trans (canon10_A c _ _ _ _ _ _ _ _ _ _ _ _ _ _ _ _ _ _ _ hc0 hc1 hc2 hc3 _ _ _)
            unfold owns; iexists _; isplitr
            swap; · iexact HS1
            ipureintro; exact (View.read_writes_eq_canon _ _ _ (cover11_A c _ _ _ _ _ _ _ _ _ _ _ _ _ _ _ _ _ _ _ hc0 hc1 hc2 hc3 _ _ _)).trans (canon11_A c _ _ _ _ _ _ _ _ _ _ _ _ _ _ _ _ _ _ _ hc0 hc1 hc2 hc3 _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [Dat.leavesExact_idle (dats m 0 c) 6 t (idleAt0_6 t hc3) (noFlush0_6 t hc3)]
        rw [accB_reset m c t h0, accA_reset m c t h1]
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ hc0 hc1 hc2 hc3 (iblk m c 0 t) (iblk m c 1 t) (iblk m c 2 t)).2.2 Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%w10, HS0⟩, ⟨%w11, HS1⟩⟩
        isplitl [HS0 HS1 Hg]
        · isplitl [HS0 HS1]
          · isplitl [HS0]
            · unfold owns; iexists _; isplitr
              swap; · iexact HS0
              ipureintro; exact (View.read_writes_eq_canon _ _ _ (cover10_A c _ _ _ _ _ _ _ _ _ _ _ _ _ _ _ _ _ _ _ hc0 hc1 hc2 hc3 _ _ _)).trans (canon10_A c _ _ _ _ _ _ _ _ _ _ _ _ _ _ _ _ _ _ _ hc0 hc1 hc2 hc3 _ _ _)
            unfold owns; iexists _; isplitr
            swap; · iexact HS1
            ipureintro; exact (View.read_writes_eq_canon _ _ _ (cover11_A c _ _ _ _ _ _ _ _ _ _ _ _ _ _ _ _ _ _ _ hc0 hc1 hc2 hc3 _ _ _)).trans (canon11_A c _ _ _ _ _ _ _ _ _ _ _ _ _ _ _ _ _ _ _ hc0 hc1 hc2 hc3 _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · have h1 : ¬t.val % 32 = 0 := by omega
      have hz : t.val ≠ 0 := by omega
      have hc0 : cond0_0 (grid0.coords t) := (hcond0_0 t).mpr h0
      have hc1 : ¬cond0_1 (grid0.coords t) := fun h => h1 ((hcond0_1 t).mp h)
      have hc2 : ¬cond0_2 (grid0.coords t) := fun h => h2 ((hcond0_2 t).mp h)
      have hc3 : ¬cond0_3 (grid0.coords t) := fun h => h3 ((hcond0_3 t).mp h)
      rw [Dat.leavesExact_idle (dats m 0 c) 6 t (idleAt0_6 t hc3) (noFlush0_6 t hc3)]
      rw [accB_reset m c t h0, accA_keep m c t h2]
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_D c (grid0.coords t) _ _ _ _ _ _ _ _ _ _ _ _ _ _ _ _ _ _ hc0 hc1 hc2 hc3 (iblk m c 0 t) (iblk m c 1 t)).2 Set.univ _)
      isplitl [H0]; · iexact H0
      isplitl [H1]; · iexact H1
      isplitl [HS0]; · iexists _; iexact HS0
      iintro ⟨H0, H1, ⟨%w10, HS0⟩⟩
      isplitl [HS0 HS1 Hg]
      · isplitl [HS0 HS1]
        · isplitl [HS0]
          · unfold owns; iexists _; isplitr
            swap; · iexact HS0
            ipureintro; exact (View.read_writes_eq_canon _ _ _ (cover10_D c _ _ _ _ _ _ _ _ _ _ _ _ _ _ _ _ _ _ _ hc0 hc1 hc2 hc3 _ _)).trans (canon10_D c _ _ _ _ _ _ _ _ _ _ _ _ _ _ _ _ _ _ _ hc0 hc1 hc2 hc3 _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    have h1 : ¬t.val % 32 = 0 := by omega
    by_cases h3 : t.val % 8 = 7
    · by_cases h2 : t.val % 32 < 8
      · have hc0 : ¬cond0_0 (grid0.coords t) := fun h => h0 ((hcond0_0 t).mp h)
        have hc1 : ¬cond0_1 (grid0.coords t) := fun h => h1 ((hcond0_1 t).mp h)
        have hc2 : cond0_2 (grid0.coords t) := (hcond0_2 t).mpr h2
        have hc3 : cond0_3 (grid0.coords t) := (hcond0_3 t).mpr h3
        rw [show (dats m 0 c).leavesExact 6 t = owns (c : Thread nD τ) (ms0_6 t) fullShare ((dats m 0 c).after 6 t) from by
          unfold Dat.leavesExact; rw [liveAt0_6 t hc3], after0_6]
        unfold outAt
        rw [accB_step m c t h0, accA_step m c t h2 h1]
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ hc0 hc1 hc2 hc3 (iblk m c 0 t) (iblk m c 1 t) (iblk m c 2 t) (iblk m c 3 t) (iblk m c 4 t) (iblk m c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, ⟨%w9, H6⟩, ⟨%w10, HS0⟩, ⟨%w11, HS1⟩⟩
        isplitl [HS0 HS1 Hg]
        · isplitl [HS0 HS1]
          · isplitl [HS0]
            · unfold owns; iexists _; isplitr
              swap; · iexact HS0
              ipureintro; exact (View.read_writes_eq_canon _ _ _ (cover10_C c _ _ _ _ _ _ _ _ _ _ _ _ _ _ _ _ _ _ _ hc0 hc1 hc2 hc3 _ _ _ _ _ _ _ _)).trans (canon10_C c _ _ _ _ _ _ _ _ _ _ _ _ _ _ _ _ _ _ _ hc0 hc1 hc2 hc3 _ _ _ _ _ _ _ _)
            unfold owns; iexists _; isplitr
            swap; · iexact HS1
            ipureintro; exact (View.read_writes_eq_canon _ _ _ (cover11_C c _ _ _ _ _ _ _ _ _ _ _ _ _ _ _ _ _ _ _ hc0 hc1 hc2 hc3 _ _ _ _ _ _ _ _)).trans (canon11_C c _ _ _ _ _ _ _ _ _ _ _ _ _ _ _ _ _ _ _ hc0 hc1 hc2 hc3 _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact (View.read_writes_eq_canon _ _ _ (cover9_C c _ _ _ _ _ _ _ _ _ _ _ _ _ _ _ _ _ _ _ hc0 hc1 hc2 hc3 _ _ _ _ _ _ _ _)).trans (canon9_C c _ _ _ _ _ _ _ _ _ _ _ _ _ _ _ _ _ _ _ hc0 hc1 hc2 hc3 _ _ _ _ _ _ _ _)
      · have hc0 : ¬cond0_0 (grid0.coords t) := fun h => h0 ((hcond0_0 t).mp h)
        have hc1 : ¬cond0_1 (grid0.coords t) := fun h => h1 ((hcond0_1 t).mp h)
        have hc2 : ¬cond0_2 (grid0.coords t) := fun h => h2 ((hcond0_2 t).mp h)
        have hc3 : cond0_3 (grid0.coords t) := (hcond0_3 t).mpr h3
        rw [show (dats m 0 c).leavesExact 6 t = owns (c : Thread nD τ) (ms0_6 t) fullShare ((dats m 0 c).after 6 t) from by
          unfold Dat.leavesExact; rw [liveAt0_6 t hc3], after0_6]
        unfold outAt
        rw [accB_step m c t h0, accA_keep m c t h2]
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_G c (grid0.coords t) _ _ _ _ _ _ _ _ _ _ _ _ _ _ _ _ _ _ hc0 hc1 hc2 hc3 (iblk m c 0 t) (iblk m c 1 t) (iblk m c 3 t) (iblk m c 4 t) (iblk m c 5 t) _ _).2.2 Set.univ _)
        isplitl [H0]; · iexact H0
        isplitl [H1]; · iexact H1
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H3, H4, H5, ⟨%w9, H6⟩, ⟨%w10, HS0⟩, HS1⟩
        isplitl [HS0 HS1 Hg]
        · isplitl [HS0 HS1]
          · isplitl [HS0]
            · unfold owns; iexists _; isplitr
              swap; · iexact HS0
              ipureintro; exact (View.read_writes_eq_canon _ _ _ (cover10_G c _ _ _ _ _ _ _ _ _ _ _ _ _ _ _ _ _ _ _ hc0 hc1 hc2 hc3 _ _ _ _ _ _ _)).trans (canon10_G c _ _ _ _ _ _ _ _ _ _ _ _ _ _ _ _ _ _ _ hc0 hc1 hc2 hc3 _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact (View.read_writes_eq_canon _ _ _ (cover9_G c _ _ _ _ _ _ _ _ _ _ _ _ _ _ _ _ _ _ _ hc0 hc1 hc2 hc3 _ _ _ _ _ _ _)).trans (canon9_G c _ _ _ _ _ _ _ _ _ _ _ _ _ _ _ _ _ _ _ hc0 hc1 hc2 hc3 _ _ _ _ _ _ _)
    · by_cases h2 : t.val % 32 < 8
      · have hc0 : ¬cond0_0 (grid0.coords t) := fun h => h0 ((hcond0_0 t).mp h)
        have hc1 : ¬cond0_1 (grid0.coords t) := fun h => h1 ((hcond0_1 t).mp h)
        have hc2 : cond0_2 (grid0.coords t) := (hcond0_2 t).mpr h2
        have hc3 : ¬cond0_3 (grid0.coords t) := fun h => h3 ((hcond0_3 t).mp h)
        rw [Dat.leavesExact_idle (dats m 0 c) 6 t (idleAt0_6 t hc3) (noFlush0_6 t hc3)]
        rw [accB_step m c t h0, accA_step m c t h2 h1]
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ hc0 hc1 hc2 hc3 (iblk m c 0 t) (iblk m c 1 t) (iblk m c 2 t) _ _).2.2 Set.univ _)
        isplitl [H0]; · iexact H0
        isplitl [H1]; · iexact H1
        isplitl [H2]; · iexact H2
        isplitl [HS0]; · iexact HS0
        isplitl [HS1]; · iexact HS1
        iintro ⟨H0, H1, H2, ⟨%w10, HS0⟩, ⟨%w11, HS1⟩⟩
        isplitl [HS0 HS1 Hg]
        · isplitl [HS0 HS1]
          · isplitl [HS0]
            · unfold owns; iexists _; isplitr
              swap; · iexact HS0
              ipureintro; exact (View.read_writes_eq_canon _ _ _ (cover10_B c _ _ _ _ _ _ _ _ _ _ _ _ _ _ _ _ _ _ _ hc0 hc1 hc2 hc3 _ _ _ _ _)).trans (canon10_B c _ _ _ _ _ _ _ _ _ _ _ _ _ _ _ _ _ _ _ hc0 hc1 hc2 hc3 _ _ _ _ _)
            unfold owns; iexists _; isplitr
            swap; · iexact HS1
            ipureintro; exact (View.read_writes_eq_canon _ _ _ (cover11_B c _ _ _ _ _ _ _ _ _ _ _ _ _ _ _ _ _ _ _ hc0 hc1 hc2 hc3 _ _ _ _ _)).trans (canon11_B c _ _ _ _ _ _ _ _ _ _ _ _ _ _ _ _ _ _ _ hc0 hc1 hc2 hc3 _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · have hc0 : ¬cond0_0 (grid0.coords t) := fun h => h0 ((hcond0_0 t).mp h)
        have hc1 : ¬cond0_1 (grid0.coords t) := fun h => h1 ((hcond0_1 t).mp h)
        have hc2 : ¬cond0_2 (grid0.coords t) := fun h => h2 ((hcond0_2 t).mp h)
        have hc3 : ¬cond0_3 (grid0.coords t) := fun h => h3 ((hcond0_3 t).mp h)
        rw [Dat.leavesExact_idle (dats m 0 c) 6 t (idleAt0_6 t hc3) (noFlush0_6 t hc3)]
        rw [accB_step m c t h0, accA_keep m c t h2]
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_E c (grid0.coords t) _ _ _ _ _ _ _ _ _ _ _ _ _ _ _ _ _ _ hc0 hc1 hc2 hc3 (iblk m c 0 t) (iblk m c 1 t) _).2 Set.univ _)
        isplitl [H0]; · iexact H0
        isplitl [H1]; · iexact H1
        isplitl [HS0]; · iexact HS0
        iintro ⟨H0, H1, ⟨%w10, HS0⟩⟩
        isplitl [HS0 HS1 Hg]
        · isplitl [HS0 HS1]
          · isplitl [HS0]
            · unfold owns; iexists _; isplitr
              swap; · iexact HS0
              ipureintro; exact (View.read_writes_eq_canon _ _ _ (cover10_E c _ _ _ _ _ _ _ _ _ _ _ _ _ _ _ _ _ _ _ hc0 hc1 hc2 hc3 _ _ _)).trans (canon10_E c _ _ _ _ _ _ _ _ _ _ _ _ _ _ _ _ _ _ _ hc0 hc1 hc2 hc3 _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end without a fault and leaves its six argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.Spec.lean ====
/-
  The function both programs compute, in the two arrangements they compute it in.

  For token `s` and output column `o` the result is
      (∑ d, x[s,d] · w[o,d]  +  bias[o])  +  2 · lora[s,o],
  where the low-rank term routes each token to one of eight adapters by its index word:
      lora[s,o] = ∑ l, ∑ r, (∑ d, x[s,d] · A[l,r,d]) · [idx[s] = l] · B[0,l,o,r].
  One arrangement (`viaMaskedTokens`) zeroes the token's row before projecting it on adapter `l` and adds the eight
  adapters' contributions one after the other; the other (`viaMergedAdapters`) projects every token on all
  8 · 16 = 128 adapter rows at once, zeroes the 112 rows of the adapters the token is not routed to, and contracts the
  merged axis in one product. Both are stated over the extended reals; nothing here is proved.
-/
import Idealize.ShloMosaic.PureOps.Ideal
import Idealize.ShloMosaic.Lib.ValueIdx

noncomputable section

open scoped BigOperators

namespace Cert.Lora

open Idealize.ShloMosaic Idealize.ShloMosaic.ValueIdx

abbrev SX : Shape := ⟨2, ![8192, 4096]⟩
abbrev SW : Shape := ⟨2, ![4096, 4096]⟩
abbrev SBias : Shape := ⟨1, ![4096]⟩
abbrev SA : Shape := ⟨3, ![8, 16, 4096]⟩
abbrev SB : Shape := ⟨4, ![1, 8, 4096, 16]⟩
abbrev SI : Shape := ⟨1, ![8192]⟩

/-- The scale of the low-rank term, the float word of 2. -/
def two : EReal := Ideal.ofBits .f32 0x40000000#32

/-- The routing bit of token `s` for adapter `l` as an extended real: 1 when the token's index word is `l`, else 0. -/
def route (idx : IVec SI 32) (s : Fin 8192) (l : Fin 8) : EReal :=
  (((IntOp.cmpi .eq (idx (ix1 s)) (BitVec.ofNat 32 l.val)).toNat : ℝ) : EReal)

/-- The dense part: row `s` of `x` against row `o` of `w`. -/
def base (x : SX.Idx → EReal) (w : SW.Idx → EReal) (s : Fin 8192) (o : Fin 4096) : EReal :=
  ∑ d : Fin 4096, x (ix2 s d) * w (ix2 o d)

/-- Token `s` projected on row `r` of adapter `l`. -/
def proj (x : SX.Idx → EReal) (a : SA.Idx → EReal) (s : Fin 8192) (l : Fin 8) (r : Fin 16) : EReal :=
  ∑ d : Fin 4096, x (ix2 s d) * a (ix3 l r d)

/-- The same projection of the token's row after it was multiplied by its routing bit for adapter `l`. -/
def projMasked (x : SX.Idx → EReal) (a : SA.Idx → EReal) (idx : IVec SI 32) (s : Fin 8192) (l : Fin 8) (r : Fin 16) : EReal :=
  ∑ d : Fin 4096, (x (ix2 s d) * route idx s l) * a (ix3 l r d)

/-- Adapter `l`'s contribution to entry `(s, o)`, from the masked projection. -/
def adapterTerm (x : SX.Idx → EReal) (a : SA.Idx → EReal) (b : SB.Idx → EReal) (idx : IVec SI 32) (l : Fin 8)
    (s : Fin 8192) (o : Fin 4096) : EReal :=
  ∑ r : Fin 16, projMasked x a idx s l r * b (ix4 (0 : Fin 1) l o r)

/-- The result, the token's row masked per adapter and the eight adapters added up. -/
def viaMaskedTokens (x : SX.Idx → EReal) (w : SW.Idx → EReal) (bias : SBias.Idx → EReal) (a : SA.Idx → EReal)
    (b : SB.Idx → EReal) (idx : IVec SI 32) : SX.Idx → EReal := fun i =>
  (base x w (i 0) (i 1) + bias (ix1 (i 1))) + two * ∑ l : Fin 8, adapterTerm x a b idx l (i 0) (i 1)

/-- Row `c` of the merged 128-row adapter axis belongs to adapter `c / 16` … -/
def adapterOf (c : Fin 128) : Fin 8 := ⟨c.val / 16, by omega⟩
/-- … and is its row `c % 16`. -/
def rowOf (c : Fin 128) : Fin 16 := ⟨c.val % 16, by omega⟩

/-- The result, all 128 adapter rows projected at once, the rows of the other adapters zeroed, one contraction. -/
def viaMergedAdapters (x : SX.Idx → EReal) (w : SW.Idx → EReal) (bias : SBias.Idx → EReal) (a : SA.Idx → EReal)
    (b : SB.Idx → EReal) (idx : IVec SI 32) : SX.Idx → EReal := fun i =>
  (base x w (i 0) (i 1) + bias (ix1 (i 1)))
    + two * ∑ c : Fin 128, (proj x a (i 0) (adapterOf c) (rowOf c) * route idx (i 0) (adapterOf c))
        * b (ix4 (0 : Fin 1) (adapterOf c) (i 1) (rowOf c))

end Cert.Lora

end
-- ==== Proof.Tiles.lean ====
/-
  The tiling of the fused kernel, and the function it computes over the arrays it stages.

  Rows are cut into 4 blocks of 2048, output columns into 4 blocks of 1024, the contracted axis into 8 blocks of 512;
  grid point number n (below 128) is row block n / 32, column block (n / 8) % 4, depth block n % 8. The staged arrays
  are the tokens X [8192, 4096], the weight W [4096, 4096], the bias as a row C [1, 4096], the merged first adapter
  matrix A [128, 4096], the merged second adapter matrix B [128, 4096] and the routing mask M [8192, 128].
-/
import proofs.«128954_j15144054685780_2_alg».proof.Proof.Spec

noncomputable section

open scoped BigOperators

namespace Cert.Lora

open Idealize.ShloMosaic Idealize.ShloMosaic.ValueIdx

/-- Row r of row block i. -/
def rowIx (i : Fin 4) (r : Fin 2048) : Fin 8192 := ⟨2048 * i.val + r.val, by omega⟩
/-- Column cc of column block j. -/
def colIx (j : Fin 4) (cc : Fin 1024) : Fin 4096 := ⟨1024 * j.val + cc.val, by omega⟩
/-- Position d of depth block k. -/
def depIx (k : Fin 8) (d : Fin 512) : Fin 4096 := ⟨512 * k.val + d.val, by omega⟩

/-- The row block, column block and depth block of grid point n. -/
def pI (n : ℕ) (h : n < 128) : Fin 4 := ⟨n / 32, by omega⟩
def pJ (n : ℕ) (h : n < 128) : Fin 4 := ⟨(n / 8) % 4, by omega⟩
def pK (n : ℕ) (h : n < 128) : Fin 8 := ⟨n % 8, by omega⟩

abbrev SM : Shape := ⟨2, ![8192, 128]⟩
abbrev SRow : Shape := ⟨2, ![1, 4096]⟩
abbrev SAd : Shape := ⟨2, ![128, 4096]⟩

/-- What the kernel leaves at entry (s, o) of its result, over the arrays it stages: the dense product plus the bias,
    plus twice the contraction over the 128 merged adapter rows of the masked projection against the second matrix. -/
def overStaged (X : SX.Idx → EReal) (W : SW.Idx → EReal) (C : SRow.Idx → EReal) (A : SAd.Idx → EReal)
    (B : SAd.Idx → EReal) (M : SM.Idx → EReal) : SX.Idx → EReal := fun i =>
  ((∑ d : Fin 4096, X (ix2 (i 0) d) * W (ix2 (i 1) d)) + C (ix2 (0 : Fin 1) (i 1)))
    + two * ∑ c : Fin 128, ((∑ d : Fin 4096, X (ix2 (i 0) d) * A (ix2 c d)) * M (ix2 (i 0) c)) * B (ix2 c (i 1))

end Cert.Lora

end
-- ==== Proof.IdealBlocks.lean ====
/-
  The blocks the region stages, as entries of the arrays they are cut from.

  The grid has 4 · 4 · 8 = 128 points, the depth axis innermost: point number t works on row block t / 32, column
  block (t / 8) % 4 and depth block t % 8. Rows are cut in blocks of 2048, output columns in blocks of 1024, the
  contracted axis in blocks of 512; the 128 merged adapter rows and the one bias row are never cut. An element of a
  block sits in its array, on each axis, at block index · block size + its coordinate inside the block. The block
  indices are decided once over the 128 points; each block read is then arithmetic on the coordinates. The output
  blocks are written back at the last depth step (t % 8 = 7) of every row block and column block, and these 16
  blocks of 2048 × 1024 fill the 8192 × 4096 result.
-/
import proofs.«128954_j15144054685780_2_alg».proof.Proof.Spec
import proofs.«128954_j15144054685780_2_alg».proof.Proof.Tiles
import proofs.«128954_j15144054685780_2_alg».proof.Proof.Gen.KernelIdeal.Frame
import Idealize.ShloMosaic.Lib.ValueIdx
import Idealize.ShloMosaic.Lib.Pipeline.Value

noncomputable section

namespace Cert.KernelIdeal.Blocks

open Idealize.ShloMosaic Idealize.ShloMosaic.TcCoe Idealize.ShloMosaic.ValueIdx
open Cert.KernelIdeal Cert.KernelIdeal.Gen Cert.Lora

/-- A grid point's number is below 4 · 4 · 8 = 128. -/
theorem tN (t : Fin cfg0.N) : t.val < 128 := lt_of_lt_of_eq t.isLt N_0

/-- The block index of every window at grid point number `t`: rows move with `t / 32`, output columns with
    `(t / 8) % 4`, the contracted axis with `t % 8`; an axis a window does not cut stays at block 0. -/
theorem idx_facts : ∀ t : Fin cfg0.N,
    win0_0.index t (0 : Fin 2) = t.val / 32 ∧ win0_0.index t (1 : Fin 2) = t.val % 8
    ∧ win0_1.index t (0 : Fin 2) = (t.val / 8) % 4 ∧ win0_1.index t (1 : Fin 2) = t.val % 8
    ∧ win0_2.index t (0 : Fin 2) = 0 ∧ win0_2.index t (1 : Fin 2) = t.val % 8
    ∧ win0_3.index t (0 : Fin 2) = 0 ∧ win0_3.index t (1 : Fin 2) = (t.val / 8) % 4
    ∧ win0_4.index t (0 : Fin 2) = t.val / 32 ∧ win0_4.index t (1 : Fin 2) = 0
    ∧ win0_5.index t (0 : Fin 2) = 0 ∧ win0_5.index t (1 : Fin 2) = (t.val / 8) % 4
    ∧ win0_6.index t (0 : Fin 2) = t.val / 32 ∧ win0_6.index t (1 : Fin 2) = (t.val / 8) % 4 :=
  (by decide +kernel : ∀ t : Fin grid0.N, _)

variable (m : (ℓ : Loc nD τ sig) → Buf (Elt Ideal) ℓ) (c : Dev nD)

/-! ## The input blocks at a grid point -/

/-- Element `(r, d)` of the activations' block at grid point `t` is entry `(2048 · (t / 32) + r, 512 · (t % 8) + d)` of the
    staged activations. -/
theorem blk_x (t : Fin cfg0.N) (r : Fin 2048) (d : Fin 512) :
    iblk m c 0 t (ix2 r d)
      = (V m c main_v8 : S8192x4096.Idx → EReal) (ix2 (rowIx (pI t.val (tN t)) r) (depIx (pK t.val (tN t)) d)) := by
  obtain ⟨e0, e1, -⟩ := idx_facts t
  show (V m c main_v8 : S8192x4096.Idx → EReal) (((cfg0.win 0).blk t).view.emb (ix2 r d)) = _
  refine congrArg _ (funext fun a => Fin.ext ?_)
  match a with
  | ⟨0, _⟩ => show win0_0.index t (0 : Fin 2) * 2048 + 1 * r.val = 2048 * (t.val / 32) + r.val; omega
  | ⟨1, _⟩ => show win0_0.index t (1 : Fin 2) * 512 + 1 * d.val = 512 * (t.val % 8) + d.val; omega

/-- Element `(cc, d)` of the weight's block is entry `(1024 · ((t / 8) % 4) + cc, 512 · (t % 8) + d)` of the staged weight. -/
theorem blk_w (t : Fin cfg0.N) (cc : Fin 1024) (d : Fin 512) :
    iblk m c 1 t (ix2 cc d)
      = (V m c main_v9 : S4096x4096.Idx → EReal) (ix2 (colIx (pJ t.val (tN t)) cc) (depIx (pK t.val (tN t)) d)) := by
  obtain ⟨-, -, e0, e1, -⟩ := idx_facts t
  show (V m c main_v9 : S4096x4096.Idx → EReal) (((cfg0.win 1).blk t).view.emb (ix2 cc d)) = _
  refine congrArg _ (funext fun a => Fin.ext ?_)
  match a with
  | ⟨0, _⟩ => show win0_1.index t (0 : Fin 2) * 1024 + 1 * cc.val = 1024 * ((t.val / 8) % 4) + cc.val; omega
  | ⟨1, _⟩ => show win0_1.index t (1 : Fin 2) * 512 + 1 * d.val = 512 * (t.val % 8) + d.val; omega

/-- Element `(c', d)` of the first adapter matrix's block is entry `(c', 512 · (t % 8) + d)`: all 128 merged rows, one depth
    block. -/
theorem blk_a (t : Fin cfg0.N) (c' : Fin 128) (d : Fin 512) :
    iblk m c 2 t (ix2 c' d)
      = (V m c main_v10 : S128x4096.Idx → EReal) (ix2 c' (depIx (pK t.val (tN t)) d)) := by
  obtain ⟨-, -, -, -, e0, e1, -⟩ := idx_facts t
  show (V m c main_v10 : S128x4096.Idx → EReal) (((cfg0.win 2).blk t).view.emb (ix2 c' d)) = _
  refine congrArg _ (funext fun a => Fin.ext ?_)
  match a with
  | ⟨0, _⟩ => show win0_2.index t (0 : Fin 2) * 128 + 1 * c'.val = c'.val; omega
  | ⟨1, _⟩ => show win0_2.index t (1 : Fin 2) * 512 + 1 * d.val = 512 * (t.val % 8) + d.val; omega

/-- Element `(c', cc)` of the second adapter matrix's block is entry `(c', 1024 · ((t / 8) % 4) + cc)`: all 128 merged rows,
    one column block. -/
theorem blk_b (t : Fin cfg0.N) (c' : Fin 128) (cc : Fin 1024) :
    iblk m c 3 t (ix2 c' cc)
      = (V m c main_v11 : S128x4096.Idx → EReal) (ix2 c' (colIx (pJ t.val (tN t)) cc)) := by
  obtain ⟨-, -, -, -, -, -, e0, e1, -⟩ := idx_facts t
  show (V m c main_v11 : S128x4096.Idx → EReal) (((cfg0.win 3).blk t).view.emb (ix2 c' cc)) = _
  refine congrArg _ (funext fun a => Fin.ext ?_)
  match a with
  | ⟨0, _⟩ => show win0_3.index t (0 : Fin 2) * 128 + 1 * c'.val = c'.val; omega
  | ⟨1, _⟩ => show win0_3.index t (1 : Fin 2) * 1024 + 1 * cc.val = 1024 * ((t.val / 8) % 4) + cc.val; omega

/-- Element `(r, c')` of the routing mask's block is entry `(2048 · (t / 32) + r, c')`: one row block, all 128 columns. -/
theorem blk_m (t : Fin cfg0.N) (r : Fin 2048) (c' : Fin 128) :
    iblk m c 4 t (ix2 r c')
      = (V m c main_v7 : S8192x128.Idx → EReal) (ix2 (rowIx (pI t.val (tN t)) r) c') := by
  obtain ⟨-, -, -, -, -, -, -, -, e0, e1, -⟩ := idx_facts t
  show (V m c main_v7 : S8192x128.Idx → EReal) (((cfg0.win 4).blk t).view.emb (ix2 r c')) = _
  refine congrArg _ (funext fun a => Fin.ext ?_)
  match a with
  | ⟨0, _⟩ => show win0_4.index t (0 : Fin 2) * 2048 + 1 * r.val = 2048 * (t.val / 32) + r.val; omega
  | ⟨1, _⟩ => show win0_4.index t (1 : Fin 2) * 128 + 1 * c'.val = c'.val; omega

/-- Element `cc` of the bias row's block is entry `1024 · ((t / 8) % 4) + cc` of the bias row. -/
theorem blk_c (t : Fin cfg0.N) (cc : Fin 1024) :
    iblk m c 5 t (ix2 (0 : Fin 1) cc)
      = (V m c main_v4 : S1x4096.Idx → EReal) (ix2 (0 : Fin 1) (colIx (pJ t.val (tN t)) cc)) := by
  obtain ⟨-, -, -, -, -, -, -, -, -, -, e0, e1, -⟩ := idx_facts t
  show (V m c main_v4 : S1x4096.Idx → EReal) (((cfg0.win 5).blk t).view.emb (ix2 (0 : Fin 1) cc)) = _
  refine congrArg _ (funext fun a => Fin.ext ?_)
  match a with
  | ⟨0, _⟩ => show win0_5.index t (0 : Fin 2) * 1 + 1 * 0 = 0; omega
  | ⟨1, _⟩ => show win0_5.index t (1 : Fin 2) * 1024 + 1 * cc.val = 1024 * ((t.val / 8) % 4) + cc.val; omega

/-! ## The output window: where its blocks sit, and that they fill the array -/

/-- Element `(r, cc)` of the output block at grid point `t` is entry `(2048 · (t / 32) + r, 1024 · ((t / 8) % 4) + cc)` of
    the result array. -/
theorem out_emb (t : Fin cfg0.N) (r : Fin 2048) (cc : Fin 1024) :
    ((cfg0.win 6).blk t).view.emb (ix2 r cc)
      = (ix2 (rowIx (pI t.val (tN t)) r) (colIx (pJ t.val (tN t)) cc) : S8192x4096.Idx) := by
  obtain ⟨-, -, -, -, -, -, -, -, -, -, -, -, e0, e1⟩ := idx_facts t
  refine funext fun a => Fin.ext ?_
  match a with
  | ⟨0, _⟩ => show win0_6.index t (0 : Fin 2) * 2048 + 1 * r.val = 2048 * (t.val / 32) + r.val; omega
  | ⟨1, _⟩ => show win0_6.index t (1 : Fin 2) * 1024 + 1 * cc.val = 1024 * ((t.val / 8) % 4) + cc.val; omega

/-- An entry of the result array lies in the output block of grid point `t` exactly when each coordinate lies in the
    block's range on its axis. -/
theorem mem_out (t : Fin cfg0.N) (i : S8192x4096.Idx) :
    i ∈ ((cfg0.win 6).blk t).view.set
      ↔ ∀ a : Fin 2, win0_6.index t a * S2048x1024.size a ≤ (i a).val
          ∧ (i a).val < win0_6.index t a * S2048x1024.size a + S2048x1024.size a := by
  show i ∈ ((View.whole main_v12).slice (win0_6.rect t)).set ↔ _
  rw [View.set_slice_whole, Rect.mem_set_unit]
  exact Iff.rfl

/-- Entry `(s, o)` of the result array is written back by grid point `32 · (s / 2048) + 8 · (o / 1024) + 7`, the last
    depth step of its row block and column block. -/
theorem out_cover_at (i : S8192x4096.Idx) :
    ∃ t : Fin cfg0.N, (cfg0.win 6).flush t = true ∧ i ∈ ((cfg0.win 6).blk t).view.set := by
  have h0 : (i 0).val < 8192 := (i 0).isLt
  have h1 : (i 1).val < 4096 := (i 1).isLt
  have hN : cfg0.N = 128 := N_0
  obtain ⟨t, ht⟩ : ∃ t : Fin cfg0.N, t.val = 32 * ((i 0).val / 2048) + 8 * ((i 1).val / 1024) + 7 :=
    ⟨⟨32 * ((i 0).val / 2048) + 8 * ((i 1).val / 1024) + 7, by rw [hN]; omega⟩, rfl⟩
  obtain ⟨-, -, -, -, -, -, -, -, -, -, -, -, e0, e1⟩ := idx_facts t
  refine ⟨t, (flush0_6 t).mpr (by omega), ?_⟩
  rw [mem_out]
  intro a
  match a with
  | ⟨0, _⟩ =>
    show win0_6.index t (0 : Fin 2) * 2048 ≤ (i 0).val ∧ (i 0).val < win0_6.index t (0 : Fin 2) * 2048 + 2048
    omega
  | ⟨1, _⟩ =>
    show win0_6.index t (1 : Fin 2) * 1024 ≤ (i 1).val ∧ (i 1).val < win0_6.index t (1 : Fin 2) * 1024 + 1024
    omega

/-- The output blocks of the points that write back fill the result array. -/
theorem out_cover : ∀ i : ((cfg0.win 6).arr.view.loc (c.tc : Thread nD τ)).2.ty.Idx,
    ∃ t : Fin cfg0.N, (cfg0.win 6).flush t = true ∧ i ∈ ((cfg0.win 6).blk t).view.set :=
  fun i => out_cover_at i

end Cert.KernelIdeal.Blocks

end
-- ==== Proof.LibTransposedDot.lean ====
/-
  A matrix product whose right operand is contracted on its last axis, read at an index, at the ideal instance.

  For the dimension numbers of an `M × K` by `N × K` product (rows against rows: both operands contracted on their
  second axis) a kernel's matrix product into a zero accumulator is, at the output index `(r, c)`, the sum over
  `k : Fin K` of `lhs (r, k) * rhs (c, k)`. Imports only the library.
-/
import Idealize.ShloMosaic.PureOps.Ideal.Laws
import Idealize.ShloMosaic.Lib.ValueIdx

noncomputable section

namespace Cert.LibTransposedDot

open Idealize.ShloMosaic Idealize.ShloMosaic.ValueIdx

section TransposedRhs
variable {M K N : Nat} {φ₁ φ₂ : FTy}

theorem tr_lhsIdx (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl j _).trans hk

theorem tr_rhsIdx (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl j _).trans hk

/-- Rows against rows: the entry (r, c) is the sum over the shared width of the products. -/
theorem tr_matmul_apply (prec : Option ContractPrecision) (lhs : FVec Ideal ⟨2, ![M, K]⟩ φ₁) (rhs : FVec Ideal ⟨2, ![N, K]⟩ φ₂)
    (j : (⟨2, ![M, N]⟩ : Shape).Idx) :
    FloatOps.matmul (DotDims.transposedRhs M K N) prec lhs rhs (constant ⟨2, ![M, N]⟩ .f32 0x00000000#32) j
      = ∑ k : Fin K, lhs (ix2 (j 0) k) * rhs (ix2 (j 1) k) := by
  rw [Ideal.matmul_constant_zero_apply, ← Equiv.sum_comp (contrEquiv1 (DotDims.transposedRhs M K N) K rfl rfl).symm]
  exact Finset.sum_congr rfl fun k _ => by rw [tr_lhsIdx, tr_rhsIdx]; rfl

end TransposedRhs

end Cert.LibTransposedDot

end
-- ==== Proof.LibPlainDot.lean ====
/-
  A plain matrix product read at an index, at the ideal instance.

  For the dimension numbers of an `M × K` by `K × N` product (contract the left operand's second axis with the right
  operand's first), a kernel's matrix product into a zero accumulator and the host's `dot_general` are both, at the output
  index `(r, c)`, the sum over `k : Fin K` of `lhs (r, k) * rhs (k, c)`.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The contraction shape of a plain product has one axis, of extent `K`. -/
theorem plain_contr_rank : (DotDims.plain M K N).contr.rank = 1 := rfl
theorem plain_contr_size : (DotDims.plain M K N).contr.size ⟨0, by rw [plain_contr_rank]; exact Nat.one_pos⟩ = K := rfl

/-- The operand indices of a plain product at the output index `j` and the contraction coordinate `k`. -/
theorem plain_lhsIdx (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

theorem plain_rhsIdx (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- A kernel's plain product into the zero accumulator, at an index. -/
theorem plain_matmul_apply (prec : Option ContractPrecision) (lhs : FVec Ideal ⟨2, ![M, K]⟩ φ₁) (rhs : FVec Ideal ⟨2, ![K, N]⟩ φ₂)
    (j : (⟨2, ![M, N]⟩ : Shape).Idx) :
    FloatOps.matmul (DotDims.plain M K N) prec lhs rhs (constant ⟨2, ![M, N]⟩ .f32 0x00000000#32) j
      = ∑ k : Fin K, lhs (ix2 (j 0) k) * rhs (ix2 k (j 1)) := by
  rw [Ideal.matmul_constant_zero_apply, ← Equiv.sum_comp (contrEquiv1 (DotDims.plain M K N) K rfl rfl).symm]
  exact Finset.sum_congr rfl fun k _ => by rw [plain_lhsIdx, plain_rhsIdx]; rfl

/-- The host's plain product, at an index. -/
theorem plain_dotGeneral_apply (prec : Option ContractPrecision) (sched : HostSchedule) (lhs : FVec Ideal ⟨2, ![M, K]⟩ φ₁)
    (rhs : FVec Ideal ⟨2, ![K, N]⟩ φ₂) (j : (⟨2, ![M, N]⟩ : Shape).Idx) :
    FloatOps.dotGeneral (DotDims.plain M K N) prec sched lhs rhs j
      = ∑ k : Fin K, lhs (ix2 (j 0) k) * rhs (ix2 k (j 1)) := by
  rw [Ideal.dotGeneral_apply, ← Equiv.sum_comp (contrEquiv1 (DotDims.plain M K N) K rfl rfl).symm]
  exact Finset.sum_congr rfl fun k _ => by rw [plain_lhsIdx, plain_rhsIdx]; rfl

end Cert.LibPlainDot

end
-- ==== Proof.IdealPayloads.lean ====
/-
  What each stored value of the block computation is, entry by entry, over the extended reals.

  The computation keeps two accumulators per block of 2048 tokens: a dense one (2048 × 1024) and a projection one
  (2048 × 128, all eight adapters' sixteen rows side by side). Both start at zero. Each step over a slice of 512 of
  the contracted axis adds to entry (r, cc) the sum over the slice of x[r,d] · w[cc,d], respectively x[r,d] · a[cc,d]:
  rows against rows. The last step gives
      (dense[r,cc] + bias[cc]) + 2 · ∑ c, (proj[r,c] · mask[r,c]) · b[c,cc],
  the contraction over the merged axis of 128 adapter rows. Over the extended reals a change of float format is the
  identity, a reshape to the same shape is the identity, and a matrix product into a zero accumulator is the plain sum
  of products, so each statement is the operations read off at one index.
-/
import proofs.«128954_j15144054685780_2_alg».proof.Proof.Gen.KernelIdeal.Skeleton
import proofs.«128954_j15144054685780_2_alg».proof.Proof.LibTransposedDot
import proofs.«128954_j15144054685780_2_alg».proof.Proof.LibPlainDot
import proofs.«128954_j15144054685780_2_alg».proof.Proof.Spec
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-- The dimension numbers of the two products against rows (the dense one and the projection on the adapter rows)
are those of an M × K by N × K product, both operands contracted on their second axis; -/
theorem dotW_eq : dot_S2048x512_S1024x512_S2048x1024_1_1_0_0_n_n = DotDims.transposedRhs 2048 512 1024 := rfl
theorem dotA_eq : dot_S2048x512_S128x512_S2048x128_1_1_0_0_n_n = DotDims.transposedRhs 2048 512 128 := rfl
/-- and those of the contraction of the merged adapter axis are a plain M × K by K × N product's. -/
theorem dotB_eq : dot_S2048x128_S128x1024_S2048x1024_1_0_0_1_n_n = DotDims.plain 2048 128 1024 := rfl

/-- The dense accumulator starts at zero. -/
theorem pay1_apply (r : Fin 2048) (cc : Fin 1024) : Gen.k0_pay1 (F := Ideal) (ix2 r cc) = 0 := by
  unfold Gen.k0_pay1
  rw [shapeCast_self]
  exact Ideal.ofBits_zero_f32

/-- The projection accumulator starts at zero. -/
theorem pay2_apply (r : Fin 2048) (cc : Fin 128) : Gen.k0_pay2 (F := Ideal) (ix2 r cc) = 0 := by
  unfold Gen.k0_pay2
  rw [shapeCast_self]
  exact Ideal.ofBits_zero_f32

/-- One step of the dense accumulation: the accumulator plus this block's part of row r of x against row cc of w. -/
theorem pay4_apply (x : Vec Ideal S2048x512 .bf16) (w : Vec Ideal S1024x512 .bf16) (acc : Vec Ideal S2048x1024 .f32)
    (r : Fin 2048) (cc : Fin 1024) :
    Gen.k0_pay4 x w acc (ix2 r cc) = acc (ix2 r cc) + ∑ d : Fin 512, x (ix2 r d) * w (ix2 cc d) := by
  unfold Gen.k0_pay4 Gen.k0_pay3
  dsimp only
  simp only [shapeCast_self]
  exact congrArg (fun t => acc (ix2 r cc) + t)
    (Cert.LibTransposedDot.tr_matmul_apply (M := 2048) (K := 512) (N := 1024) none x w (ix2 r cc))

/-- One step of the projection on the 128 adapter rows: the accumulator plus this block's part of row r of x against
adapter row cc. -/
theorem pay5_apply (x : Vec Ideal S2048x512 .bf16) (a : Vec Ideal S128x512 .bf16) (acc : Vec Ideal S2048x128 .f32)
    (r : Fin 2048) (cc : Fin 128) :
    Gen.k0_pay5 x a acc (ix2 r cc) = acc (ix2 r cc) + ∑ d : Fin 512, x (ix2 r d) * a (ix2 cc d) := by
  unfold Gen.k0_pay5 Gen.k0_pay3
  dsimp only
  simp only [shapeCast_self]
  exact congrArg (fun t => acc (ix2 r cc) + t)
    (Cert.LibTransposedDot.tr_matmul_apply (M := 2048) (K := 512) (N := 128) none x a (ix2 r cc))

/-- The bias block has one row; broadcast down the rows, entry (r, cc) of it is the bias of column cc. -/
theorem bias_row_apply (bias : Vec Ideal S1x1024 .f32) (r : Fin 2048) (cc : Fin 1024) :
    broadcastTo S2048x1024 bias broadcasts_S1x1024_S2048x1024 (ix2 r cc) = bias (ix2 0 cc) :=
  broadcastTo_apply bias broadcasts_S1x1024_S2048x1024 (ix2 r cc) (ix2 0 cc)
    (fun a => match a with | ⟨0, _⟩ => rfl | ⟨1, _⟩ => rfl)

/-- The last step: the dense accumulator plus the bias, plus twice the contraction over the merged adapter axis of the
masked projection against B. The widening and narrowing between the two float formats are the identity on the
extended reals, so the masked projection is the plain product of the projection and the mask. -/
theorem pay6_apply (acca : Vec Ideal S2048x128 .f32) (mask : Vec Ideal S2048x128 .bf16) (b : Vec Ideal S128x1024 .bf16)
    (accb : Vec Ideal S2048x1024 .f32) (bias : Vec Ideal S1x1024 .f32) (r : Fin 2048) (cc : Fin 1024) :
    Gen.k0_pay6 acca mask b accb bias (ix2 r cc)
      = (accb (ix2 r cc) + bias (ix2 0 cc))
        + Cert.Lora.two * ∑ c : Fin 128, (acca (ix2 r c) * mask (ix2 r c)) * b (ix2 c cc) := by
  unfold Gen.k0_pay6
  simp only [shapeCast_self]
  have hmm := Cert.LibPlainDot.plain_matmul_apply (M := 2048) (K := 128) (N := 1024) (φ₁ := .bf16) (φ₂ := .bf16) none
    (truncf FTy.bf16 (mulf acca (extf FTy.f32 mask bitsLt_bf16_f32)) bitsLt_bf16_f32) b (ix2 r cc)
  show (accb (ix2 r cc) + broadcastTo S2048x1024 bias broadcasts_S1x1024_S2048x1024 (ix2 r cc))
      + Cert.Lora.two * FloatOps.matmul (DotDims.plain 2048 128 1024) none
          (truncf FTy.bf16 (mulf acca (extf FTy.f32 mask bitsLt_bf16_f32)) bitsLt_bf16_f32) b
          (constant (F := Ideal) ⟨2, ![2048, 1024]⟩ .f32 0x00000000#32) (ix2 r cc) = _
  rw [bias_row_apply, hmm]
  rfl

end Cert.KernelIdeal.Payloads

end
-- ==== Proof.LibBlockSum.lean ====
/-
  Sums over an index range cut into equal blocks, in any commutative additive monoid (the extended reals are one:
  addition there is commutative and associative, infinities included, so no finiteness is asked).

  An index below nb * bs is position r of block b, k = b * bs + r. A sum over all k is the sum over the blocks of
  each block's sum (sum_fin_blocks); and a running total that takes the blocks one after the other, block 0 first,
  has after block n the sum of blocks 0 .. n (acc_eq_sum_range), so after the last block the whole sum
  (sum_range_blocks). This is what a matrix product accumulated over column blocks computes, entry by entry.
-/
import Mathlib.Algebra.BigOperators.Fin
import Mathlib.Algebra.BigOperators.Intervals
import Mathlib.Logic.Equiv.Fin.Basic

namespace BlockSum

open Finset

variable {M : Type*} [AddCommMonoid M]

/-- Position r of block b is below nb * bs when b is below nb. -/
theorem pos_lt {nb bs : ℕ} (b : Fin nb) (r : Fin bs) : b.val * bs + r.val < nb * bs := by
  have h1 : (b.val + 1) * bs ≤ nb * bs := Nat.mul_le_mul_right bs b.isLt
  have h2 : b.val * bs + r.val < (b.val + 1) * bs := by rw [Nat.succ_mul]; exact Nat.add_lt_add_left r.isLt _
  exact lt_of_lt_of_le h2 h1

/-- A sum over nb * bs indices is the sum over the nb blocks of the sum over each block's bs positions. -/
theorem sum_fin_blocks (nb bs : ℕ) (f : Fin (nb * bs) → M) :
    ∑ k, f k = ∑ b : Fin nb, ∑ r : Fin bs, f ⟨b.val * bs + r.val, pos_lt b r⟩ := by
  rw [← Equiv.sum_comp finProdFinEquiv f, Fintype.sum_prod_type]
  refine Finset.sum_congr rfl fun b _ => Finset.sum_congr rfl fun r _ => congrArg f (Fin.ext ?_)
  show r.val + bs * b.val = b.val * bs + r.val
  rw [Nat.mul_comm, Nat.add_comm]

/-- Position r of block b as an index below nb * bs, wrapped around so that it is defined for every natural b. -/
def pos (nb bs : ℕ) (h : 0 < nb * bs) (b : ℕ) (r : Fin bs) : Fin (nb * bs) :=
  ⟨(b * bs + r.val) % (nb * bs), Nat.mod_lt _ h⟩

/-- Below nb blocks nothing wraps. -/
theorem pos_eq (nb bs : ℕ) (h : 0 < nb * bs) (b : Fin nb) (r : Fin bs) :
    pos nb bs h b.val r = ⟨b.val * bs + r.val, pos_lt b r⟩ :=
  Fin.ext (Nat.mod_eq_of_lt (pos_lt b r))

/-- The blocks taken one after the other: the sum of the first nb block sums is the whole sum. -/
theorem sum_range_blocks (nb bs : ℕ) (h : 0 < nb * bs) (f : Fin (nb * bs) → M) :
    ∑ b ∈ range nb, ∑ r : Fin bs, f (pos nb bs h b r) = ∑ k, f k := by
  rw [Finset.sum_range, sum_fin_blocks]
  exact Finset.sum_congr rfl fun b _ => Finset.sum_congr rfl fun r _ => by rw [pos_eq]

end BlockSum
-- ==== Proof.IdealAccum.lean ====
/-
  What the fused kernel's two accumulators hold point by point, and the block it stores.

  Grid point n works on row block n / 32, column block (n / 8) % 4 and depth block n % 8, the depth innermost. The
  dense accumulator restarts at depth block 0 and takes one block product per point, so after point n it holds the
  first n % 8 + 1 depth blocks of the contraction of its rows of X against its rows of W; at depth block 7 that is
  the whole contraction over the 4096 positions, the eight blocks of 512 glued into one sum. The projection
  accumulator is filled the same way during the sweep over column block 0 only (the first eight points of a row
  block) and is then kept: the other column blocks of the row block find the complete projection of its rows on
  the 128 adapter rows. Only commutativity and associativity of addition on the extended reals, 0 + x = x and the
  re-indexing of finite sums are used; nothing needs to be finite.
-/
import proofs.«128954_j15144054685780_2_alg».proof.Proof.IdealBodyData
import proofs.«128954_j15144054685780_2_alg».proof.Proof.IdealPayloads
import proofs.«128954_j15144054685780_2_alg».proof.Proof.IdealBlocks
import proofs.«128954_j15144054685780_2_alg».proof.Proof.Tiles
import proofs.«128954_j15144054685780_2_alg».proof.Proof.LibBlockSum

set_option maxRecDepth 16384

noncomputable section

open scoped BigOperators

namespace Cert.KernelIdeal.Accum

open Cert.KernelIdeal Cert.KernelIdeal.Gen Cert.KernelIdeal.Body Cert.Lora Idealize.ShloMosaic Idealize.ShloMosaic.ValueIdx
open Idealize.ShloMosaic.TcCoe Idealize.SL.Sem Cert.KernelIdeal.Blocks

/-! ## Sums over the contracted axis, one depth block after the other -/

/-- Position d of depth block k' on the contracted axis of length 4096 = 8 · 512; it wraps around, so that it is
    defined for every natural k'. -/
def depAt (k' : ℕ) (d : Fin 512) : Fin 4096 := ⟨(512 * k' + d.val) % 4096, Nat.mod_lt _ (by norm_num)⟩

/-- Below eight blocks nothing wraps. -/
theorem depAt_eq (k : Fin 8) (d : Fin 512) : depAt k.val d = depIx k d :=
  Fin.ext (Nat.mod_eq_of_lt (by have := k.isLt; have := d.isLt; omega))

/-- Depth block k' of row s of X against row o of Y. -/
def blockDot {N : ℕ} (X : SX.Idx → EReal) (Y : (⟨2, ![N, 4096]⟩ : Shape).Idx → EReal) (s : Fin 8192) (o : Fin N)
    (k' : ℕ) : EReal :=
  ∑ d : Fin 512, X (ix2 s (depAt k' d)) * Y (ix2 o (depAt k' d))

/-- The first n depth blocks of row s of X against row o of Y. -/
def partialDot {N : ℕ} (X : SX.Idx → EReal) (Y : (⟨2, ![N, 4096]⟩ : Shape).Idx → EReal) (s : Fin 8192) (o : Fin N)
    (n : ℕ) : EReal :=
  ∑ k' ∈ Finset.range n, blockDot X Y s o k'

theorem partialDot_one {N : ℕ} (X : SX.Idx → EReal) (Y : (⟨2, ![N, 4096]⟩ : Shape).Idx → EReal) (s : Fin 8192)
    (o : Fin N) : partialDot X Y s o 1 = blockDot X Y s o 0 :=
  Finset.sum_range_one _

theorem partialDot_succ {N : ℕ} (X : SX.Idx → EReal) (Y : (⟨2, ![N, 4096]⟩ : Shape).Idx → EReal) (s : Fin 8192)
    (o : Fin N) (n : ℕ) : partialDot X Y s o (n + 1) = partialDot X Y s o n + blockDot X Y s o n :=
  Finset.sum_range_succ _ _

/-- Row s of X against row o of Y, over the whole contracted axis. -/
def fullDot {N : ℕ} (X : SX.Idx → EReal) (Y : (⟨2, ![N, 4096]⟩ : Shape).Idx → EReal) (s : Fin 8192) (o : Fin N) :
    EReal :=
  ∑ q : Fin 4096, X (ix2 s q) * Y (ix2 o q)

/-- All eight depth blocks together are the whole row against the whole row. -/
theorem partialDot_full {N : ℕ} (X : SX.Idx → EReal) (Y : (⟨2, ![N, 4096]⟩ : Shape).Idx → EReal) (s : Fin 8192)
    (o : Fin N) : partialDot X Y s o 8 = fullDot X Y s o := by
  show partialDot X Y s o 8 = ∑ q : Fin 4096, X (ix2 s q) * Y (ix2 o q)
  refine Eq.trans ?_ (BlockSum.sum_range_blocks 8 512 (by norm_num) (fun q : Fin 4096 => X (ix2 s q) * Y (ix2 o q)))
  refine Finset.sum_congr rfl fun k' _ => Finset.sum_congr rfl fun d _ => ?_
  have e : depAt k' d = BlockSum.pos 8 512 (by norm_num) k' d :=
    Fin.ext (by show (512 * k' + d.val) % 4096 = (k' * 512 + d.val) % (8 * 512); omega)
  rw [e]

/-! ## The two accumulators, point by point -/

section
variable (m : (ℓ : Loc nD τ sig) → Buf (Elt Ideal) ℓ) (c : Dev nD)

/-- At depth block 0 the dense accumulator is this point's block product alone: it restarts from zero. -/
theorem dense_reset (t : Fin cfg0.N) (h : t.val % 8 = 0) (r : Fin 2048) (cc : Fin 1024) :
    (accAt m c t.val t.isLt).1 (ix2 r cc)
      = blockDot (N := 4096) (V m c main_v8) (V m c main_v9) (rowIx (pI t.val (tN t)) r) (colIx (pJ t.val (tN t)) cc)
          (t.val % 8) := by
  refine (congrFun (accB_reset m c t h) (ix2 r cc)).trans ?_
  refine (Payloads.pay4_apply (iblk m c 0 t) (iblk m c 1 t) (k0_pay1 (F := Ideal)) r cc).trans ?_
  rw [Payloads.pay1_apply, zero_add]
  unfold blockDot
  refine Finset.sum_congr rfl fun d _ => ?_
  rw [blk_x m c t r d, blk_w m c t cc d, ← depAt_eq]
  rfl

/-- At a later depth block it is what the point before left plus this point's block product. -/
theorem dense_step (t : Fin cfg0.N) (h : ¬t.val % 8 = 0) (r : Fin 2048) (cc : Fin 1024) :
    (accAt m c t.val t.isLt).1 (ix2 r cc)
      = (accAt m c (t.val - 1) (Nat.lt_of_le_of_lt (Nat.sub_le _ _) t.isLt)).1 (ix2 r cc)
        + blockDot (N := 4096) (V m c main_v8) (V m c main_v9) (rowIx (pI t.val (tN t)) r)
            (colIx (pJ t.val (tN t)) cc) (t.val % 8) := by
  refine (congrFun (accB_step m c t h) (ix2 r cc)).trans ?_
  refine (Payloads.pay4_apply (iblk m c 0 t) (iblk m c 1 t)
    (accAt m c (t.val - 1) (Nat.lt_of_le_of_lt (Nat.sub_le _ _) t.isLt)).1 r cc).trans ?_
  unfold blockDot
  refine congrArg _ (Finset.sum_congr rfl fun d _ => ?_)
  rw [blk_x m c t r d, blk_w m c t cc d, ← depAt_eq]
  rfl

/-- After point n the dense accumulator holds, at entry (r, cc), the first n % 8 + 1 depth blocks of row r of the
    point's row block against row cc of its column block: the point before a depth block k > 0 has the same row
    block and column block and depth block k - 1. -/
theorem dense_acc : ∀ (n : ℕ) (hn : n < cfg0.N) (r : Fin 2048) (cc : Fin 1024),
    (accAt m c n hn).1 (ix2 r cc)
      = partialDot (N := 4096) (V m c main_v8) (V m c main_v9) (rowIx (pI n (tN ⟨n, hn⟩)) r)
          (colIx (pJ n (tN ⟨n, hn⟩)) cc) (n % 8 + 1) := by
  intro n
  induction n with
  | zero =>
    intro hn r cc
    refine (dense_reset m c ⟨0, hn⟩ rfl r cc).trans ?_
    exact (partialDot_one _ _ _ _).symm
  | succ n ih =>
    intro hn r cc
    by_cases h : (n + 1) % 8 = 0
    · refine (dense_reset m c ⟨n + 1, hn⟩ h r cc).trans ?_
      show blockDot _ _ _ _ ((n + 1) % 8) = partialDot _ _ _ _ ((n + 1) % 8 + 1)
      rw [h]
      exact (partialDot_one _ _ _ _).symm
    · refine (dense_step m c ⟨n + 1, hn⟩ h r cc).trans ?_
      have hn' : n < cfg0.N := Nat.lt_of_succ_lt hn
      have e1 : pI n (tN ⟨n, hn'⟩) = pI (n + 1) (tN ⟨n + 1, hn⟩) := Fin.ext (by show n / 32 = (n + 1) / 32; omega)
      have e2 : pJ n (tN ⟨n, hn'⟩) = pJ (n + 1) (tN ⟨n + 1, hn⟩) :=
        Fin.ext (by show n / 8 % 4 = (n + 1) / 8 % 4; omega)
      have e3 : n % 8 + 1 = (n + 1) % 8 := by omega
      show (accAt m c n hn').1 (ix2 r cc) + blockDot _ _ _ _ ((n + 1) % 8) = partialDot _ _ _ _ ((n + 1) % 8 + 1)
      rw [ih hn' r cc, e1, e2, e3, partialDot_succ]

/-- At the first point of a row block's sweep the projection accumulator is this point's block product alone. -/
theorem proj_reset (t : Fin cfg0.N) (h : t.val % 32 = 0) (r : Fin 2048) (c' : Fin 128) :
    (accAt m c t.val t.isLt).2 (ix2 r c')
      = blockDot (N := 128) (V m c main_v8) (V m c main_v10) (rowIx (pI t.val (tN t)) r) c' (t.val % 8) := by
  refine (congrFun (accA_reset m c t h) (ix2 r c')).trans ?_
  refine (Payloads.pay5_apply (iblk m c 0 t) (iblk m c 2 t) (k0_pay2 (F := Ideal)) r c').trans ?_
  rw [Payloads.pay2_apply, zero_add]
  unfold blockDot
  refine Finset.sum_congr rfl fun d _ => ?_
  rw [blk_x m c t r d, blk_a m c t c' d, ← depAt_eq]
  rfl

/-- During the rest of the sweep over column block 0 it takes this point's block product on top. -/
theorem proj_step (t : Fin cfg0.N) (h1 : t.val % 32 < 8) (h2 : ¬t.val % 32 = 0) (r : Fin 2048) (c' : Fin 128) :
    (accAt m c t.val t.isLt).2 (ix2 r c')
      = (accAt m c (t.val - 1) (Nat.lt_of_le_of_lt (Nat.sub_le _ _) t.isLt)).2 (ix2 r c')
        + blockDot (N := 128) (V m c main_v8) (V m c main_v10) (rowIx (pI t.val (tN t)) r) c' (t.val % 8) := by
  refine (congrFun (accA_step m c t h1 h2) (ix2 r c')).trans ?_
  refine (Payloads.pay5_apply (iblk m c 0 t) (iblk m c 2 t)
    (accAt m c (t.val - 1) (Nat.lt_of_le_of_lt (Nat.sub_le _ _) t.isLt)).2 r c').trans ?_
  unfold blockDot
  refine congrArg _ (Finset.sum_congr rfl fun d _ => ?_)
  rw [blk_x m c t r d, blk_a m c t c' d, ← depAt_eq]
  rfl

/-- After point n the projection accumulator holds, at entry (r, c'), the first min (n % 32 + 1) 8 depth blocks of
    row r of the point's row block against adapter row c': it grows during the sweep over column block 0, is complete at
    that sweep's last point, and is kept through the other column blocks, whose points all have the same row block. -/
theorem proj_acc : ∀ (n : ℕ) (hn : n < cfg0.N) (r : Fin 2048) (c' : Fin 128),
    (accAt m c n hn).2 (ix2 r c')
      = partialDot (N := 128) (V m c main_v8) (V m c main_v10) (rowIx (pI n (tN ⟨n, hn⟩)) r) c'
          (min (n % 32 + 1) 8) := by
  intro n
  induction n with
  | zero =>
    intro hn r c'
    refine (proj_reset m c ⟨0, hn⟩ rfl r c').trans ?_
    exact (partialDot_one _ _ _ _).symm
  | succ n ih =>
    intro hn r c'
    have hn' : n < cfg0.N := Nat.lt_of_succ_lt hn
    by_cases h : (n + 1) % 32 = 0
    · refine (proj_reset m c ⟨n + 1, hn⟩ h r c').trans ?_
      have e3 : (n + 1) % 8 = 0 := by omega
      have e4 : min ((n + 1) % 32 + 1) 8 = 1 := by omega
      show blockDot _ _ _ _ ((n + 1) % 8) = partialDot _ _ _ _ (min ((n + 1) % 32 + 1) 8)
      rw [e3, e4]
      exact (partialDot_one _ _ _ _).symm
    · have e1 : pI n (tN ⟨n, hn'⟩) = pI (n + 1) (tN ⟨n + 1, hn⟩) := Fin.ext (by show n / 32 = (n + 1) / 32; omega)
      by_cases h8 : (n + 1) % 32 < 8
      · refine (proj_step m c ⟨n + 1, hn⟩ h8 h r c').trans ?_
        have e3 : min (n % 32 + 1) 8 = (n + 1) % 8 := by omega
        have e4 : min ((n + 1) % 32 + 1) 8 = (n + 1) % 8 + 1 := by omega
        show (accAt m c n hn').2 (ix2 r c') + blockDot _ _ _ _ ((n + 1) % 8)
          = partialDot _ _ _ _ (min ((n + 1) % 32 + 1) 8)
        rw [ih hn' r c', e1, e3, e4, partialDot_succ]
      · refine (congrFun (accA_keep m c ⟨n + 1, hn⟩ h8) (ix2 r c')).trans ?_
        have e3 : min (n % 32 + 1) 8 = 8 := by omega
        have e4 : min ((n + 1) % 32 + 1) 8 = 8 := by omega
        show (accAt m c n hn').2 (ix2 r c') = partialDot _ _ _ _ (min ((n + 1) % 32 + 1) 8)
        rw [ih hn' r c', e1, e3, e4]

/-- At depth block 7 the dense accumulator holds the whole contraction over the 4096 positions. -/
theorem dense_full (t : Fin cfg0.N) (h7 : t.val % 8 = 7) (r : Fin 2048) (cc : Fin 1024) :
    (accAt m c t.val t.isLt).1 (ix2 r cc)
      = fullDot (N := 4096) (V m c main_v8) (V m c main_v9) (rowIx (pI t.val (tN t)) r)
          (colIx (pJ t.val (tN t)) cc) := by
  have e8 : t.val % 8 + 1 = 8 := by omega
  rw [dense_acc m c t.val t.isLt r cc, e8, partialDot_full]

/-- From the last point of the sweep over column block 0 on, that is at every point of the row block numbered 7 or
    more within it, the projection accumulator holds the whole projection on the 128 adapter rows. -/
theorem proj_full (t : Fin cfg0.N) (h7 : 7 ≤ t.val % 32) (r : Fin 2048) (c' : Fin 128) :
    (accAt m c t.val t.isLt).2 (ix2 r c')
      = fullDot (N := 128) (V m c main_v8) (V m c main_v10) (rowIx (pI t.val (tN t)) r) c' := by
  have e32 : min (t.val % 32 + 1) 8 = 8 := by omega
  rw [proj_acc m c t.val t.isLt r c', e32, partialDot_full]

/-- The kernel's whole-array function at entry (s, o), written out. -/
theorem overStaged_apply (X : SX.Idx → EReal) (W : SW.Idx → EReal) (C : SRow.Idx → EReal) (A : SAd.Idx → EReal)
    (B : SAd.Idx → EReal) (M : SM.Idx → EReal) (s : Fin 8192) (o : Fin 4096) :
    overStaged X W C A B M (ix2 s o)
      = (fullDot (N := 4096) X W s o + C (ix2 (0 : Fin 1) o))
        + two * ∑ c' : Fin 128, (fullDot (N := 128) X A s c' * M (ix2 s c')) * B (ix2 c' o) := rfl

/-- At a point with depth block 7 the stored block is the kernel's whole-array function on the block's rows and
    columns: the dense accumulator then holds all eight depth blocks, that is the whole contraction, and so does the
    projection accumulator, since such a point is the last of the sweep over column block 0 or comes after it. -/
theorem out_value (t : Fin cfg0.N) (h7 : t.val % 8 = 7) (r : Fin 2048) (cc : Fin 1024) :
    outAt (F := Ideal) m c t (ix2 r cc)
      = overStaged (V m c main_v8) (V m c main_v9) (V m c main_v4) (V m c main_v10) (V m c main_v11) (V m c main_v7)
          (ix2 (rowIx (pI t.val (tN t)) r) (colIx (pJ t.val (tN t)) cc)) := by
  refine (Payloads.pay6_apply (accAt m c t.val t.isLt).2 (iblk m c 4 t) (iblk m c 3 t) (accAt m c t.val t.isLt).1
    (iblk m c 5 t) r cc).trans ?_
  rw [overStaged_apply, dense_full m c t h7 r cc, blk_c m c t cc]
  refine congrArg _ (congrArg _ (Finset.sum_congr rfl fun c' _ => ?_))
  rw [proj_full m c t (by omega) r c', blk_m m c t r c', blk_b m c t c' cc]

end

end Cert.KernelIdeal.Accum

end
-- ==== Proof.PrefixArrays.lean ====
/-
  The arrays the region reads, in terms of the argument arrays.

  Before its one region the program prepares six arrays from its arguments x [8192, 4096], w [4096, 4096],
  bias [4096], A [8, 16, 4096], B [1, 8, 4096, 16] and the index words idx [8192]:
    * x and w narrowed to bf16 — over the extended reals a format change is the identity, so these are x and w;
    * A with its adapter axis and its row axis merged into one axis of 8 · 16 = 128: merged row c is row c % 16 of
      adapter c / 16;
    * B[0] with its last two axes swapped and then merged the same way: entry (c, o) is B[0, c / 16, o, c % 16];
    * the routing mask [8192, 128]: the bit "token s has index word l", as 0 or 1, repeated over the 16 rows of
      adapter l, so entry (s, c) is the routing bit of token s for adapter c / 16;
    * bias as one row [1, 4096].
  Each theorem below reads one of these arrays at an index with explicit coordinates. A reshape is read through the
  equality of row-major positions, which for the merged axis is c = (c / 16) · 16 + c % 16.
-/
import proofs.«128954_j15144054685780_2_alg».proof.Proof.Spec
import proofs.«128954_j15144054685780_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Prefix

open Idealize.ShloMosaic Idealize.ShloMosaic.TcCoe Idealize.ShloMosaic.ValueIdx
open Cert.KernelIdeal Cert.KernelIdeal.Gen Cert.Lora

/-! ## The layout operations of the prefix, read at an index -/

/-- The [8, 16, 4096] array viewed as [128, 4096]: merged row `cc` is row `cc % 16` of adapter `cc / 16`. -/
theorem mergeRows_apply (x : S8x16x4096.Idx → EReal) (cc : Fin 128) (d : Fin 4096) :
    shapeCast S128x4096 x shapeCasts_S8x16x4096_S128x4096 (ix2 cc d) = x (ix3 (adapterOf cc) (rowOf cc) d) := by
  refine shapeCast_apply (s := S8x16x4096) (t := S128x4096) x shapeCasts_S8x16x4096_S128x4096 (ix2 cc d) (ix3 (adapterOf cc) (rowOf cc) d) ?_
  rw [Shape.rowMajor_val_three, Shape.rowMajor_val_two]
  show ((cc.val / 16) * 16 + (cc.val % 16)) * 4096 + d.val = cc.val * 4096 + d.val
  omega

/-- Swapping the last two axes: entry `(l, r, o)` of the transposed array is entry `(l, o, r)` of the operand. -/
theorem swapLast_apply (x : S8x4096x16.Idx → EReal) (l : Fin 8) (r : Fin 16) (o : Fin 4096) :
    transpose S8x16x4096 [0, 2, 1] x transposes_S8x4096x16_S8x16x4096_0_2_1 (ix3 l r o) = x (ix3 l o r) := by
  refine transpose_apply (s := S8x4096x16) (t := S8x16x4096) [0, 2, 1] x transposes_S8x4096x16_S8x16x4096_0_2_1 (ix3 l r o) (ix3 l o r) ?_
  intro b
  match b with
  | ⟨0, _⟩ => rfl
  | ⟨1, _⟩ => rfl
  | ⟨2, _⟩ => rfl

/-- Dropping the leading unit axis of the [1, 8, 4096, 16] array. -/
theorem dropUnit_apply (x : S1x8x4096x16.Idx → EReal) (l : Fin 8) (o : Fin 4096) (r : Fin 16) :
    shapeCast S8x4096x16 x shapeCasts_S1x8x4096x16_S8x4096x16 (ix3 l o r) = x (ix4 (0 : Fin 1) l o r) := by
  refine shapeCast_apply (s := S1x8x4096x16) (t := S8x4096x16) x shapeCasts_S1x8x4096x16_S8x4096x16 (ix3 l o r) (ix4 (0 : Fin 1) l o r) ?_
  rw [Shape.rowMajor_val_four, Shape.rowMajor_val_three]
  show ((0 * 8 + l.val) * 4096 + o.val) * 16 + r.val = (l.val * 4096 + o.val) * 16 + r.val
  omega

/-- The [8192, 8, 16] array viewed as [8192, 128]: merged column `cc` is position `cc % 16` of adapter `cc / 16`. -/
theorem mergeCols_apply (x : S8192x8x16.Idx → EReal) (s : Fin 8192) (cc : Fin 128) :
    shapeCast S8192x128 x shapeCasts_S8192x8x16_S8192x128 (ix2 s cc) = x (ix3 s (adapterOf cc) (rowOf cc)) := by
  refine shapeCast_apply (s := S8192x8x16) (t := S8192x128) x shapeCasts_S8192x8x16_S8192x128 (ix2 s cc) (ix3 s (adapterOf cc) (rowOf cc)) ?_
  rw [Shape.rowMajor_val_three, Shape.rowMajor_val_two]
  show (s.val * 8 + cc.val / 16) * 16 + cc.val % 16 = s.val * 128 + cc.val
  omega

/-- Repeating an [8192, 8] array along a new trailing axis of 16: every position of that axis reads the operand. -/
theorem repeat16_apply (x : S8192x8.Idx → EReal) (s : Fin 8192) (l : Fin 8) (r : Fin 16) :
    broadcastInDim S8192x8x16 ![0, 1] bcast_S8192x8_S8192x8x16_0_1 x (ix3 s l r) = x (ix2 s l) := by
  refine broadcastInDim_apply (s := S8192x8) (t := S8192x8x16) ![0, 1] bcast_S8192x8_S8192x8x16_0_1 x (ix3 s l r) (ix2 s l) ?_
  intro a
  match a with
  | ⟨0, _⟩ => rfl
  | ⟨1, _⟩ => rfl

/-- The index word of every token repeated along the adapter axis: entry `(s, l)` is token `s`'s word. -/
theorem tokenWord_apply (idx : IVec S8192 32) (s : Fin 8192) (l : Fin 8) :
    broadcastInDim S8192x8 ![0, 1] bcast_S8192x1_S8192x8_0_1
      (broadcastInDim S8192x1 ![0] bcast_S8192_S8192x1_0 idx) (ix2 s l) = idx (ix1 s) := by
  refine (broadcastInDim_apply (s := S8192x1) (t := S8192x8) ![0, 1] bcast_S8192x1_S8192x8_0_1
    (broadcastInDim S8192x1 ![0] bcast_S8192_S8192x1_0 idx) (ix2 s l) (ix2 s (0 : Fin 1)) ?_).trans ?_
  · intro a
    match a with
    | ⟨0, _⟩ => rfl
    | ⟨1, _⟩ => rfl
  refine broadcastInDim_apply (s := S8192) (t := S8192x1) ![0] bcast_S8192_S8192x1_0 idx (ix2 s (0 : Fin 1)) (ix1 s) ?_
  intro a
  match a with
  | ⟨0, _⟩ => rfl

/-- The adapter numbers 0 … 7 repeated along the token axis: entry `(s, l)` is the word of `l`. -/
theorem adapterWord_apply (s : Fin 8192) (l : Fin 8) :
    broadcastInDim S8192x8 ![0, 1] bcast_S1x8_S8192x8_0_1 (iotaInDim S1x8 32 1) (ix2 s l) = BitVec.ofNat 32 l.val := by
  refine (broadcastInDim_apply (s := S1x8) (t := S8192x8) ![0, 1] bcast_S1x8_S8192x8_0_1
    (iotaInDim S1x8 32 1) (ix2 s l) (ix2 (0 : Fin 1) l) ?_).trans ?_
  · intro a
    match a with
    | ⟨0, _⟩ => rfl
    | ⟨1, _⟩ => rfl
  rfl

/-! ## The six arrays at an index -/

variable (m : (ℓ : Loc nD τ sig) → Buf (Elt Ideal) ℓ) (c : Dev nD)

/-- The activations the region reads are the argument x: narrowing to bf16 is the identity on extended reals. -/
theorem V_main_v8 (s : Fin 8192) (d : Fin 4096) :
    (V m c main_v8 : S8192x4096.Idx → EReal) (ix2 s d)
      = (m ((c : Thread nD τ).loc main_arg0) : S8192x4096.Idx → EReal) (ix2 s d) := by
  have e : (V m c main_v8 : S8192x4096.Idx → EReal)
      = (truncf .bf16 (m ((c : Thread nD τ).loc main_arg0) : FVec Ideal S8192x4096 .f32) bitsLt_bf16_f32 : FVec Ideal S8192x4096 .bf16) := by
    dsimp only [Gen.V]
    simp only [Gen.hostOps0, Gen.hostOps0_1, Gen.hostOps0_2, List.flatten_cons, List.flatten_nil, List.append_nil,
      List.cons_append, List.nil_append]
    after_results
  exact congrFun e (ix2 s d)

/-- The weight the region reads is the argument w. -/
theorem V_main_v9 (o d : Fin 4096) :
    (V m c main_v9 : S4096x4096.Idx → EReal) (ix2 o d)
      = (m ((c : Thread nD τ).loc main_arg1) : S4096x4096.Idx → EReal) (ix2 o d) := by
  have e : (V m c main_v9 : S4096x4096.Idx → EReal)
      = (truncf .bf16 (m ((c : Thread nD τ).loc main_arg1) : FVec Ideal S4096x4096 .f32) bitsLt_bf16_f32 : FVec Ideal S4096x4096 .bf16) := by
    dsimp only [Gen.V]
    simp only [Gen.hostOps0, Gen.hostOps0_1, Gen.hostOps0_2, List.flatten_cons, List.flatten_nil, List.append_nil,
      List.cons_append, List.nil_append]
    after_results
  exact congrFun e (ix2 o d)

/-- Merged row `cc` of the down-projection is row `cc % 16` of adapter `cc / 16` of the argument A. -/
theorem V_main_v10 (cc : Fin 128) (d : Fin 4096) :
    (V m c main_v10 : S128x4096.Idx → EReal) (ix2 cc d)
      = (m ((c : Thread nD τ).loc main_arg3) : S8x16x4096.Idx → EReal) (ix3 (adapterOf cc) (rowOf cc) d) := by
  have e : (V m c main_v10 : S128x4096.Idx → EReal)
      = shapeCast S128x4096 (m ((c : Thread nD τ).loc main_arg3) : S8x16x4096.Idx → EReal) shapeCasts_S8x16x4096_S128x4096 := by
    dsimp only [Gen.V]
    simp only [Gen.hostOps0, Gen.hostOps0_1, Gen.hostOps0_2, List.flatten_cons, List.flatten_nil, List.append_nil,
      List.cons_append, List.nil_append]
    after_results
    rfl
  rw [e, mergeRows_apply]

/-- Entry `(cc, o)` of the up-projection is B[0, cc / 16, o, cc % 16]: the leading unit axis dropped, the last two axes
    swapped, adapter and row merged. -/
theorem V_main_v11 (cc : Fin 128) (o : Fin 4096) :
    (V m c main_v11 : S128x4096.Idx → EReal) (ix2 cc o)
      = (m ((c : Thread nD τ).loc main_arg4) : S1x8x4096x16.Idx → EReal) (ix4 (0 : Fin 1) (adapterOf cc) o (rowOf cc)) := by
  have e : (V m c main_v11 : S128x4096.Idx → EReal)
      = shapeCast S128x4096
          (transpose S8x16x4096 [0, 2, 1]
            (shapeCast S8x4096x16 (m ((c : Thread nD τ).loc main_arg4) : S1x8x4096x16.Idx → EReal) shapeCasts_S1x8x4096x16_S8x4096x16)
            transposes_S8x4096x16_S8x16x4096_0_2_1)
          shapeCasts_S8x16x4096_S128x4096 := by
    dsimp only [Gen.V]
    simp only [Gen.hostOps0, Gen.hostOps0_1, Gen.hostOps0_2, List.flatten_cons, List.flatten_nil, List.append_nil,
      List.cons_append, List.nil_append]
    after_results
    rfl
  rw [e, mergeRows_apply, swapLast_apply, dropUnit_apply]

/-- Entry `(s, cc)` of the routing mask is token `s`'s routing bit for adapter `cc / 16`: the comparison of the token's
    index word with the adapter's number, as 0 or 1, the same on all 16 rows of the adapter. -/
theorem V_main_v7 (s : Fin 8192) (cc : Fin 128) :
    (V m c main_v7 : S8192x128.Idx → EReal) (ix2 s cc)
      = Cert.Lora.route (m ((c : Thread nD τ).loc main_arg5) : IVec S8192 32) s (adapterOf cc) := by
  have e : (V m c main_v7 : S8192x128.Idx → EReal)
      = shapeCast S8192x128
          (broadcastInDim S8192x8x16 ![0, 1] bcast_S8192x8_S8192x8x16_0_1
            (uitofp (F := Ideal) .bf16
              (cmpi .eq
                (broadcastInDim S8192x8 ![0, 1] bcast_S8192x1_S8192x8_0_1
                  (broadcastInDim S8192x1 ![0] bcast_S8192_S8192x1_0 (m ((c : Thread nD τ).loc main_arg5) : IVec S8192 32)))
                (broadcastInDim S8192x8 ![0, 1] bcast_S1x8_S8192x8_0_1 (iotaInDim S1x8 32 1))) : S8192x8.Idx → EReal))
          shapeCasts_S8192x8x16_S8192x128 := by
    dsimp only [Gen.V]
    simp only [Gen.hostOps0, Gen.hostOps0_1, Gen.hostOps0_2, List.flatten_cons, List.flatten_nil, List.append_nil,
      List.cons_append, List.nil_append]
    after_results
    rfl
  rw [e, mergeCols_apply, repeat16_apply]
  show (((IntOp.cmpi .eq
      (broadcastInDim S8192x8 ![0, 1] bcast_S8192x1_S8192x8_0_1
        (broadcastInDim S8192x1 ![0] bcast_S8192_S8192x1_0 (m ((c : Thread nD τ).loc main_arg5) : IVec S8192 32)) (ix2 s (adapterOf cc)))
      (broadcastInDim S8192x8 ![0, 1] bcast_S1x8_S8192x8_0_1 (iotaInDim S1x8 32 1) (ix2 s (adapterOf cc)))).toNat : ℝ) : EReal) = _
  rw [tokenWord_apply, adapterWord_apply]
  rfl

/-- The one row of the bias array is the argument bias. -/
theorem V_main_v4 (o : Fin 4096) :
    (V m c main_v4 : S1x4096.Idx → EReal) (ix2 (0 : Fin 1) o)
      = (m ((c : Thread nD τ).loc main_arg2) : S4096.Idx → EReal) (ix1 o) := by
  have e : (V m c main_v4 : S1x4096.Idx → EReal)
      = shapeCast S1x4096 (m ((c : Thread nD τ).loc main_arg2) : S4096.Idx → EReal) shapeCasts_S4096_S1x4096 := by
    dsimp only [Gen.V]
    simp only [Gen.hostOps0, Gen.hostOps0_1, Gen.hostOps0_2, List.flatten_cons, List.flatten_nil, List.append_nil,
      List.cons_append, List.nil_append]
    after_results
    rfl
  rw [e]
  refine shapeCast_apply (s := S4096) (t := S1x4096) (m ((c : Thread nD τ).loc main_arg2) : S4096.Idx → EReal)
    shapeCasts_S4096_S1x4096 (ix2 (0 : Fin 1) o) (ix1 o) ?_
  rw [Shape.rowMajor_val_one, Shape.rowMajor_val_two]
  show o.val = 0 * 4096 + o.val
  omega

end Cert.KernelIdeal.Prefix

end
-- ==== Proof.IdealStaged.lean ====
/-
  The kernel's result over the arrays it stages is the merged-adapter arrangement over the arguments.

  Each staged array is a re-layout of an argument: the tokens and the weight unchanged, the bias as one row, the first
  adapter matrix with adapter and row merged into one axis of 128 (merged row c is row c % 16 of adapter c / 16), the
  second likewise after swapping its last two axes, and the mask entry (s, c) the routing bit of token s for adapter
  c / 16. Substituting these entry by entry into the sums turns one expression into the other, term by term.
-/
import proofs.«128954_j15144054685780_2_alg».proof.Proof.Tiles
import proofs.«128954_j15144054685780_2_alg».proof.Proof.PrefixArrays

noncomputable section

open scoped BigOperators

namespace Cert.KernelIdeal.Staged

open Cert.KernelIdeal Cert.KernelIdeal.Gen Cert.Lora Idealize.ShloMosaic Idealize.ShloMosaic.TcCoe Idealize.ShloMosaic.ValueIdx

variable (m : (ℓ : Loc nD τ sig) → Buf (Elt Ideal) ℓ) (c : Dev nD)

/-- If six arrays agree entry by entry with the re-laid-out arguments, the kernel's expression over them is the
merged-adapter arrangement of the arguments: the two are the same sums, term by term. -/
theorem overStaged_of_entries (X x : SX.Idx → EReal) (W w : SW.Idx → EReal) (C : SRow.Idx → EReal)
    (bias : SBias.Idx → EReal) (A : SAd.Idx → EReal) (a : SA.Idx → EReal) (B : SAd.Idx → EReal) (b : SB.Idx → EReal)
    (M : SM.Idx → EReal) (idx : IVec SI 32)
    (hX : ∀ (s : Fin 8192) (d : Fin 4096), X (ix2 s d) = x (ix2 s d))
    (hW : ∀ (o d : Fin 4096), W (ix2 o d) = w (ix2 o d))
    (hC : ∀ o : Fin 4096, C (ix2 (0 : Fin 1) o) = bias (ix1 o))
    (hA : ∀ (cc : Fin 128) (d : Fin 4096), A (ix2 cc d) = a (ix3 (adapterOf cc) (rowOf cc) d))
    (hB : ∀ (cc : Fin 128) (o : Fin 4096), B (ix2 cc o) = b (ix4 (0 : Fin 1) (adapterOf cc) o (rowOf cc)))
    (hM : ∀ (s : Fin 8192) (cc : Fin 128), M (ix2 s cc) = route idx s (adapterOf cc)) :
    overStaged X W C A B M = viaMergedAdapters x w bias a b idx := by
  funext i
  obtain ⟨s, o, rfl⟩ : ∃ (s : Fin 8192) (o : Fin 4096), i = ix2 s o := ⟨i 0, i 1, eq_ix2 i⟩
  unfold overStaged viaMergedAdapters base proj
  show ((∑ d : Fin 4096, X (ix2 s d) * W (ix2 o d)) + C (ix2 (0 : Fin 1) o))
      + two * ∑ cc : Fin 128, ((∑ d : Fin 4096, X (ix2 s d) * A (ix2 cc d)) * M (ix2 s cc)) * B (ix2 cc o)
    = ((∑ d : Fin 4096, x (ix2 s d) * w (ix2 o d)) + bias (ix1 o))
      + two * ∑ cc : Fin 128, ((∑ d : Fin 4096, x (ix2 s d) * a (ix3 (adapterOf cc) (rowOf cc) d))
          * route idx s (adapterOf cc)) * b (ix4 (0 : Fin 1) (adapterOf cc) o (rowOf cc))
  simp only [hX, hW, hC, hA, hB, hM]

/-- Over the staged arrays the kernel computes the merged-adapter arrangement of the arguments. -/
theorem overStaged_eq :
    overStaged (V m c main_v8 : S8192x4096.Idx → EReal) (V m c main_v9 : S4096x4096.Idx → EReal)
        (V m c main_v4 : S1x4096.Idx → EReal) (V m c main_v10 : S128x4096.Idx → EReal)
        (V m c main_v11 : S128x4096.Idx → EReal) (V m c main_v7 : S8192x128.Idx → EReal)
      = viaMergedAdapters (m ((c : Thread nD τ).loc main_arg0) : S8192x4096.Idx → EReal)
          (m ((c : Thread nD τ).loc main_arg1) : S4096x4096.Idx → EReal)
          (m ((c : Thread nD τ).loc main_arg2) : S4096.Idx → EReal)
          (m ((c : Thread nD τ).loc main_arg3) : S8x16x4096.Idx → EReal)
          (m ((c : Thread nD τ).loc main_arg4) : S1x8x4096x16.Idx → EReal)
          (m ((c : Thread nD τ).loc main_arg5) : IVec S8192 32) :=
  overStaged_of_entries _ _ _ _ _ _ _ _ _ _ _ _
    (Prefix.V_main_v8 m c) (Prefix.V_main_v9 m c) (Prefix.V_main_v4 m c) (Prefix.V_main_v10 m c)
    (Prefix.V_main_v11 m c) (Prefix.V_main_v7 m c)

end Cert.KernelIdeal.Staged

end
-- ==== Proof.IdealValue.lean ====
/-
  What the fused kernel's result array holds after the run, at the ideal instance.

  The output window is written back exactly at the points with k = 7, one block (row block i, column block j) each, and
  these sixteen blocks tile the result. At such a point the body stored, at entry (r, cc) of the block, the dense
  accumulator (by then the whole sum over the contracted axis of row 2048 i + r against weight row 1024 j + cc) plus the
  bias, plus twice the contraction over the 128 merged adapter rows of the masked projection accumulator against the
  second adapter matrix: entry (2048 i + r, 1024 j + cc) of one whole-array function of the staged arrays. So the
  array ends holding that function; read through the host operations before the region it is the merged-adapter
  arrangement of the specification over the argument arrays.
-/
import proofs.«128954_j15144054685780_2_alg».proof.Proof.IdealBodyData
import proofs.«128954_j15144054685780_2_alg».proof.Proof.IdealBlocks
import proofs.«128954_j15144054685780_2_alg».proof.Proof.IdealAccum
import proofs.«128954_j15144054685780_2_alg».proof.Proof.IdealStaged
import Idealize.ShloMosaic.Lib.Pipeline.Value

set_option maxRecDepth 16384

noncomputable section

namespace Cert.KernelIdeal.Final

open Cert.KernelIdeal Cert.KernelIdeal.Gen Cert.KernelIdeal.Body Cert.Lora
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The result over the arrays the region stages. -/
def staged (c : Dev nD) : S8192x4096.Idx → EReal :=
  overStaged (V m c main_v8 : S8192x4096.Idx → EReal) (V m c main_v9 : S4096x4096.Idx → EReal)
    (V m c main_v4 : S1x4096.Idx → EReal) (V m c main_v10 : S128x4096.Idx → EReal)
    (V m c main_v11 : S128x4096.Idx → EReal) (V m c main_v7 : S8192x128.Idx → EReal)

/-- What a point with k = 7 writes back is its block of that function. -/
theorem flushed_eq (c : Dev nD) (t : Fin cfg0.N) (hf : (cfg0.win 6).flush t = true) :
    (dats (F := Ideal) m 0 c).flushed 6 t = ((cfg0.win 6).blk t).view.read (Elt Ideal) (staged m c) := by
  have h7 : t.val % 8 = 7 := (flush0_6 t).mp hf
  show (cfg0.win 6).cut (grid0.coords t) ((dats (F := Ideal) m 0 c).after 6 t) = _
  rw [after0_6]
  funext y
  obtain ⟨r, cc, rfl⟩ : ∃ (r : Fin 2048) (cc : Fin 1024), y = ix2 r cc := ⟨y 0, y 1, eq_ix2 y⟩
  rw [View.read_apply, Cert.KernelIdeal.Blocks.out_emb]
  exact Cert.KernelIdeal.Accum.out_value m c t h7 r cc

/-- The sixteen written blocks tile the result, so it ends holding the function. -/
theorem final (c : Dev nD) : (dats (F := Ideal) m 0 c).arrAt 6 cfg0.N = staged m c :=
  (dats (F := Ideal) m 0 c).arrAt_eq_of_cover 6 (staged m c) (fun t hf => flushed_eq m c t hf)
    (Cert.KernelIdeal.Blocks.out_cover c)

/-- The run: the result array ends at the merged-adapter arrangement of the argument arrays, which end unchanged. -/
theorem run : θ_run defs (onTc (τ := τ) (main (F := Ideal))) ⟨m, fun _ => 0, ρ⟩ (fun r => ∀ c : Dev nD,
      r.2.mem ((c.tc : Thread nD τ).loc main_v12)
        = viaMergedAdapters (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 6).trans ((final m c).trans (Cert.KernelIdeal.Staged.overStaged_eq m c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main (F := Ideal) m ρ)

end Cert.KernelIdeal.Final

end
-- ==== Proof.RefValue.lean ====
/-
  The reference's result read at an index.

  Entry (s, o) of the reference's result is  (∑ d, x[s,d] · w[o,d] + bias[o]) + 2 · (t₀ + t₁ + … + t₇),  where
  t_l = ∑ r, (∑ d, (x[s,d] · [idx[s] = l]) · A[l,r,d]) · B[0,l,o,r]  is the contribution of adapter l: the token's row is
  multiplied by its routing bit for l, contracted with row r of A[l], and the sixteen projections are contracted with
  column o of B[0,l]. The slices, reshapes and transposes between the stages only re-address A and B: a row-major
  reshape that drops or adds an axis of extent one keeps every other coordinate, which is the arithmetic
  (r · 4096 + d) / 4096 % 16 = r, (r · 4096 + d) % 4096 = d for r < 16, d < 4096 (and its analogues for B).
  The eight contributions are added one after the other onto an array of zeros, so their sum is the sum over
  l : Fin 8 written out, with no law beyond 0 + t = t.
-/
import proofs.«128954_j15144054685780_2_alg».proof.Proof.Spec
import proofs.«128954_j15144054685780_2_alg».proof.Proof.Gen.ReferenceIdeal.Read

noncomputable section

open scoped BigOperators

namespace Cert.Lora.RefValue

open Idealize.ShloMosaic Idealize.ShloMosaic.ValueIdx Idealize.ShloMosaic.TcCoe Idealize.SL.Sem Cert.ReferenceIdeal
  Cert.ReferenceIdeal.Gen Cert.ReferenceIdeal.Read

/-! ## Indices are equal when their coordinates are -/

theorem ix1_ext {n : Nat} (j : (⟨1, ![n]⟩ : Shape).Idx) (a : Fin n) (h0 : (j 0).val = a.val) : j = ix1 a := by
  funext e; match e with
  | ⟨0, _⟩ => exact Fin.ext h0

theorem ix2_ext {n0 n1 : Nat} (j : (⟨2, ![n0, n1]⟩ : Shape).Idx) (a : Fin n0) (b : Fin n1)
    (h0 : (j 0).val = a.val) (h1 : (j 1).val = b.val) : j = ix2 a b := by
  funext e; match e with
  | ⟨0, _⟩ => exact Fin.ext h0
  | ⟨1, _⟩ => exact Fin.ext h1

theorem ix3_ext {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  funext e; match e with
  | ⟨0, _⟩ => exact Fin.ext h0
  | ⟨1, _⟩ => exact Fin.ext h1
  | ⟨2, _⟩ => exact Fin.ext h2

theorem ix4_ext {n0 n1 n2 n3 : Nat} (j : (⟨4, ![n0, n1, n2, n3]⟩ : Shape).Idx) (a : Fin n0) (b : Fin n1) (c : Fin n2)
    (d : Fin n3) (h0 : (j 0).val = a.val) (h1 : (j 1).val = b.val) (h2 : (j 2).val = c.val) (h3 : (j 3).val = d.val) :
    j = ix4 a b c d := by
  funext e; match e with
  | ⟨0, _⟩ => exact Fin.ext h0
  | ⟨1, _⟩ => exact Fin.ext h1
  | ⟨2, _⟩ => exact Fin.ext h2
  | ⟨3, _⟩ => exact Fin.ext h3

/-- Over the extended reals the conversion of a one-bit word is its value, 0 or 1. -/
theorem uitofp_bit (c : BitVec 1) : FloatOps.uitofp (F := Ideal) .f32 c = ((c.toNat : ℝ) : EReal) := rfl

/-! ## The dense part -/

/-- Entry (s, o) of x · wᵀ + bias: the contraction runs over the second axis of both x and w (the weight enters
    transposed), and the bias is repeated along the rows. -/
theorem dense_eq (x : FVec Ideal S8192x4096 .f32) (w : FVec Ideal S4096x4096 .f32) (bias : FVec Ideal S4096 .f32)
    (s : Fin 8192) (o : Fin 4096) :
    val_main_v4 (F := Ideal) x w bias (ix2 s o) = base x w s o + bias (ix1 o) := by
  simp only [val_main_v4_apply, val_main_v1_apply, val_main_v0_apply, val_main_v3_apply, val_main_v2_apply,
    Ideal.addf_def, base]
  exact congrArg₂ (· + ·)
    (Finset.sum_congr rfl fun d _ => congrArg₂ (· * ·) (congrArg x (ix2_ext _ s d rfl rfl))
      (congrArg w (ix2_ext _ o d rfl rfl)))
    (congrArg bias (ix1_ext _ o rfl))

/-! ## One adapter's contribution -/

set_option hygiene false in
/-- The fifteen stages of adapter `L` read at entry (s, o). After the stages are opened the two sides are the same
    double sum, term by term, once the composed addresses are identified: the token's row is read at (s, d) and its
    routing bit at s; A is read at (L, r, d), because the slice starts at row L of the first axis and the reshape
    and transpose send (d, r) to (0, r, d); B is read at (0, L, o, r), because the first reshape merges the leading axis
    of extent one, the slice starts at L, and the second reshape and transpose send (r, o) to (0, o, r). -/
local macro "adapter_entry" L:num : tactic => `(tactic| (
  simp only [
    val_main_c_apply, val_main_v7_apply, val_main_v8_apply, val_main_v9_apply, val_main_v10_apply,
    val_main_v11_apply, val_main_v12_apply, val_main_v13_apply, val_main_v14_apply, val_main_v15_apply,
    val_main_v16_apply, val_main_v17_apply, val_main_v18_apply, val_main_v19_apply, val_main_v20_apply,
    val_main_c_0_apply, val_main_v22_apply, val_main_v23_apply, val_main_v24_apply, val_main_v25_apply,
    val_main_v26_apply, val_main_v27_apply, val_main_v28_apply, val_main_v29_apply, val_main_v30_apply,
    val_main_v31_apply, val_main_v32_apply, val_main_v33_apply, val_main_v34_apply, val_main_v35_apply,
    val_main_c_1_apply, val_main_v37_apply, val_main_v38_apply, val_main_v39_apply, val_main_v40_apply,
    val_main_v41_apply, val_main_v42_apply, val_main_v43_apply, val_main_v44_apply, val_main_v45_apply,
    val_main_v46_apply, val_main_v47_apply, val_main_v48_apply, val_main_v49_apply, val_main_v50_apply,
    val_main_c_2_apply, val_main_v52_apply, val_main_v53_apply, val_main_v54_apply, val_main_v55_apply,
    val_main_v56_apply, val_main_v57_apply, val_main_v58_apply, val_main_v59_apply, val_main_v60_apply,
    val_main_v61_apply, val_main_v62_apply, val_main_v63_apply, val_main_v64_apply, val_main_v65_apply,
    val_main_c_3_apply, val_main_v67_apply, val_main_v68_apply, val_main_v69_apply, val_main_v70_apply,
    val_main_v71_apply, val_main_v72_apply, val_main_v73_apply, val_main_v74_apply, val_main_v75_apply,
    val_main_v76_apply, val_main_v77_apply, val_main_v78_apply, val_main_v79_apply, val_main_v80_apply,
    val_main_c_4_apply, val_main_v82_apply, val_main_v83_apply, val_main_v84_apply, val_main_v85_apply,
    val_main_v86_apply, val_main_v87_apply, val_main_v88_apply, val_main_v89_apply, val_main_v90_apply,
    val_main_v91_apply, val_main_v92_apply, val_main_v93_apply, val_main_v94_apply, val_main_v95_apply,
    val_main_c_5_apply, val_main_v97_apply, val_main_v98_apply, val_main_v99_apply, val_main_v100_apply,
    val_main_v101_apply, val_main_v102_apply, val_main_v103_apply, val_main_v104_apply, val_main_v105_apply,
    val_main_v106_apply, val_main_v107_apply, val_main_v108_apply, val_main_v109_apply, val_main_v110_apply,
    val_main_c_6_apply, val_main_v112_apply, val_main_v113_apply, val_main_v114_apply, val_main_v115_apply,
    val_main_v116_apply, val_main_v117_apply, val_main_v118_apply, val_main_v119_apply, val_main_v120_apply,
    val_main_v121_apply, val_main_v122_apply, val_main_v123_apply, val_main_v124_apply, val_main_v125_apply,
    val_main_v5_apply, Ideal.mulf_def, uitofp_bit, adapterTerm, projMasked, route]
  refine Finset.sum_congr rfl fun r _ => congrArg₂ (· * ·) (Finset.sum_congr rfl fun d _ => ?_) (congrArg b ?_)
  · refine congrArg₂ (· * ·) (congrArg₂ (· * ·) (congrArg x (ix2_ext _ s d rfl rfl)) ?_) (congrArg a ?_)
    · exact congrArg (fun j => (((IntOp.cmpi .eq (idx j) (BitVec.ofNat 32 $L)).toNat : ℝ) : EReal)) (ix1_ext _ s rfl)
    · have hr : r.val < 16 := r.isLt
      have hd : d.val < 4096 := d.isLt
      exact ix3_ext _ ($L : Fin 8) r d rfl
        (by show (r.val * 4096 + d.val) / 4096 % 16 = r.val; omega)
        (by show (r.val * 4096 + d.val) % 4096 = d.val; omega)
  · have hr : r.val < 16 := r.isLt
    have ho : o.val < 4096 := o.isLt
    exact ix4_ext _ (0 : Fin 1) ($L : Fin 8) o r rfl
      (by show (($L * 4096 + (o.val * 16 + r.val) / 16 % 4096) * 16 + (o.val * 16 + r.val) % 16) / 65536 % 8 = $L; omega)
      (by show (($L * 4096 + (o.val * 16 + r.val) / 16 % 4096) * 16 + (o.val * 16 + r.val) % 16) / 16 % 4096 = o.val; omega)
      (by show (($L * 4096 + (o.val * 16 + r.val) / 16 % 4096) * 16 + (o.val * 16 + r.val) % 16) % 16 = r.val; omega)))

theorem adapter0_eq (x : FVec Ideal S8192x4096 .f32) (a : FVec Ideal S8x16x4096 .f32) (b : FVec Ideal S1x8x4096x16 .f32)
    (idx : IVec S8192 32) (s : Fin 8192) (o : Fin 4096) :
    val_main_v20 (F := Ideal) x a b idx (ix2 s o) = adapterTerm x a b idx (0 : Fin 8) s o := by
  adapter_entry 0

theorem adapter1_eq (x : FVec Ideal S8192x4096 .f32) (a : FVec Ideal S8x16x4096 .f32) (b : FVec Ideal S1x8x4096x16 .f32)
    (idx : IVec S8192 32) (s : Fin 8192) (o : Fin 4096) :
    val_main_v35 (F := Ideal) x a b idx (ix2 s o) = adapterTerm x a b idx (1 : Fin 8) s o := by
  adapter_entry 1

theorem adapter2_eq (x : FVec Ideal S8192x4096 .f32) (a : FVec Ideal S8x16x4096 .f32) (b : FVec Ideal S1x8x4096x16 .f32)
    (idx : IVec S8192 32) (s : Fin 8192) (o : Fin 4096) :
    val_main_v50 (F := Ideal) x a b idx (ix2 s o) = adapterTerm x a b idx (2 : Fin 8) s o := by
  adapter_entry 2

theorem adapter3_eq (x : FVec Ideal S8192x4096 .f32) (a : FVec Ideal S8x16x4096 .f32) (b : FVec Ideal S1x8x4096x16 .f32)
    (idx : IVec S8192 32) (s : Fin 8192) (o : Fin 4096) :
    val_main_v65 (F := Ideal) x a b idx (ix2 s o) = adapterTerm x a b idx (3 : Fin 8) s o := by
  adapter_entry 3

theorem adapter4_eq (x : FVec Ideal S8192x4096 .f32) (a : FVec Ideal S8x16x4096 .f32) (b : FVec Ideal S1x8x4096x16 .f32)
    (idx : IVec S8192 32) (s : Fin 8192) (o : Fin 4096) :
    val_main_v80 (F := Ideal) x a b idx (ix2 s o) = adapterTerm x a b idx (4 : Fin 8) s o := by
  adapter_entry 4

theorem adapter5_eq (x : FVec Ideal S8192x4096 .f32) (a : FVec Ideal S8x16x4096 .f32) (b : FVec Ideal S1x8x4096x16 .f32)
    (idx : IVec S8192 32) (s : Fin 8192) (o : Fin 4096) :
    val_main_v95 (F := Ideal) x a b idx (ix2 s o) = adapterTerm x a b idx (5 : Fin 8) s o := by
  adapter_entry 5

theorem adapter6_eq (x : FVec Ideal S8192x4096 .f32) (a : FVec Ideal S8x16x4096 .f32) (b : FVec Ideal S1x8x4096x16 .f32)
    (idx : IVec S8192 32) (s : Fin 8192) (o : Fin 4096) :
    val_main_v110 (F := Ideal) x a b idx (ix2 s o) = adapterTerm x a b idx (6 : Fin 8) s o := by
  adapter_entry 6

theorem adapter7_eq (x : FVec Ideal S8192x4096 .f32) (a : FVec Ideal S8x16x4096 .f32) (b : FVec Ideal S1x8x4096x16 .f32)
    (idx : IVec S8192 32) (s : Fin 8192) (o : Fin 4096) :
    val_main_v125 (F := Ideal) x a b idx (ix2 s o) = adapterTerm x a b idx (7 : Fin 8) s o := by
  adapter_entry 7

/-! ## The result -/

/-- The reference's last stage is the masked-token arrangement of the specification: the dense part, plus the float
    word of 2 times the eight adapters' contributions, which the program adds one after the other onto zeros. -/
theorem result_eq (x : FVec Ideal S8192x4096 .f32) (w : FVec Ideal S4096x4096 .f32) (bias : FVec Ideal S4096 .f32)
    (a : FVec Ideal S8x16x4096 .f32) (b : FVec Ideal S1x8x4096x16 .f32) (idx : IVec S8192 32) :
    val_main_v129 (F := Ideal) x w bias a b idx = viaMaskedTokens x w bias a b idx := by
  funext i
  obtain ⟨s, o, rfl⟩ : ∃ (s : Fin 8192) (o : Fin 4096), i = ix2 s o := ⟨i 0, i 1, eq_ix2 i⟩
  show _ = (base x w s o + bias (ix1 o)) + two * ∑ l : Fin 8, adapterTerm x a b idx l s o
  rw [val_main_v129_apply, val_main_v128_apply, val_main_v127_apply, val_main_cst_7_apply, val_main_v126_apply,
    val_main_v111_apply, val_main_v96_apply, val_main_v81_apply, val_main_v66_apply, val_main_v51_apply,
    val_main_v36_apply, val_main_v21_apply, val_main_v6_apply, val_main_cst_apply, dense_eq, adapter0_eq, adapter1_eq,
    adapter2_eq, adapter3_eq, adapter4_eq, adapter5_eq, adapter6_eq, adapter7_eq, Fin.sum_univ_eight]
  simp only [Ideal.addf_def, Ideal.mulf_def, Ideal.ofBits_def, Ideal.ofBits_zero_f32, zero_add, two]

/-- The same for the term the reference's run ends at, as a function of the memory the run starts from. -/
theorem res_eq (m : (ℓ : Loc nD τ sig) → Buf (Elt Ideal) ℓ) (c : Dev nD) :
    Cert.ReferenceIdeal.Value.res_main_v129 (F := Ideal) m c
      = viaMaskedTokens (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (val_main_v129_eq (F := Ideal) m c).trans (result_eq _ _ _ _ _ _)

end Cert.Lora.RefValue

end
-- ==== Proof.Law.lean ====
/-
  The two arrangements of the routed low-rank update agree.

  Both arrangements add the same dense term and bias; they differ only in how the low-rank sum is laid out.
  The merged arrangement sums over a single axis of 128 = 8 · 16 rows; splitting each row number c into
  (c / 16, c % 16) turns that sum into a double sum over adapters and adapter rows. What remains is, for each
  token s, adapter l and row r, the identity
      (∑ d, x[s,d] · A[l,r,d]) · m  =  ∑ d, (x[s,d] · m) · A[l,r,d],
  with m the routing bit. Over the extended reals multiplication does not distribute over sums in general
  (∞ − ∞ is the obstruction), so this identity is proved for finite x and A by computing in the reals.

  The second half reads finiteness out of the precondition. The precondition is a one-bit word: the conjunction, over
  the five float arrays, of "all entries e satisfy |e| < +∞", where |e| = max e (−e) and +∞ is the word 0x7F800000.
  The word being 1 gives each conjunct, each conjunct gives the test at every entry, and an extended real with
  max e (−e) < ⊤ is neither ⊤ nor ⊥, hence a real.
-/
import proofs.«128954_j15144054685780_2_alg».proof.Proof.Spec
import proofs.«128954_j15144054685780_2_alg».proof.Pre_finite_inputs
import proofs.«128954_j15144054685780_2_alg».proof.Proof.Gen.Pre_finite_inputs
import Idealize.ShloMosaic.Lib.ReduceAll
import Mathlib.Algebra.BigOperators.Fin
import Mathlib.Data.EReal.Basic

noncomputable section

open scoped BigOperators

namespace Cert.Lora

open Idealize.ShloMosaic Idealize.ShloMosaic.ValueIdx

/-- The inclusion of the reals in the extended reals commutes with finite sums. -/
theorem coe_finsum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A row number of the merged axis is the same thing as an adapter together with one of its rows:
c ↦ (c / 16, c % 16), with inverse (l, r) ↦ 16 l + r. -/
def mergedEquiv : Fin 128 ≃ Fin 8 × Fin 16 where
  toFun c := (adapterOf c, rowOf c)
  invFun p := ⟨p.1.val * 16 + p.2.val, by omega⟩
  left_inv c := by
    apply Fin.ext
    simp only [adapterOf, rowOf]
    omega
  right_inv p := by
    apply Prod.ext
    · apply Fin.ext
      simp only [adapterOf]
      omega
    · apply Fin.ext
      simp only [rowOf]
      omega

/-- Summing over the merged axis is summing over adapters and, inside each, over its rows. No finiteness is
needed: this is a re-indexing of a finite sum in a commutative monoid. -/
theorem sum_merged {M : Type*} [AddCommMonoid M] (f : Fin 8 → Fin 16 → M) :
    ∑ c : Fin 128, f (adapterOf c) (rowOf c) = ∑ l : Fin 8, ∑ r : Fin 16, f l r := by
  rw [← Fintype.sum_prod_type']
  exact Fintype.sum_equiv mergedEquiv _ _ (fun _ => rfl)

/-- Multiplying the projection by the routing bit is projecting the row that was multiplied by the routing bit,
when the entries of x and A are real. All three factors are then real, and in the reals the product
distributes over the sum. -/
theorem proj_mul_route (x : SX.Idx → EReal) (a : SA.Idx → EReal) (idx : IVec SI 32)
    (hx : ∀ i, ∃ r : ℝ, x i = (r : EReal)) (ha : ∀ i, ∃ r : ℝ, a i = (r : EReal))
    (s : Fin 8192) (l : Fin 8) (r : Fin 16) :
    proj x a s l r * route idx s l = projMasked x a idx s l r := by
  choose rx hrx using hx
  choose ra hra using ha
  unfold proj projMasked route
  simp only [hrx, hra, ← EReal.coe_mul, ← coe_finsum]
  rw [Finset.sum_mul]
  congr 1
  exact Finset.sum_congr rfl (fun d _ => mul_right_comm _ _ _)

/-- The two arrangements compute the same function when x and A are finite. -/
theorem viaMergedAdapters_eq_viaMaskedTokens (x : SX.Idx → EReal) (w : SW.Idx → EReal) (bias : SBias.Idx → EReal)
    (a : SA.Idx → EReal) (b : SB.Idx → EReal) (idx : IVec SI 32)
    (hx : ∀ i, ∃ r : ℝ, x i = (r : EReal)) (ha : ∀ i, ∃ r : ℝ, a i = (r : EReal)) :
    viaMergedAdapters x w bias a b idx = viaMaskedTokens x w bias a b idx := by
  funext i
  unfold viaMergedAdapters viaMaskedTokens adapterTerm
  congr 2
  rw [sum_merged (fun l r => (proj x a (i 0) l r * route idx (i 0) l) * b (ix4 (0 : Fin 1) l (i 1) r))]
  refine Finset.sum_congr rfl (fun l _ => Finset.sum_congr rfl (fun r _ => ?_))
  exact congrArg (fun t => t * b (ix4 (0 : Fin 1) l (i 1) r)) (proj_mul_route x a idx hx ha (i 0) l r)

/-- The float word 0x7F800000 denotes +∞. -/
theorem inf_word : Ideal.ofBits .f32 0x7F800000#32 = (⊤ : EReal) := by
  simp [Ideal.ofBits, Ideal.ieee]

/-- An extended real whose absolute value max e (−e) is below +∞ is neither infinity, so it is a real. -/
theorem real_of_abs_lt_top (e : EReal) (h : max e (-e) < ⊤) : ∃ r : ℝ, e = (r : EReal) := by
  induction e using EReal.rec with
  | bot => simp at h
  | coe r => exact ⟨r, rfl⟩
  | top => simp at h

/-- The element test of the precondition, |e| < +∞ as a one-bit word equal to 1, says that e is a real. -/
theorem real_of_word (e : Ideal .f32)
    (h : FloatOps.cmpf (F := Ideal) .olt (FloatOps.hostAbsf e) (FloatOps.ofBits .f32 0x7F800000#32) = 1#1) :
    ∃ r : ℝ, e = (r : EReal) := by
  apply real_of_abs_lt_top
  have h' : BitVec.ofBool (decide (max e (-e) < Ideal.ofBits .f32 0x7F800000#32)) = 1#1 := h
  rw [inf_word] at h'
  cases hd : decide (max e (-e) < (⊤ : EReal)) with
  | true => exact of_decide_eq_true hd
  | false => rw [hd] at h'; exact absurd h' (by decide)

/-- The shape with no axes has exactly one index. -/
instance law_subsingleton_scalarIdx : Subsingleton Cert.Pre_finite_inputs.S_.Idx := ⟨fun a b => funext fun d => d.elim0⟩

/-- The precondition is the conjunction, over the five float arrays, of "every entry has absolute value below +∞";
read back entry by entry it says every entry of every float array is a real. -/
theorem finite_of_pre_all [Cert.Pre_finite_inputs.Facts] (x : FVec Ideal Cert.Pre_finite_inputs.S8192x4096 .f32)
    (w : FVec Ideal Cert.Pre_finite_inputs.S4096x4096 .f32) (bias : FVec Ideal Cert.Pre_finite_inputs.S4096 .f32)
    (a : FVec Ideal Cert.Pre_finite_inputs.S8x16x4096 .f32) (b : FVec Ideal Cert.Pre_finite_inputs.S1x8x4096x16 .f32)
    (idx : IVec Cert.Pre_finite_inputs.S8192 32)
    (h : Cert.Pre_finite_inputs.fn (F := Ideal) x w bias a b idx = fun _ => 1#1) :
    (∀ i, ∃ r : ℝ, x i = (r : EReal)) ∧ (∀ i, ∃ r : ℝ, w i = (r : EReal)) ∧ (∀ i, ∃ r : ℝ, bias i = (r : EReal))
      ∧ (∀ i, ∃ r : ℝ, a i = (r : EReal)) ∧ (∀ i, ∃ r : ℝ, b i = (r : EReal)) := by
  have h0 := congrFun h ValueIdx.ix0
  dsimp only [Cert.Pre_finite_inputs.fn, Cert.Pre_finite_inputs.fn_part1] at h0
  obtain ⟨h1, hb⟩ := IntOp.andi_eq_one.1 h0
  obtain ⟨h2, ha⟩ := IntOp.andi_eq_one.1 h1
  obtain ⟨h3, hbias⟩ := IntOp.andi_eq_one.1 h2
  obtain ⟨hx, hw⟩ := IntOp.andi_eq_one.1 h3
  exact ⟨fun i => real_of_word _ (Host.reduce_andi_all _ _ _ _ _ hx i),
    fun i => real_of_word _ (Host.reduce_andi_all _ _ _ _ _ hw i),
    fun i => real_of_word _ (Host.reduce_andi_all _ _ _ _ _ hbias i),
    fun i => real_of_word _ (Host.reduce_andi_all _ _ _ _ _ ha i),
    fun i => real_of_word _ (Host.reduce_andi_all _ _ _ _ _ hb i)⟩

/-- What the law needs of the precondition: x and A are real-valued. -/
theorem finite_of_pre [Cert.Pre_finite_inputs.Facts] (x : FVec Ideal Cert.Pre_finite_inputs.S8192x4096 .f32)
    (w : FVec Ideal Cert.Pre_finite_inputs.S4096x4096 .f32) (bias : FVec Ideal Cert.Pre_finite_inputs.S4096 .f32)
    (a : FVec Ideal Cert.Pre_finite_inputs.S8x16x4096 .f32) (b : FVec Ideal Cert.Pre_finite_inputs.S1x8x4096x16 .f32)
    (idx : IVec Cert.Pre_finite_inputs.S8192 32)
    (h : Cert.Pre_finite_inputs.fn (F := Ideal) x w bias a b idx = fun _ => 1#1) :
    (∀ i, ∃ r : ℝ, x i = (r : EReal)) ∧ (∀ i, ∃ r : ℝ, a i = (r : EReal)) :=
  have hall := finite_of_pre_all x w bias a b idx h
  ⟨hall.1, hall.2.2.2.1⟩

/-- Under the precondition the two arrangements compute the same function. -/
theorem viaMergedAdapters_eq_viaMaskedTokens_of_pre [Cert.Pre_finite_inputs.Facts]
    (x : FVec Ideal Cert.Pre_finite_inputs.S8192x4096 .f32)
    (w : FVec Ideal Cert.Pre_finite_inputs.S4096x4096 .f32) (bias : FVec Ideal Cert.Pre_finite_inputs.S4096 .f32)
    (a : FVec Ideal Cert.Pre_finite_inputs.S8x16x4096 .f32) (b : FVec Ideal Cert.Pre_finite_inputs.S1x8x4096x16 .f32)
    (idx : IVec Cert.Pre_finite_inputs.S8192 32)
    (h : Cert.Pre_finite_inputs.fn (F := Ideal) x w bias a b idx = fun _ => 1#1) :
    viaMergedAdapters x w bias a b idx = viaMaskedTokens x w bias a b idx :=
  have hf := finite_of_pre x w bias a b idx h
  viaMergedAdapters_eq_viaMaskedTokens x w bias a b idx hf.1 hf.2

end Cert.Lora

end
-- ==== Proof.lean ====
/-
  The certificate of the fused dense-plus-low-rank kernel against its reference.

  Both programs compute, for token s and output column o,
      (∑ d, x[s,d] · w[o,d] + bias[o]) + 2 · ∑ l, ∑ r, (∑ d, x[s,d] · A[l,r,d]) · [idx[s] = l] · B[0,l,o,r].
  The reference zeroes the token's row per adapter and adds the eight adapters' terms; the kernel projects on all
  8 · 16 adapter rows at once, masks the rows of the adapters the token is not routed to, and contracts the merged axis
  in one product, accumulating both the dense product and the projection over eight blocks of the contracted axis in
  scratch buffers carried across the grid. The two arrangements agree on finite inputs (moving the 0/1 routing bit
  across the sum over d needs x and A real-valued; everything else is re-indexing of finite sums, valid on the
  extended reals without finiteness).

  The frames of the two kernel programs are the body run in each of its six control cases under the accumulators'
  invariant; the reference's frame is its run; the idealization rewrote nothing.
-/
import proofs.«128954_j15144054685780_2_alg».proof.Defs
import proofs.«128954_j15144054685780_2_alg».proof.Proof.Gen.Kernel
import proofs.«128954_j15144054685780_2_alg».proof.Proof.Gen.KernelIdeal
import proofs.«128954_j15144054685780_2_alg».proof.Proof.Gen.ReferenceIdeal
import proofs.«128954_j15144054685780_2_alg».proof.Proof.Gen.ReferenceIdeal.Run
import proofs.«128954_j15144054685780_2_alg».proof.Proof.Gen.Pre_finite_inputs
import proofs.«128954_j15144054685780_2_alg».proof.Proof.BitsBodyData
import proofs.«128954_j15144054685780_2_alg».proof.Proof.IdealBodyData
import proofs.«128954_j15144054685780_2_alg».proof.Proof.IdealValue
import proofs.«128954_j15144054685780_2_alg».proof.Proof.RefValue
import proofs.«128954_j15144054685780_2_alg».proof.Proof.Law
import Idealize.ShloMosaic.Adequacy
import Idealize.ShloMosaic.Init

noncomputable section

namespace Cert.Proof

open Idealize.ShloMosaic Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the masked-token arrangement of the kernel's argument arrays: the kernel's merged-adapter result
    by the law (the precondition makes x and A real-valued), the reference's by its run read index by index. -/
theorem algebraic : Cert.algebraic_KernelIdeal_ReferenceIdeal := by
  intro m ρ m' ρ' hpre hagree
  refine ⟨fun c => Cert.Lora.viaMaskedTokens (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun _ h c => ⟨(h c).1.trans ?_, (h c).2⟩) (Cert.KernelIdeal.Final.run m ρ)
    exact Cert.Lora.viaMergedAdapters_eq_viaMaskedTokens_of_pre _ _ _ _ _ _ (hpre c)
  · refine (θ_run Cert.ReferenceIdeal.defs _ _).mono (fun _ h c => ⟨(h c).1.trans ?_, (h c).2⟩) (Cert.ReferenceIdeal.Value.run (F := Ideal) m' ρ')
    rw [Cert.Lora.RefValue.res_eq m' c, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
